-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x512 : Shape := ⟨4, ![8, 64, 64, 512]⟩
abbrev S512x1536 : Shape := ⟨2, ![512, 1536]⟩
abbrev S512x512 : Shape := ⟨2, ![512, 512]⟩
abbrev S512 : Shape := ⟨1, ![512]⟩
abbrev S_ : Shape := ⟨0, ![]⟩

class Facts : Prop where
  bcast_S_S8x64x64x512 : S_.BroadcastsInDim S8x64x64x512 (![] : Fin 0 → Fin S8x64x64x512.rank)
  reducesTo_S8x64x64x512_S_d0_1_2_3 : S8x64x64x512.ReducesTo [0, 1, 2, 3] S_
  h_S_ : 0 < S_.numel
  bcast_S_S512x1536 : S_.BroadcastsInDim S512x1536 (![] : Fin 0 → Fin S512x1536.rank)
  reducesTo_S512x1536_S_d0_1 : S512x1536.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8x64x64x512 .f32) (main_arg1 : FVec F S512x1536 .f32) (main_arg2 : FVec F S512x512 .f32) (main_arg3 : FVec F S512 .f32) (main_arg4 : FVec F S512 .f32) (main_arg5 : FVec F S512 .f32) : IVec S_ 1 :=
  let main_v0 : FVec F S8x64x64x512 .f32 := Host.absf main_arg0
  let main_cst : FVec F S_ .f32 := constant S_ .f32 0x7F800000#32
  let main_v1 : FVec F S8x64x64x512 .f32 := broadcastInDim S8x64x64x512 ![] bcast_S_S8x64x64x512 main_cst
  let main_v2 : IVec S8x64x64x512 1 := cmpf .olt main_v0 main_v1
  let main_c : IVec S_ 1 := constantI S_ 1 1#1
  let main_v3 : IVec S_ 1 := (fun x v => Host.reduce IntOp.andi x v reducesTo_S8x64x64x512_S_d0_1_2_3 h_S_) main_v2 main_c
  let main_v4 : FVec F S512x1536 .f32 := Host.absf main_arg1
  let main_cst_0 : FVec F S_ .f32 := constant S_ .f32 0x7F800000#32
  let main_v5 : FVec F S512x1536 .f32 := broadcastInDim S512x1536 ![] bcast_S_S512x1536 main_cst_0
  let main_v6 : IVec S512x1536 1 := cmpf .olt main_v4 main_v5
  let main_c_1 : IVec S_ 1 := constantI S_ 1 1#1
  let main_v7 : IVec S_ 1 := (fun x v => Host.reduce IntOp.andi x v reducesTo_S512x1536_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S8x64x64x512 : Shape := ⟨4, ![8, 64, 64, 512]⟩
abbrev S512x1536 : Shape := ⟨2, ![512, 1536]⟩
abbrev S512x512 : Shape := ⟨2, ![512, 512]⟩
abbrev S512 : Shape := ⟨1, ![512]⟩
abbrev S32768x512 : Shape := ⟨2, ![32768, 512]⟩
abbrev S32768x1536 : Shape := ⟨2, ![32768, 1536]⟩
abbrev S1024x512 : Shape := ⟨2, ![1024, 512]⟩
abbrev S1024x1536 : Shape := ⟨2, ![1024, 1536]⟩
abbrev S4096x128 : Shape := ⟨2, ![4096, 128]⟩
abbrev S4096x64 : Shape := ⟨2, ![4096, 64]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S64x64 : Shape := ⟨2, ![64, 64]⟩
abbrev S2048x512 : Shape := ⟨2, ![2048, 512]⟩
abbrev S1x512 : Shape := ⟨2, ![1, 512]⟩
abbrev S2048 : Shape := ⟨1, ![2048]⟩
abbrev S2048x1 : Shape := ⟨2, ![2048, 1]⟩

abbrev nBuf : Space → Nat
  | .hbm => 11
  | .vmem => 21
  | .smem => 0
  | _ => 0

abbrev bufTy : (tb : Table) → Fin (tcTables nBuf tb) → BufTy
  | .hbm, ⟨0, _⟩ => ⟨S8x64x64x512, .f32⟩
  | .hbm, ⟨1, _⟩ => ⟨S512x1536, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S32768x512, .f32⟩
  | .hbm, ⟨7, _⟩ => ⟨S32768x1536, .bf16⟩
  | .hbm, ⟨8, _⟩ => ⟨S32768x512, .bf16⟩
  | .hbm, ⟨9, _⟩ => ⟨S32768x512, .f32⟩
  | .hbm, ⟨10, _⟩ => ⟨S8x64x64x512, .f32⟩
  | .local _ .vmem, ⟨0, _⟩ => ⟨S1024x512, .f32⟩
  | .local _ .vmem, ⟨1, _⟩ => ⟨S1024x512, .f32⟩
  | .local _ .vmem, ⟨2, _⟩ => ⟨S512x1536, .f32⟩
  | .local _ .vmem, ⟨3, _⟩ => ⟨S1024x1536, .bf16⟩
  | .local _ .vmem, ⟨4, _⟩ => ⟨S1024x1536, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S2048x512, .bf16⟩
  | .local _ .vmem, ⟨14, _⟩ => ⟨S2048x512, .bf16⟩
  | .local _ .vmem, ⟨15, _⟩ => ⟨S512x512, .f32⟩
  | .local _ .vmem, ⟨16, _⟩ => ⟨S512, .f32⟩
  | .local _ .vmem, ⟨17, _⟩ => ⟨S512, .f32⟩
  | .local _ .vmem, ⟨18, _⟩ => ⟨S512, .f32⟩
  | .local _ .vmem, ⟨19, _⟩ => ⟨S2048x512, .f32⟩
  | .local _ .vmem, ⟨20, _⟩ => ⟨S2048x512, .f32⟩
  | _, _ => ⟨S8x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S8x64x64x512_S32768x512 : S8x64x64x512.ShapeCasts S32768x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x1536_S512x1536_0_0 : ∀ a, (![0, 0] : Fin 2 → Nat) a + S512x1536.size a ≤ S512x1536.size a
  h_S512x1536 : 0 < S512x1536.numel
  inb_S1024x1536_S1024x1536_0_0 : ∀ a, (![0, 0] : Fin 2 → Nat) a + S1024x1536.size a ≤ S1024x1536.size a
  h_S1024x1536 : 0 < S1024x1536.numel
  packedbf16_S1024x1536_S1024x1536_0_0 : (Rect.unit (s := S1024x1536) ![0, 0] S1024x1536.size inb_S1024x1536_S1024x1536_0_0).PackedRows (EltTy.packing .bf16)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  slices_S4096x128_o0_0_S4096x64 : S4096x128.Slices ![0, 0] S4096x64
  reduces_S4096x64_S4096 : S4096x64.Reduces [1] S4096
  shapeCasts_S4096_S4096x1 : S4096.ShapeCasts S4096x1
  broadcasts_S4096x1_S4096x64 : S4096x1.Broadcasts S4096x64
  reduces_S4096x64_S64 : S4096x64.Reduces [0] S64
  shapeCasts_S64_S1x64 : S64.ShapeCasts S1x64
  broadcasts_S1x64_S4096x64 : S1x64.Broadcasts S4096x64
  slices_S4096x128_o0_64_S4096x64 : S4096x128.Slices ![0, 64] S4096x64
  concatenates_S4096x64_S4096x64_S4096x128_d1 : Shape.Concatenates [S4096x64, S4096x64] S4096x128 1
  packedbf16_S4096x128_S4096x128_0_0 : (Rect.unit (s := S4096x128) ![0, 0] S4096x128.size inb_S4096x128_S4096x128_0_0).PackedRows (EltTy.packing .bf16)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  shapeCasts_S32768x512_S8x64x64x512 : S32768x512.ShapeCasts S8x64x64x512
  dot_S1024x512_S512x1536_S1024x1536_1_0_0_1_n_n_wf : DotDims.WF S1024x512 S512x1536 S1024x1536 [1] [0] [0] [1] [] []
  dot_S4096x64_S4096x64_S64x64_0_0_1_1_n_n_wf : DotDims.WF S4096x64 S4096x64 S64x64 [0] [0] [1] [1] [] []
  dot_S4096x64_S64x64_S4096x64_1_0_0_1_n_n_wf : DotDims.WF S4096x64 S64x64 S4096x64 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .f32 = 32 ∨ (Rect.block (s := S512x1536) S512x1536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1536.size a ≤ S32768x1536.size a
  hwx0_2 : ∀ i : grid0.Coords, EltTy.bits .bf16 = 32 ∨ (Rect.block (s := S32768x1536) S1024x1536.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S32768x1536.size a
  hwx1_0 : ∀ i : grid1.Coords, EltTy.bits .bf16 = 32 ∨ (Rect.block (s := S32768x1536) S4096x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S32768x1536.size a
  hwx1_1 : ∀ i : grid1.Coords, EltTy.bits .bf16 = 32 ∨ (Rect.block (s := S32768x1536) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S32768x1536.size a
  hwx1_2 : ∀ i : grid1.Coords, EltTy.bits .bf16 = 32 ∨ (Rect.block (s := S32768x1536) S4096x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S32768x512.size a
  hwx1_3 : ∀ i : grid1.Coords, EltTy.bits .bf16 = 32 ∨ (Rect.block (s := S32768x512) S4096x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S32768x512.size a
  hwx2_0 : ∀ i : grid2.Coords, EltTy.bits .bf16 = 32 ∨ (Rect.block (s := S32768x512) S2048x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512.size a ≤ S512.size a
  hwx2_3 : ∀ i : grid2.Coords, EltTy.bits .f32 = 32 ∨ (Rect.block (s := S512) S512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512.size a ≤ S512.size a
  hwx2_4 : ∀ i : grid2.Coords, EltTy.bits .f32 = 32 ∨ (Rect.block (s := S512) S512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x512.size a ≤ S32768x512.size a
  hwx2_5 : ∀ i : grid2.Coords, EltTy.bits .f32 = 32 ∨ (Rect.block (s := S32768x512) S2048x512.size (cc2_transform_5 i) (hinb2_5 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v3) S2048x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8x64x64x512 : Shape := ⟨4, ![8, 64, 64, 512]⟩
abbrev S512x1536 : Shape := ⟨2, ![512, 1536]⟩
abbrev S512x512 : Shape := ⟨2, ![512, 512]⟩
abbrev S512 : Shape := ⟨1, ![512]⟩
abbrev S8x64x64x1536 : Shape := ⟨4, ![8, 64, 64, 1536]⟩
abbrev S8x4096x3x8x64 : Shape := ⟨5, ![8, 4096, 3, 8, 64]⟩
abbrev S3x8x8x64x4096 : Shape := ⟨5, ![3, 8, 8, 64, 4096]⟩
abbrev S1x8x8x64x4096 : Shape := ⟨5, ![1, 8, 8, 64, 4096]⟩
abbrev S8x8x64x4096 : Shape := ⟨4, ![8, 8, 64, 4096]⟩
abbrev S_ : Shape := ⟨0, ![]⟩
abbrev S8x8x4096 : Shape := ⟨3, ![8, 8, 4096]⟩
abbrev S8x8x1x4096 : Shape := ⟨4, ![8, 8, 1, 4096]⟩
abbrev S8x8x64 : Shape := ⟨3, ![8, 8, 64]⟩
abbrev S8x8x64x1 : Shape := ⟨4, ![8, 8, 64, 1]⟩
abbrev S8x8x64x64 : Shape := ⟨4, ![8, 8, 64, 64]⟩
abbrev S8x4096x8x64 : Shape := ⟨4, ![8, 4096, 8, 64]⟩
abbrev S1x1x1x512 : Shape := ⟨4, ![1, 1, 1, 512]⟩
abbrev S8x64x64 : Shape := ⟨3, ![8, 64, 64]⟩
abbrev S8x64x64x1 : Shape := ⟨4, ![8, 64, 64, 1]⟩

abbrev nBuf : Space → Nat
  | .hbm => 98
  | .vmem => 0
  | .smem => 0
  | _ => 0

abbrev bufTy : (tb : Table) → Fin (tcTables nBuf tb) → BufTy
  | .hbm, ⟨0, _⟩ => ⟨S8x64x64x512, .f32⟩
  | .hbm, ⟨1, _⟩ => ⟨S512x1536, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S8x64x64x1536, .f32⟩
  | .hbm, ⟨7, _⟩ => ⟨S8x4096x3x8x64, .f32⟩
  | .hbm, ⟨8, _⟩ => ⟨S3x8x8x64x4096, .f32⟩
  | .hbm, ⟨9, _⟩ => ⟨S1x8x8x64x4096, .f32⟩
  | .hbm, ⟨10, _⟩ => ⟨S8x8x64x4096, .f32⟩
  | .hbm, ⟨11, _⟩ => ⟨S1x8x8x64x4096, .f32⟩
  | .hbm, ⟨12, _⟩ => ⟨S8x8x64x4096, .f32⟩
  | .hbm, ⟨13, _⟩ => ⟨S1x8x8x64x4096, .f32⟩
  | .hbm, ⟨14, _⟩ => ⟨S8x8x64x4096, .f32⟩
  | .hbm, ⟨15, _⟩ => ⟨S_, .f32⟩
  | .hbm, ⟨16, _⟩ => ⟨S8x8x4096, .f32⟩
  | .hbm, ⟨17, _⟩ => ⟨S_, .f32⟩
  | .hbm, ⟨18, _⟩ => ⟨S8x8x4096, .f32⟩
  | .hbm, ⟨19, _⟩ => ⟨S8x8x4096, .f32⟩
  | .hbm, ⟨20, _⟩ => ⟨S8x8x1x4096, .f32⟩
  | .hbm, ⟨21, _⟩ => ⟨S8x8x64x4096, .f32⟩
  | .hbm, ⟨22, _⟩ => ⟨S8x8x64x4096, .f32⟩
  | .hbm, ⟨23, _⟩ => ⟨S8x8x64x4096, .f32⟩
  | .hbm, ⟨24, _⟩ => ⟨S_, .f32⟩
  | .hbm, ⟨25, _⟩ => ⟨S8x8x4096, .f32⟩
  | .hbm, ⟨26, _⟩ => ⟨S8x8x1x4096, .f32⟩
  | .hbm, ⟨27, _⟩ => ⟨S8x8x64x4096, .f32⟩
  | .hbm, ⟨28, _⟩ => ⟨S8x8x64x4096, .f32⟩
  | .hbm, ⟨29, _⟩ => ⟨S_, .f32⟩
  | .hbm, ⟨30, _⟩ => ⟨S8x8x64, .f32⟩
  | .hbm, ⟨31, _⟩ => ⟨S_, .f32⟩
  | .hbm, ⟨32, _⟩ => ⟨S8x8x64, .f32⟩
  | .hbm, ⟨33, _⟩ => ⟨S8x8x64, .f32⟩
  | .hbm, ⟨34, _⟩ => ⟨S8x8x64x1, .f32⟩
  | .hbm, ⟨35, _⟩ => ⟨S8x8x64x4096, .f32⟩
  | .hbm, ⟨36, _⟩ => ⟨S8x8x64x4096, .f32⟩
  | .hbm, ⟨37, _⟩ => ⟨S8x8x64x4096, .f32⟩
  | .hbm, ⟨38, _⟩ => ⟨S_, .f32⟩
  | .hbm, ⟨39, _⟩ => ⟨S8x8x64, .f32⟩
  | .hbm, ⟨40, _⟩ => ⟨S8x8x64x1, .f32⟩
  | .hbm, ⟨41, _⟩ => ⟨S8x8x64x4096, .f32⟩
  | .hbm, ⟨42, _⟩ => ⟨S8x8x64x4096, .f32⟩
  | .hbm, ⟨43, _⟩ => ⟨S_, .f32⟩
  | .hbm, ⟨44, _⟩ => ⟨S8x8x64x4096, .f32⟩
  | .hbm, ⟨45, _⟩ => ⟨S8x8x64x4096, .f32⟩
  | .hbm, ⟨46, _⟩ => ⟨S8x8x64x64, .f32⟩
  | .hbm, ⟨47, _⟩ => ⟨S8x8x64x4096, .f32⟩
  | .hbm, ⟨48, _⟩ => ⟨S8x4096x8x64, .f32⟩
  | .hbm, ⟨49, _⟩ => ⟨S8x64x64x512, .f32⟩
  | .hbm, ⟨50, _⟩ => ⟨S8x64x64x512, .f32⟩
  | .hbm, ⟨51, _⟩ => ⟨S1x1x1x512, .f32⟩
  | .hbm, ⟨52, _⟩ => ⟨S8x64x64x512, .f32⟩
  | .hbm, ⟨53, _⟩ => ⟨S8x64x64x512, .f32⟩
  | .hbm, ⟨54, _⟩ => ⟨S_, .f32⟩
  | .hbm, ⟨55, _⟩ => ⟨S8x64x64, .f32⟩
  | .hbm, ⟨56, _⟩ => ⟨S8x64x64x1, .f32⟩
  | .hbm, ⟨57, _⟩ => ⟨S_, .f32⟩
  | .hbm, ⟨58, _⟩ => ⟨S8x64x64x1, .f32⟩
  | .hbm, ⟨59, _⟩ => ⟨S8x64x64x1, .f32⟩
  | .hbm, ⟨60, _⟩ => ⟨S_, .i32⟩
  | .hbm, ⟨61, _⟩ => ⟨S_, .f32⟩
  | .hbm, ⟨62, _⟩ => ⟨S8x64x64, .f32⟩
  | .hbm, ⟨63, _⟩ => ⟨S8x64x64x1, .f32⟩
  | .hbm, ⟨64, _⟩ => ⟨S_, .f32⟩
  | .hbm, ⟨65, _⟩ => ⟨S8x64x64x1, .f32⟩
  | .hbm, ⟨66, _⟩ => ⟨S8x64x64x1, .f32⟩
  | .hbm, ⟨67, _⟩ => ⟨S8x64x64x512, .f32⟩
  | .hbm, ⟨68, _⟩ => ⟨S8x64x64x512, .f32⟩
  | .hbm, ⟨69, _⟩ => ⟨S8x64x64x512, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S8x64x64, .f32⟩
  | .hbm, ⟨75, _⟩ => ⟨S8x64x64x1, .f32⟩
  | .hbm, ⟨76, _⟩ => ⟨S8x64x64x1, .f32⟩
  | .hbm, ⟨77, _⟩ => ⟨S8x64x64x1, .f32⟩
  | .hbm, ⟨78, _⟩ => ⟨S_, .f32⟩
  | .hbm, ⟨79, _⟩ => ⟨S_, .i1⟩
  | .hbm, ⟨80, _⟩ => ⟨S_, .f32⟩
  | .hbm, ⟨81, _⟩ => ⟨S_, .f32⟩
  | .hbm, ⟨82, _⟩ => ⟨S8x64x64x1, .f32⟩
  | .hbm, ⟨83, _⟩ => ⟨S8x64x64x1, .f32⟩
  | .hbm, ⟨84, _⟩ => ⟨S8x64x64x512, .f32⟩
  | .hbm, ⟨85, _⟩ => ⟨S8x64x64x512, .f32⟩
  | .hbm, ⟨86, _⟩ => ⟨S_, .f32⟩
  | .hbm, ⟨87, _⟩ => ⟨S8x64x64x1, .f32⟩
  | .hbm, ⟨88, _⟩ => ⟨S8x64x64x1, .f32⟩
  | .hbm, ⟨89, _⟩ => ⟨S8x64x64x1, .f32⟩
  | .hbm, ⟨90, _⟩ => ⟨S8x64x64x512, .f32⟩
  | .hbm, ⟨91, _⟩ => ⟨S8x64x64x512, .f32⟩
  | .hbm, ⟨92, _⟩ => ⟨S1x1x1x512, .f32⟩
  | .hbm, ⟨93, _⟩ => ⟨S8x64x64x512, .f32⟩
  | .hbm, ⟨94, _⟩ => ⟨S8x64x64x512, .f32⟩
  | .hbm, ⟨95, _⟩ => ⟨S1x1x1x512, .f32⟩
  | .hbm, ⟨96, _⟩ => ⟨S8x64x64x512, .f32⟩
  | .hbm, ⟨97, _⟩ => ⟨S8x64x64x512, .f32⟩
  | _, _ => ⟨S8x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_c : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_cst_0 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_cst_1 : Ref sig .tc := ⟨.hbm, 71, rfl⟩
abbrev main_call0_v8 : Ref sig .tc := ⟨.hbm, 72, rfl⟩
abbrev main_call0_cst_2 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_v12 : Ref sig .tc := ⟨.hbm, 77, rfl⟩
abbrev main_call0_cst_3 : Ref sig .tc := ⟨.hbm, 78, rfl⟩
abbrev main_call0_v13 : Ref sig .tc := ⟨.hbm, 79, rfl⟩
abbrev main_call0_cst_4 : Ref sig .tc := ⟨.hbm, 80, rfl⟩
abbrev main_call0_call0_v0 : Ref sig .tc := ⟨.hbm, 81, rfl⟩
abbrev main_call0_call0_v1 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_8 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩

abbrev nD : Nat := 1
abbrev τ : Topo := Topo.v7x

variable {F : FTy → Type} [FloatOps F]

class Facts₀ : Prop where
  shapeCasts_S8x64x64x1536_S8x4096x3x8x64 : S8x64x64x1536.ShapeCasts S8x4096x3x8x64
  transposes_S8x4096x3x8x64_S3x8x8x64x4096_2_0_3_4_1 : S8x4096x3x8x64.Transposes [2, 0, 3, 4, 1] S3x8x8x64x4096
  slices_S3x8x8x64x4096_S1x8x8x64x4096_0_0_0_0_0 : S3x8x8x64x4096.Slices ![0, 0, 0, 0, 0] S1x8x8x64x4096
  shapeCasts_S1x8x8x64x4096_S8x8x64x4096 : S1x8x8x64x4096.ShapeCasts S8x8x64x4096
  slices_S3x8x8x64x4096_S1x8x8x64x4096_1_0_0_0_0 : S3x8x8x64x4096.Slices ![1, 0, 0, 0, 0] S1x8x8x64x4096
  slices_S3x8x8x64x4096_S1x8x8x64x4096_2_0_0_0_0 : S3x8x8x64x4096.Slices ![2, 0, 0, 0, 0] S1x8x8x64x4096
  reducesTo_S8x8x64x4096_S8x8x4096_d2 : S8x8x64x4096.ReducesTo [2] S8x8x4096
  h_S_ : 0 < S_.numel
  bcast_S_S8x8x4096 : S_.BroadcastsInDim S8x8x4096 (![] : Fin 0 → Fin S8x8x4096.rank)
  bcast_S8x8x4096_S8x8x1x4096_0_1_3 : S8x8x4096.BroadcastsInDim S8x8x1x4096 (![0, 1, 3] : Fin 3 → Fin S8x8x1x4096.rank)
  bcast_S8x8x1x4096_S8x8x64x4096_0_1_2_3 : S8x8x1x4096.BroadcastsInDim S8x8x64x4096 (![0, 1, 2, 3] : Fin 4 → Fin S8x8x64x4096.rank)
  reducesTo_S8x8x64x4096_S8x8x64_d3 : S8x8x64x4096.ReducesTo [3] S8x8x64
  bcast_S_S8x8x64 : S_.BroadcastsInDim S8x8x64 (![] : Fin 0 → Fin S8x8x64.rank)
  bcast_S8x8x64_S8x8x64x1_0_1_2 : S8x8x64.BroadcastsInDim S8x8x64x1 (![0, 1, 2] : Fin 3 → Fin S8x8x64x1.rank)
  bcast_S8x8x64x1_S8x8x64x4096_0_1_2_3 : S8x8x64x1.BroadcastsInDim S8x8x64x4096 (![0, 1, 2, 3] : Fin 4 → Fin S8x8x64x4096.rank)
  bcast_S_S8x8x64x4096 : S_.BroadcastsInDim S8x8x64x4096 (![] : Fin 0 → Fin S8x8x64x4096.rank)
  transposes_S8x8x64x4096_S8x4096x8x64_0_3_1_2 : S8x8x64x4096.Transposes [0, 3, 1, 2] S8x4096x8x64
  shapeCasts_S8x4096x8x64_S8x64x64x512 : S8x4096x8x64.ShapeCasts S8x64x64x512
  bcast_S512_S1x1x1x512_3 : S512.BroadcastsInDim S1x1x1x512 (![3] : Fin 1 → Fin S1x1x1x512.rank)
  bcast_S1x1x1x512_S8x64x64x512_0_1_2_3 : S1x1x1x512.BroadcastsInDim S8x64x64x512 (![0, 1, 2, 3] : Fin 4 → Fin S8x64x64x512.rank)
  reducesTo_S8x64x64x512_S8x64x64_d3 : S8x64x64x512.ReducesTo [3] S8x64x64
  bcast_S8x64x64_S8x64x64x1_0_1_2 : S8x64x64.BroadcastsInDim S8x64x64x1 (![0, 1, 2] : Fin 3 → Fin S8x64x64x1.rank)
  bcast_S_S8x64x64x1 : S_.BroadcastsInDim S8x64x64x1 (![] : Fin 0 → Fin S8x64x64x1.rank)
  bcast_S8x64x64x1_S8x64x64x512_0_1_2_3 : S8x64x64x1.BroadcastsInDim S8x64x64x512 (![0, 1, 2, 3] : Fin 4 → Fin S8x64x64x512.rank)
  dot_S8x64x64x512_S512x1536_S8x64x64x1536_3_0_012_1_n_n_wf : DotDims.WF S8x64x64x512 S512x1536 S8x64x64x1536 [3] [0] [0, 1, 2] [1] [] []
  dot_S8x8x64x4096_S8x8x64x4096_S8x8x64x64_3_3_2_2_01_01_wf : DotDims.WF S8x8x64x4096 S8x8x64x4096 S8x8x64x64 [3] [3] [2] [2] [0, 1] [0, 1]
  dot_S8x8x64x64_S8x8x64x4096_S8x8x64x4096_2_2_3_3_01_01_wf : DotDims.WF S8x8x64x64 S8x8x64x4096 S8x8x64x4096 [2] [2] [3] [3] [0, 1] [0, 1]
  dot_S8x64x64x512_S512x512_S8x64x64x512_3_0_012_1_n_n_wf : DotDims.WF S8x64x64x512 S512x512 S8x64x64x512 [3] [0] [0, 1, 2] [1] [] []

variable [Facts₀]

def dot_S8x64x64x512_S512x1536_S8x64x64x1536_3_0_012_1_n_n : DotDims S8x64x64x512 S512x1536 S8x64x64x1536 where
  lhsContracting := [3]
  rhsContracting := [0]
  lhsNonContracting := [0, 1, 2]
  rhsNonContracting := [1]
  lhsBatch := []
  rhsBatch := []
  wf := dot_S8x64x64x512_S512x1536_S8x64x64x1536_3_0_012_1_n_n_wf
def dot_S8x8x64x4096_S8x8x64x4096_S8x8x64x64_3_3_2_2_01_01 : DotDims S8x8x64x4096 S8x8x64x4096 S8x8x64x64 where
  lhsContracting := [3]
  rhsContracting := [3]
  lhsNonContracting := [2]
  rhsNonContracting := [2]
  lhsBatch := [0, 1]
  rhsBatch := [0, 1]
  wf := dot_S8x8x64x4096_S8x8x64x4096_S8x8x64x64_3_3_2_2_01_01_wf
def dot_S8x8x64x64_S8x8x64x4096_S8x8x64x4096_2_2_3_3_01_01 : DotDims S8x8x64x64 S8x8x64x4096 S8x8x64x4096 where
  lhsContracting := [2]
  rhsContracting := [2]
  lhsNonContracting := [3]
  rhsNonContracting := [3]
  lhsBatch := [0, 1]
  rhsBatch := [0, 1]
  wf := dot_S8x8x64x64_S8x8x64x4096_S8x8x64x4096_2_2_3_3_01_01_wf
def dot_S8x64x64x512_S512x512_S8x64x64x512_3_0_012_1_n_n : DotDims S8x64x64x512 S512x512 S8x64x64x512 where
  lhsContracting := [3]
  rhsContracting := [0]
  lhsNonContracting := [0, 1, 2]
  rhsNonContracting := [1]
  lhsBatch := []
  rhsBatch := []
  wf := dot_S8x64x64x512_S512x512_S8x64x64x512_3_0_012_1_n_n_wf

class Facts : Prop extends Facts₀ where

variable [Facts]
-- ==== Proof.BFrame0.lean ====
/-
  The first pallas_call, at any float instance and any contents V of the device's buffers on entry.

  Its grid has 32 points; point t stages rows 1024·t … 1024·t + 1023 of the token matrix (window 0), the whole
  projection matrix (window 1, fetched once) and the same rows of the result (window 2). The body loads the two
  input blocks whole, computes one value from them and stores it over the whole output block; so after the body
  the output's staging buffer holds that value of the two input blocks, and the inputs' buffers are as found.
-/
import proofs.«132770_j30940944400685_2_alg».proof.Proof.Gen.Kernel.Launch
import proofs.«132770_j30940944400685_2_alg».proof.Proof.Gen.Kernel.Skeleton
import proofs.«132770_j30940944400685_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each block whole -/

abbrev r0_0 : Rect S1024x512 := Rect.unit (s := S1024x512) ![0, 0] S1024x512.size inb_S1024x512_S1024x512_0_0
abbrev r0_1 : Rect S512x1536 := Rect.unit (s := S512x1536) ![0, 0] S512x1536.size inb_S512x1536_S512x1536_0_0
abbrev r0_2 : Rect S1024x1536 := Rect.unit (s := S1024x1536) ![0, 0] S1024x1536.size inb_S1024x1536_S1024x1536_0_0

/-- The output's staging buffer after the body, from the two input blocks: its one store. -/
def out0_2 (x0 : Vec F S1024x512 .f32) (x1 : Vec F S512x1536 .f32) : Vec F S1024x1536 .bf16 :=
  View.canon [⟨r0_2, k0_pay1 (View.ld x0 r0_0) (View.ld x1 r0_1)⟩]

/-- The one store covers the buffer. -/
theorem cover0_2 (p0 : Vec F S1024x1536 .bf16) (y : S1024x1536.Idx) :
    ∃ pc ∈ ([⟨r0_2, p0⟩] : List (View.Piece (Elt F) S1024x1536 .bf16)), y ∈ pc.1.set :=
  View.cover_of_tiled [⟨r0_2, p0⟩] S1024x1536.size (by rfl) y

/-! ## The body's triple -/

set_option maxHeartbeats 1000000 in
theorem sound_kernel0 (c : Dev nD) (E : Set ℕ) (i : grid0.Coords)
    (arg1 : Memref sig .tc .vmem S1024x512 .f32) (harg1 : arg1.IsWhole) (arg2 : Memref sig .tc .vmem S512x1536 .f32) (harg2 : arg2.IsWhole)
    (arg3 : Memref sig .tc .vmem S1024x1536 .bf16) (harg3 : arg3.IsWhole)
    (x0 : Vec F S1024x512 .f32) (x1 : Vec F S512x1536 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.BFrame1.lean ====
/-
  The second pallas_call, at any float instance and any contents V of the device's buffers on entry.

  Its grid has 8 · 4 points, an image and a pair of heads; a point stages the image's 4096 rows of three 128-lane
  column slabs of ONE matrix — the pair's queries, keys and values (windows 0, 1, 2) — and the same rows of the
  pair's 128 lanes of the result (window 3). The three input windows read the same array, so the device holds it in
  three shares, one per window. The body loads the three input blocks whole, computes one value from them and
  stores it over the whole output block.
-/
import proofs.«132770_j30940944400685_2_alg».proof.Proof.Gen.Kernel.Launch
import proofs.«132770_j30940944400685_2_alg».proof.Proof.Gen.Kernel.Skeleton
import proofs.«132770_j30940944400685_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each block whole -/

abbrev r1_0 : Rect S4096x128 := Rect.unit (s := S4096x128) ![0, 0] S4096x128.size inb_S4096x128_S4096x128_0_0

/-- The output's staging buffer after the body, from the three input blocks: its one store. -/
def out1_3 (x0 x1 x2 : Vec F S4096x128 .bf16) : Vec F S4096x128 .bf16 :=
  View.canon [⟨r1_0, k1_pay1 (k1_pay5 (View.ld x0 r1_0) (View.ld x1 r1_0) (View.ld x2 r1_0)) (k1_pay6 (View.ld x0 r1_0))
    (k1_pay7 (View.ld x1 r1_0)) (k1_pay8 (View.ld x2 r1_0)) (k1_pay9 (View.ld x0 r1_0))⟩]

theorem cover1_3 (p0 : Vec F S4096x128 .bf16) (y : S4096x128.Idx) :
    ∃ pc ∈ ([⟨r1_0, p0⟩] : List (View.Piece (Elt F) S4096x128 .bf16)), y ∈ pc.1.set :=
  View.cover_of_tiled [⟨r1_0, p0⟩] S4096x128.size (by rfl) y

/-! ## The body's triple -/

set_option maxHeartbeats 1000000 in
set_option maxRecDepth 65536 in
theorem sound_kernel1 (c : Dev nD) (E : Set ℕ) (i : grid1.Coords)
    (arg2 : Memref sig .tc .vmem S4096x128 .bf16) (harg2 : arg2.IsWhole) (arg3 : Memref sig .tc .vmem S4096x128 .bf16) (harg3 : arg3.IsWhole)
    (arg4 : Memref sig .tc .vmem S4096x128 .bf16) (harg4 : arg4.IsWhole) (arg5 : Memref sig .tc .vmem S4096x128 .bf16) (harg5 : arg5.IsWhole)
    (x0 x1 x2 : Vec F S4096x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  dsimp only
  exact View.read_writes_eq_canon _ _ _ (cover1_3 _)

/-! ## The proof data -/

/-- The share of the common array each input window reads through: together the full share. -/
def q1 (w : Fin cfg1.W) : PosShare TreeShare := match w with
  | ⟨0, _⟩ => fullShare.left
  | ⟨1, _⟩ => fullShare.right.left
  | ⟨2, _⟩ => fullShare.right.right
  | ⟨3, _⟩ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.BFrame2.lean ====
/-
  The third pallas_call, at any float instance and any contents V of the device's buffers on entry.

  Its grid has 16 points; point t stages rows 2048·t … 2048·t + 2047 of the attention matrix (window 0), the whole
  output matrix, the bias, the gain and the offset (windows 1–4, each fetched once) and the same rows of the
  result (window 5). The body loads the five input blocks whole, computes one value from them and stores it over
  the whole output block.
-/
import proofs.«132770_j30940944400685_2_alg».proof.Proof.Gen.Kernel.Launch
import proofs.«132770_j30940944400685_2_alg».proof.Proof.Gen.Kernel.Skeleton
import proofs.«132770_j30940944400685_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each block whole -/

abbrev r2_0 : Rect S2048x512 := Rect.unit (s := S2048x512) ![0, 0] S2048x512.size inb_S2048x512_S2048x512_0_0
abbrev r2_1 : Rect S512x512 := Rect.unit (s := S512x512) ![0, 0] S512x512.size inb_S512x512_S512x512_0_0
abbrev r2_v : Rect S512 := Rect.unit (s := S512) ![0] S512.size inb_S512_S512_0

/-- The output's staging buffer after the body, from the five input blocks: its one store. -/
def out2_5 (x0 : Vec F S2048x512 .bf16) (x1 : Vec F S512x512 .f32) (x2 x3 x4 : Vec F S512 .f32) : Vec F S2048x512 .f32 :=
  View.canon [⟨r2_0, k2_pay1 (View.ld x0 r2_0) (View.ld x1 r2_1) (View.ld x2 r2_v) (View.ld x3 r2_v) (View.ld x4 r2_v)⟩]

theorem cover2_5 (p0 : Vec F S2048x512 .f32) (y : S2048x512.Idx) :
    ∃ pc ∈ ([⟨r2_0, p0⟩] : List (View.Piece (Elt F) S2048x512 .f32)), y ∈ pc.1.set :=
  View.cover_of_tiled [⟨r2_0, p0⟩] S2048x512.size (by rfl) y

/-! ## The body's triple -/

set_option maxHeartbeats 1000000 in
theorem sound_kernel2 (c : Dev nD) (E : Set ℕ) (i : grid2.Coords)
    (arg1 : Memref sig .tc .vmem S2048x512 .bf16) (harg1 : arg1.IsWhole) (arg2 : Memref sig .tc .vmem S512x512 .f32) (harg2 : arg2.IsWhole)
    (arg3 : Memref sig .tc .vmem S512 .f32) (harg3 : arg3.IsWhole) (arg4 : Memref sig .tc .vmem S512 .f32) (harg4 : arg4.IsWhole)
    (arg5 : Memref sig .tc .vmem S512 .f32) (harg5 : arg5.IsWhole) (arg6 : Memref sig .tc .vmem S2048x512 .f32) (harg6 : arg6.IsWhole)
    (x0 : Vec F S2048x512 .bf16) (x1 : Vec F S512x512 .f32) (x2 x3 x4 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__outproj_kernel i arg1 harg1 arg2 harg2 arg3 harg3 arg4 harg4 arg5 harg5 arg6 harg6) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.BRunDefs.lean ====
/-
  The device's buffer contents at each boundary of the program: at launch; after the reshape of the input to a
  [32768, 512] matrix; after each of the three pallas_calls, which changes exactly its output array (to what its
  write-backs leave) and nothing else; after the final reshape. And the three regions' proof data, each at the
  contents its region is entered from.
-/
import proofs.«132770_j30940944400685_2_alg».proof.Proof.BFrame0
import proofs.«132770_j30940944400685_2_alg».proof.Proof.BFrame1
import proofs.«132770_j30940944400685_2_alg».proof.Proof.BFrame2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the first region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region: its output array at what the pipeline leaves, every other buffer as entered. (Its
    three input windows read one array, which it leaves as found.) -/
def W3 (c : Dev nD) : Valuation τ sig (Elt F) :=
  Function.update (W2 m ρ c) main_v2 ((dat1 (V2 m ρ) c).arrAt 3 cfg1.N)
theorem W3_out (c : Dev nD) : W3 m ρ c main_v2 = (dat1 (V2 m ρ) c).arrAt 3 cfg1.N := by
  unfold W3; exact Function.update_self ..
theorem W3_of_ne (c : Dev nD) (b : Ref sig .tc) (hb : b ≠ main_v2) : W3 m ρ c b = W2 m ρ c b := by
  unfold W3
  exact Function.update_of_ne (StableHlo.devRef_ne_of_ne hb : (Proc.devRef .tc b : DevRef τ sig) ≠ Proc.devRef .tc main_v2) _ _
abbrev V3 : (c : Dev nD) → (b : Ref sig .tc) → Buf (Elt F) ((c : Thread nD τ).loc b) := fun c b => W3 m ρ c b

/-- After the third region. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the last host stretch (the end). -/
abbrev W5 : Dev nD → Valuation τ sig (Elt F) := fun c => StableHlo.after hostOps3 (W4 m ρ c)

/-! ## The proof data family and what rides along -/

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c

abbrev 𝒱₀ : Variants := Variants.none
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes. -/
abbrev Tₙ (c : Dev nD) : sProp 𝕄 := iprop(StableHlo.held (c : Thread nD τ) (Pipeline.ucRefs τ sig) (W5 m ρ c) ∗ ∃ r, prngReg c r)

end Cert.Kernel.Fr

end
-- ==== Proof.BReg02.lean ====
/-
  The first and third pallas_calls as segments of the program: each window reads its own array, so a region's
  arrays are split out of the device's unscoped buffers at its entry and put back at its exit.
-/
import proofs.«132770_j30940944400685_2_alg».proof.Proof.BRunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Entered from every unscoped buffer at the contents before it, left at the contents after it: its arrays are split
    out of the unscoped buffers and put back at what the pipeline leaves; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Entered from every unscoped buffer at the contents before it, left at the contents after it: its arrays are split
    out of the unscoped buffers and put back at what the pipeline leaves; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.BRun.lean ====
/-
  The program as five segments — the reshape, the three pallas_calls, the reshape — and its launch: from any memory,
  every weakly fair execution terminates without a fault, and the final memory holds every unscoped buffer at the
  last boundary's contents. The second pallas_call's segment is a parameter here (its windows share an array, so
  its entry and exit are proved apart); it has to chain with its neighbours.
-/
import proofs.«132770_j30940944400685_2_alg».proof.Proof.BReg02
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Reg1 : Type _ := Pipeline.RegionSeg (pcfgs (F := F)) adm (pdats m ρ) () defs₀ 𝒱₀ L lv 1

abbrev segs (R1 : Reg1 m ρ) : List (Pipeline.Seg (pcfgs (F := F)) adm (pdats m ρ) () defs₀ 𝒱₀ L lv) :=
  [ .host (hseg hostOps0 hostOps0_sub hostOps0_fresh' (W0 m ρ)),
    .region (reg0 m ρ),
    .region R1,
    .region (reg2 m ρ),
    .host (hseg hostOps3 hostOps3_sub hostOps3_fresh' (W4 m ρ)) ]

theorem main_run (R1 : Reg1 m ρ) (c : Dev nD) : main (F := F) c = Pipeline.Seg.run (segs m ρ R1) :=
  (main_chain c).trans (by chain_rfl)

set_option backward.isDefEq.respectTransparency.types false in
theorem run_all_of (R1 : Reg1 m ρ) (hpre1 : ∀ c, (reg0 m ρ).post c ⊢ R1.pre c) (hpost1 : ∀ c, R1.post c ⊢ (reg2 m ρ).pre c) :
    θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ R1)
    (fun c Q => by rw [main_run m ρ R1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, hpre1, hpost1, fun _ => .rfl, fun c =>
      show iprop(StableHlo.held (c : Thread nD τ) (Pipeline.ucRefs τ sig) (W5 m ρ c) ∗ R c)
        ⊢ (iprop(Tₙ m ρ c ∗ ∃ W, owes (c : Thread nD τ) (0 : CellTallies nD τ sig Unit) W) : sProp 𝕄) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Fr

end
-- ==== Proof.BArgs.lean ====
/-
  The launch arguments are never written: no host operation and no pallas_call has one as its result, so at every
  boundary of the program an argument's buffer holds what the launch memory holds. A region that reads an argument
  through an input window leaves that window's array as found; a region none of whose arrays it is does not touch it.
-/
import proofs.«132770_j30940944400685_2_alg».proof.Proof.BRunDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The two host stretches: each writes one buffer -/

/-- The first reshape writes main_v0 only: every other buffer is as launched. -/
theorem W1_of_ne (c : Dev nD) (b : Ref sig .tc) (hb : b ≠ main_v0) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact StableHlo.devRef_ne_of_ne hb))).trans rfl

/-- The last reshape writes main_v4 only. -/
theorem W5_of_ne (c : Dev nD) (b : Ref sig .tc) (hb : b ≠ main_v4) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-! ## After the first region -/

theorem W2_main_arg0 (c : Dev nD) : W2 m ρ c main_arg0 = m ((c : Thread nD τ).loc main_arg0) :=
  (W2_of_ne m ρ c main_arg0 (by decide)).trans (W1_of_ne m ρ c main_arg0 (by decide))
/-- The projection matrix is the first region's second input window. -/
theorem W2_main_arg1 (c : Dev nD) : W2 m ρ c main_arg1 = m ((c : Thread nD τ).loc main_arg1) :=
  (W2_arr m ρ c 1).trans ((((dat0 (V1 m ρ) c).arrAt_in 1 rfl _).trans (A_eq0 (V1 m ρ) c 1)).trans
    (W1_of_ne m ρ c main_arg1 (by decide)))
theorem W2_main_arg2 (c : Dev nD) : W2 m ρ c main_arg2 = m ((c : Thread nD τ).loc main_arg2) :=
  (W2_of_ne m ρ c main_arg2 (by decide)).trans (W1_of_ne m ρ c main_arg2 (by decide))
theorem W2_main_arg3 (c : Dev nD) : W2 m ρ c main_arg3 = m ((c : Thread nD τ).loc main_arg3) :=
  (W2_of_ne m ρ c main_arg3 (by decide)).trans (W1_of_ne m ρ c main_arg3 (by decide))
theorem W2_main_arg4 (c : Dev nD) : W2 m ρ c main_arg4 = m ((c : Thread nD τ).loc main_arg4) :=
  (W2_of_ne m ρ c main_arg4 (by decide)).trans (W1_of_ne m ρ c main_arg4 (by decide))
theorem W2_main_arg5 (c : Dev nD) : W2 m ρ c main_arg5 = m ((c : Thread nD τ).loc main_arg5) :=
  (W2_of_ne m ρ c main_arg5 (by decide)).trans (W1_of_ne m ρ c main_arg5 (by decide))

/-! ## After the second region -/

theorem W3_main_arg0 (c : Dev nD) : W3 m ρ c main_arg0 = m ((c : Thread nD τ).loc main_arg0) :=
  (W3_of_ne m ρ c main_arg0 (by decide)).trans (W2_main_arg0 m ρ c)
theorem W3_main_arg1 (c : Dev nD) : W3 m ρ c main_arg1 = m ((c : Thread nD τ).loc main_arg1) :=
  (W3_of_ne m ρ c main_arg1 (by decide)).trans (W2_main_arg1 m ρ c)
theorem W3_main_arg2 (c : Dev nD) : W3 m ρ c main_arg2 = m ((c : Thread nD τ).loc main_arg2) :=
  (W3_of_ne m ρ c main_arg2 (by decide)).trans (W2_main_arg2 m ρ c)
theorem W3_main_arg3 (c : Dev nD) : W3 m ρ c main_arg3 = m ((c : Thread nD τ).loc main_arg3) :=
  (W3_of_ne m ρ c main_arg3 (by decide)).trans (W2_main_arg3 m ρ c)
theorem W3_main_arg4 (c : Dev nD) : W3 m ρ c main_arg4 = m ((c : Thread nD τ).loc main_arg4) :=
  (W3_of_ne m ρ c main_arg4 (by decide)).trans (W2_main_arg4 m ρ c)
theorem W3_main_arg5 (c : Dev nD) : W3 m ρ c main_arg5 = m ((c : Thread nD τ).loc main_arg5) :=
  (W3_of_ne m ρ c main_arg5 (by decide)).trans (W2_main_arg5 m ρ c)

/-! ## After the third region: the four parameters are its input windows 1 … 4 -/

theorem W4_main_arg0 (c : Dev nD) : W4 m ρ c main_arg0 = m ((c : Thread nD τ).loc main_arg0) :=
  (W4_of_ne m ρ c main_arg0 (by decide)).trans (W3_main_arg0 m ρ c)
theorem W4_main_arg1 (c : Dev nD) : W4 m ρ c main_arg1 = m ((c : Thread nD τ).loc main_arg1) :=
  (W4_of_ne m ρ c main_arg1 (by decide)).trans (W3_main_arg1 m ρ c)
theorem W4_main_arg2 (c : Dev nD) : W4 m ρ c main_arg2 = m ((c : Thread nD τ).loc main_arg2) :=
  (W4_arr m ρ c 1).trans ((((dat2 (V3 m ρ) c).arrAt_in 1 rfl _).trans (A_eq2 (V3 m ρ) c 1)).trans (W3_main_arg2 m ρ c))
theorem W4_main_arg3 (c : Dev nD) : W4 m ρ c main_arg3 = m ((c : Thread nD τ).loc main_arg3) :=
  (W4_arr m ρ c 2).trans ((((dat2 (V3 m ρ) c).arrAt_in 2 rfl _).trans (A_eq2 (V3 m ρ) c 2)).trans (W3_main_arg3 m ρ c))
theorem W4_main_arg4 (c : Dev nD) : W4 m ρ c main_arg4 = m ((c : Thread nD τ).loc main_arg4) :=
  (W4_arr m ρ c 3).trans ((((dat2 (V3 m ρ) c).arrAt_in 3 rfl _).trans (A_eq2 (V3 m ρ) c 3)).trans (W3_main_arg4 m ρ c))
theorem W4_main_arg5 (c : Dev nD) : W4 m ρ c main_arg5 = m ((c : Thread nD τ).loc main_arg5) :=
  (W4_arr m ρ c 4).trans ((((dat2 (V3 m ρ) c).arrAt_in 4 rfl _).trans (A_eq2 (V3 m ρ) c 4)).trans (W3_main_arg5 m ρ c))

/-! ## At the end -/

theorem W5_main_arg0 (c : Dev nD) : W5 m ρ c main_arg0 = m ((c : Thread nD τ).loc main_arg0) :=
  (W5_of_ne m ρ c main_arg0 (by decide)).trans (W4_main_arg0 m ρ c)
theorem W5_main_arg1 (c : Dev nD) : W5 m ρ c main_arg1 = m ((c : Thread nD τ).loc main_arg1) :=
  (W5_of_ne m ρ c main_arg1 (by decide)).trans (W4_main_arg1 m ρ c)
theorem W5_main_arg2 (c : Dev nD) : W5 m ρ c main_arg2 = m ((c : Thread nD τ).loc main_arg2) :=
  (W5_of_ne m ρ c main_arg2 (by decide)).trans (W4_main_arg2 m ρ c)
theorem W5_main_arg3 (c : Dev nD) : W5 m ρ c main_arg3 = m ((c : Thread nD τ).loc main_arg3) :=
  (W5_of_ne m ρ c main_arg3 (by decide)).trans (W4_main_arg3 m ρ c)
theorem W5_main_arg4 (c : Dev nD) : W5 m ρ c main_arg4 = m ((c : Thread nD τ).loc main_arg4) :=
  (W5_of_ne m ρ c main_arg4 (by decide)).trans (W4_main_arg4 m ρ c)
theorem W5_main_arg5 (c : Dev nD) : W5 m ρ c main_arg5 = m ((c : Thread nD τ).loc main_arg5) :=
  (W5_of_ne m ρ c main_arg5 (by decide)).trans (W4_main_arg5 m ρ c)

/-- Every argument ends as launched. -/
theorem W5_args (c : Dev nD) :
    W5 m ρ c main_arg0 = m ((c : Thread nD τ).loc main_arg0) ∧ W5 m ρ c main_arg1 = m ((c : Thread nD τ).loc main_arg1)
      ∧ W5 m ρ c main_arg2 = m ((c : Thread nD τ).loc main_arg2) ∧ W5 m ρ c main_arg3 = m ((c : Thread nD τ).loc main_arg3)
      ∧ W5 m ρ c main_arg4 = m ((c : Thread nD τ).loc main_arg4) ∧ W5 m ρ c main_arg5 = m ((c : Thread nD τ).loc main_arg5) :=
  ⟨W5_main_arg0 m ρ c, W5_main_arg1 m ρ c, W5_main_arg2 m ρ c, W5_main_arg3 m ρ c, W5_main_arg4 m ρ c, W5_main_arg5 m ρ c⟩

end Cert.Kernel.Fr

end
-- ==== Proof.BFrameClaim.lean ====
/-
  The frame: every weakly fair execution of the program terminates without a fault and each argument array ends as
  launched — no host operation writes an argument, and a region either reads it through an input window or does
  not touch it, so the last boundary's contents at an argument walk back to the launch memory.
-/
import proofs.«132770_j30940944400685_2_alg».proof.Proof.BRun
import proofs.«132770_j30940944400685_2_alg».proof.Proof.BArgs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame_of (R1 : Reg1 m ρ) (hpre1 : ∀ c, (reg0 m ρ).post c ⊢ R1.pre c) (hpost1 : ∀ c, R1.post c ⊢ (reg2 m ρ).pre c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩)
    (run_all_of m ρ R1 hpre1 hpost1)

end Cert.Kernel.Fr

end
-- ==== Proof.BShare1.lean ====
/-
  The second pallas_call's arrays against the device's buffers. Its three input windows read one array, the output
  window another; the pipeline holds the shared array once per input window, at the left half of the full share,
  the left half of the right half and the right half of the right half, which together are the full share. So the
  two buffers held whole at the full share are exactly the four windows' arrays at the same contents.
-/
import proofs.«132770_j30940944400685_2_alg».proof.Proof.BRunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind the second pallas_call's arrays, at contents `V`, are its arrays at contents `G` read off `V`:
    the shared one in its three shares, the output's at the full share. -/
theorem arrays1_iff (V0 : (c : Dev nD) → (b : Ref sig .tc) → Buf (Elt F) ((c : Thread nD τ).loc b)) (c : Dev nD)
    (V : (b : Ref sig .tc) → Buf (Elt F) ((c : Thread nD τ).loc b))
    (G : (w : Fin cfg1.W) → Buf (Elt F) ((cfg1.win w).arr.view.loc (c.tc : Thread nD τ))) (hG : ∀ w, G w = V (Pipeline.arrRef spec1 w)) :
    (Pipeline.arrBufs spec1 c V : sProp 𝕄) ⊣⊢ (dat1 V0 c).arrays G := by
  have himg : Finset.univ.image (Pipeline.arrRef spec1) = {main_v1, main_v2} := by decide
  -- the full share is its left half and its right half; the right half its own two halves
  have h1 := pointsTo_share (Ix := Unit) (Name := ℕ) (U := UR sig nD τ) (Lvl := ℕ) (ℓ := (c : Thread nD τ).loc main_v1)
    (I := Finset.univ) (f := V main_v1) (PosShare.mem_left_op_right fullShare)
  have h2 := pointsTo_share (Ix := Unit) (Name := ℕ) (U := UR sig nD τ) (Lvl := ℕ) (ℓ := (c : Thread nD τ).loc main_v1)
    (I := Finset.univ) (f := V main_v1) (PosShare.mem_left_op_right fullShare.right)
  unfold Pipeline.arrBufs Pipeline.Dat.arrays
  rw [bigSep_W1, himg, bigSep_insert (by decide), bigSep_singleton, hG 0, hG 1, hG 2, hG 3]
  show iprop((((c : Thread nD τ).loc main_v1) ↦{fullShare} V main_v1) ∗ (((c : Thread nD τ).loc main_v2) ↦{fullShare} V main_v2)) ⊣⊢
    iprop((((c : Thread nD τ).loc main_v1) ↦[(spec1 0).arr.view.set]{fullShare.left} V main_v1)
      ∗ (((c : Thread nD τ).loc main_v1) ↦[(spec1 1).arr.view.set]{fullShare.right.left} V main_v1)
      ∗ (((c : Thread nD τ).loc main_v1) ↦[(spec1 2).arr.view.set]{fullShare.right.right} V main_v1)
      ∗ (((c : Thread nD τ).loc main_v2) ↦[(spec1 3).arr.view.set]{fullShare} V main_v2))
  -- the three input windows' arrays are one whole buffer, the output's another
  rw [(arr_whole1 0).set_eq_univ, (arr_whole1 3).set_eq_univ]
  exact (Idealize.SL.BI.Laws.sep_congr (h1.trans (Idealize.SL.BI.Laws.sep_congr .rfl h2)) .rfl).trans
    (Idealize.SL.BI.Laws.sep_assoc.trans (Idealize.SL.BI.Laws.sep_congr .rfl Idealize.SL.BI.Laws.sep_assoc))

end Cert.Kernel.Fr

end
-- ==== Proof.BReg1.lean ====
/-
  The second pallas_call as a segment of the program. Its three input windows read one array, so the two buffers
  behind its arrays are split out of the device's unscoped buffers at its entry, the shared one dealt to the input
  windows in three shares that make up the full share, and put back whole at its exit; the input array is left as
  found and the output array holds what the write-backs leave.
-/
import proofs.«132770_j30940944400685_2_alg».proof.Proof.BShare1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the pipeline leaves in each of the second pallas_call's arrays is what the device holds after it: the
    shared input array as it was entered (no input window is written back), the output array at the write-backs. -/
theorem hF1 (c : Dev nD) (w : Fin cfg1.W) : (pdats m ρ 1 c).arrAt w cfg1.N = V3 m ρ c (Pipeline.arrRef spec1 w) := by
  have hne : (main_v1 : Ref sig .tc) ≠ main_v2 := by decide
  match w with
  | ⟨0, _⟩ =>
    exact ((dat1 (V2 m ρ) c).arrAt_in 0 rfl cfg1.N).trans ((A_eq1 (V2 m ρ) c 0).trans (W3_of_ne m ρ c main_v1 hne).symm)
  | ⟨1, _⟩ =>
    exact ((dat1 (V2 m ρ) c).arrAt_in 1 rfl cfg1.N).trans ((A_eq1 (V2 m ρ) c 1).trans (W3_of_ne m ρ c main_v1 hne).symm)
  | ⟨2, _⟩ =>
    exact ((dat1 (V2 m ρ) c).arrAt_in 2 rfl cfg1.N).trans ((A_eq1 (V2 m ρ) c 2).trans (W3_of_ne m ρ c main_v1 hne).symm)
  | ⟨3, _⟩ => exact (W3_out m ρ c).symm

/-- Every buffer that is none of its arrays is as entered. -/
theorem hrest1 (c : Dev nD) : ∀ b, b ∉ Finset.univ.image (Pipeline.arrRef spec1) → V3 m ρ c b = V2 m ρ c b :=
  fun b hb => W3_of_ne m ρ c b fun e => hb (Finset.mem_image.mpr ⟨3, Finset.mem_univ _, e.symm⟩)

/-- ENTRY, the arrays' part: the device's unscoped buffers at the contents entered from are the arrays at the proof
    data's entry contents and the unscoped rest. -/
theorem arrays1_of_unscopedBufs (c : Dev nD) :
    (unscopedBufs (Ix := Unit) (Name := ℕ) (U := UR sig nD τ) (Lvl := ℕ) c (V2 m ρ c) : sProp 𝕄)
      ⊢ iprop((pdats m ρ 1 c).arrays ((pdats m ρ 1 c).arrAt · 0)
          ∗ Pipeline.unscopedRest (Ix := Unit) (Name := ℕ) (U := UR sig nD τ) (Lvl := ℕ) spec1 c (V2 m ρ c)) := by
  rw [Pipeline.unscopedBufs_split₀ (Pipeline.pin (pcfgs (F := F)) adm) 1 winFacts₀1.arr_unscoped c (V2 m ρ c)]
  exact sep_mono (arrays1_iff (V2 m ρ) c (V2 m ρ c) _ (fun w => A_eq1 (V2 m ρ) c w)).1 .rfl

/-- EXIT, the arrays' part: the arrays at what the pipeline leaves and the unscoped rest as entered are the device's
    unscoped buffers at the contents after the region. -/
theorem unscopedBufs_of_arrays1 (c : Dev nD) :
    iprop((pdats m ρ 1 c).arrays ((pdats m ρ 1 c).arrAt · cfg1.N)
        ∗ Pipeline.unscopedRest (Ix := Unit) (Name := ℕ) (U := UR sig nD τ) (Lvl := ℕ) spec1 c (V2 m ρ c))
      ⊢ (unscopedBufs (Ix := Unit) (Name := ℕ) (U := UR sig nD τ) (Lvl := ℕ) c (V3 m ρ c) : sProp 𝕄) := by
  rw [Pipeline.unscopedBufs_split₀ (Pipeline.pin (pcfgs (F := F)) adm) 1 winFacts₀1.arr_unscoped c (V3 m ρ c)]
  refine sep_mono (arrays1_iff (V2 m ρ) c (V3 m ρ c) _ (hF1 m ρ c)).2 (Entails.of_eq ?_)
  unfold Pipeline.unscopedRest
  exact bigSep_congr fun b hb => by rw [hrest1 m ρ c b (Finset.mem_sdiff.mp hb).2]

set_option backward.isDefEq.respectTransparency.types false in
/-- Entered from every unscoped buffer at the contents before it, left at the contents after it: the two buffers
    behind its arrays are split out of the unscoped buffers, the shared one dealt to the three input windows in
    shares, and put back at what the pipeline leaves; the generator register goes into the region's invariant and
    comes back; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := arrays1_of_unscopedBufs m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KFrame0.lean ====
/-
  The first pallas_call, at any float instance and any contents V of the device's buffers on entry.

  Its grid has 32 points; point t stages rows 1024·t … 1024·t + 1023 of the token matrix (window 0), the whole
  projection matrix (window 1, fetched once) and the same rows of the result (window 2). The body loads the two
  input blocks whole, computes one value from them and stores it over the whole output block; so after the body
  the output's staging buffer holds that value of the two input blocks, and the inputs' buffers are as found.
-/
import proofs.«132770_j30940944400685_2_alg».proof.Proof.Gen.KernelIdeal.Launch
import proofs.«132770_j30940944400685_2_alg».proof.Proof.Gen.KernelIdeal.Skeleton
import proofs.«132770_j30940944400685_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each block whole -/

abbrev r0_0 : Rect S1024x512 := Rect.unit (s := S1024x512) ![0, 0] S1024x512.size inb_S1024x512_S1024x512_0_0
abbrev r0_1 : Rect S512x1536 := Rect.unit (s := S512x1536) ![0, 0] S512x1536.size inb_S512x1536_S512x1536_0_0
abbrev r0_2 : Rect S1024x1536 := Rect.unit (s := S1024x1536) ![0, 0] S1024x1536.size inb_S1024x1536_S1024x1536_0_0

/-- The output's staging buffer after the body, from the two input blocks: its one store. -/
def out0_2 (x0 : Vec F S1024x512 .f32) (x1 : Vec F S512x1536 .f32) : Vec F S1024x1536 .bf16 :=
  View.canon [⟨r0_2, k0_pay1 (View.ld x0 r0_0) (View.ld x1 r0_1)⟩]

/-- The one store covers the buffer. -/
theorem cover0_2 (p0 : Vec F S1024x1536 .bf16) (y : S1024x1536.Idx) :
    ∃ pc ∈ ([⟨r0_2, p0⟩] : List (View.Piece (Elt F) S1024x1536 .bf16)), y ∈ pc.1.set :=
  View.cover_of_tiled [⟨r0_2, p0⟩] S1024x1536.size (by rfl) y

/-! ## The body's triple -/

set_option maxHeartbeats 1000000 in
theorem sound_kernel0 (c : Dev nD) (E : Set ℕ) (i : grid0.Coords)
    (arg1 : Memref sig .tc .vmem S1024x512 .f32) (harg1 : arg1.IsWhole) (arg2 : Memref sig .tc .vmem S512x1536 .f32) (harg2 : arg2.IsWhole)
    (arg3 : Memref sig .tc .vmem S1024x1536 .bf16) (harg3 : arg3.IsWhole)
    (x0 : Vec F S1024x512 .f32) (x1 : Vec F S512x1536 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KFrame1.lean ====
/-
  The second pallas_call, at any float instance and any contents V of the device's buffers on entry.

  Its grid has 8 · 4 points, an image and a pair of heads; a point stages the image's 4096 rows of three 128-lane
  column slabs of ONE matrix — the pair's queries, keys and values (windows 0, 1, 2) — and the same rows of the
  pair's 128 lanes of the result (window 3). The three input windows read the same array, so the device holds it in
  three shares, one per window. The body loads the three input blocks whole, computes one value from them and
  stores it over the whole output block.
-/
import proofs.«132770_j30940944400685_2_alg».proof.Proof.Gen.KernelIdeal.Launch
import proofs.«132770_j30940944400685_2_alg».proof.Proof.Gen.KernelIdeal.Skeleton
import proofs.«132770_j30940944400685_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each block whole -/

abbrev r1_0 : Rect S4096x128 := Rect.unit (s := S4096x128) ![0, 0] S4096x128.size inb_S4096x128_S4096x128_0_0

/-- The output's staging buffer after the body, from the three input blocks: its one store. -/
def out1_3 (x0 x1 x2 : Vec F S4096x128 .bf16) : Vec F S4096x128 .bf16 :=
  View.canon [⟨r1_0, k1_pay1 (k1_pay5 (View.ld x0 r1_0) (View.ld x1 r1_0) (View.ld x2 r1_0)) (k1_pay6 (View.ld x0 r1_0))
    (k1_pay7 (View.ld x1 r1_0)) (k1_pay8 (View.ld x2 r1_0)) (k1_pay9 (View.ld x0 r1_0))⟩]

theorem cover1_3 (p0 : Vec F S4096x128 .bf16) (y : S4096x128.Idx) :
    ∃ pc ∈ ([⟨r1_0, p0⟩] : List (View.Piece (Elt F) S4096x128 .bf16)), y ∈ pc.1.set :=
  View.cover_of_tiled [⟨r1_0, p0⟩] S4096x128.size (by rfl) y

/-! ## The body's triple -/

set_option maxHeartbeats 1000000 in
set_option maxRecDepth 65536 in
theorem sound_kernel1 (c : Dev nD) (E : Set ℕ) (i : grid1.Coords)
    (arg2 : Memref sig .tc .vmem S4096x128 .bf16) (harg2 : arg2.IsWhole) (arg3 : Memref sig .tc .vmem S4096x128 .bf16) (harg3 : arg3.IsWhole)
    (arg4 : Memref sig .tc .vmem S4096x128 .bf16) (harg4 : arg4.IsWhole) (arg5 : Memref sig .tc .vmem S4096x128 .bf16) (harg5 : arg5.IsWhole)
    (x0 x1 x2 : Vec F S4096x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  dsimp only
  exact View.read_writes_eq_canon _ _ _ (cover1_3 _)

/-! ## The proof data -/

/-- The share of the common array each input window reads through: together the full share. -/
def q1 (w : Fin cfg1.W) : PosShare TreeShare := match w with
  | ⟨0, _⟩ => fullShare.left
  | ⟨1, _⟩ => fullShare.right.left
  | ⟨2, _⟩ => fullShare.right.right
  | ⟨3, _⟩ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KFrame2.lean ====
/-
  The third pallas_call, at any float instance and any contents V of the device's buffers on entry.

  Its grid has 16 points; point t stages rows 2048·t … 2048·t + 2047 of the attention matrix (window 0), the whole
  output matrix, the bias, the gain and the offset (windows 1–4, each fetched once) and the same rows of the
  result (window 5). The body loads the five input blocks whole, computes one value from them and stores it over
  the whole output block.
-/
import proofs.«132770_j30940944400685_2_alg».proof.Proof.Gen.KernelIdeal.Launch
import proofs.«132770_j30940944400685_2_alg».proof.Proof.Gen.KernelIdeal.Skeleton
import proofs.«132770_j30940944400685_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each block whole -/

abbrev r2_0 : Rect S2048x512 := Rect.unit (s := S2048x512) ![0, 0] S2048x512.size inb_S2048x512_S2048x512_0_0
abbrev r2_1 : Rect S512x512 := Rect.unit (s := S512x512) ![0, 0] S512x512.size inb_S512x512_S512x512_0_0
abbrev r2_v : Rect S512 := Rect.unit (s := S512) ![0] S512.size inb_S512_S512_0

/-- The output's staging buffer after the body, from the five input blocks: its one store. -/
def out2_5 (x0 : Vec F S2048x512 .bf16) (x1 : Vec F S512x512 .f32) (x2 x3 x4 : Vec F S512 .f32) : Vec F S2048x512 .f32 :=
  View.canon [⟨r2_0, k2_pay1 (View.ld x0 r2_0) (View.ld x1 r2_1) (View.ld x2 r2_v) (View.ld x3 r2_v) (View.ld x4 r2_v)⟩]

theorem cover2_5 (p0 : Vec F S2048x512 .f32) (y : S2048x512.Idx) :
    ∃ pc ∈ ([⟨r2_0, p0⟩] : List (View.Piece (Elt F) S2048x512 .f32)), y ∈ pc.1.set :=
  View.cover_of_tiled [⟨r2_0, p0⟩] S2048x512.size (by rfl) y

/-! ## The body's triple -/

set_option maxHeartbeats 1000000 in
theorem sound_kernel2 (c : Dev nD) (E : Set ℕ) (i : grid2.Coords)
    (arg1 : Memref sig .tc .vmem S2048x512 .bf16) (harg1 : arg1.IsWhole) (arg2 : Memref sig .tc .vmem S512x512 .f32) (harg2 : arg2.IsWhole)
    (arg3 : Memref sig .tc .vmem S512 .f32) (harg3 : arg3.IsWhole) (arg4 : Memref sig .tc .vmem S512 .f32) (harg4 : arg4.IsWhole)
    (arg5 : Memref sig .tc .vmem S512 .f32) (harg5 : arg5.IsWhole) (arg6 : Memref sig .tc .vmem S2048x512 .f32) (harg6 : arg6.IsWhole)
    (x0 : Vec F S2048x512 .bf16) (x1 : Vec F S512x512 .f32) (x2 x3 x4 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__outproj_kernel i arg1 harg1 arg2 harg2 arg3 harg3 arg4 harg4 arg5 harg5 arg6 harg6) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KRunDefs.lean ====
/-
  The device's buffer contents at each boundary of the program: at launch; after the reshape of the input to a
  [32768, 512] matrix; after each of the three pallas_calls, which changes exactly its output array (to what its
  write-backs leave) and nothing else; after the final reshape. And the three regions' proof data, each at the
  contents its region is entered from.
-/
import proofs.«132770_j30940944400685_2_alg».proof.Proof.KFrame0
import proofs.«132770_j30940944400685_2_alg».proof.Proof.KFrame1
import proofs.«132770_j30940944400685_2_alg».proof.Proof.KFrame2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the first region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region: its output array at what the pipeline leaves, every other buffer as entered. (Its
    three input windows read one array, which it leaves as found.) -/
def W3 (c : Dev nD) : Valuation τ sig (Elt F) :=
  Function.update (W2 m ρ c) main_v2 ((dat1 (V2 m ρ) c).arrAt 3 cfg1.N)
theorem W3_out (c : Dev nD) : W3 m ρ c main_v2 = (dat1 (V2 m ρ) c).arrAt 3 cfg1.N := by
  unfold W3; exact Function.update_self ..
theorem W3_of_ne (c : Dev nD) (b : Ref sig .tc) (hb : b ≠ main_v2) : W3 m ρ c b = W2 m ρ c b := by
  unfold W3
  exact Function.update_of_ne (StableHlo.devRef_ne_of_ne hb : (Proc.devRef .tc b : DevRef τ sig) ≠ Proc.devRef .tc main_v2) _ _
abbrev V3 : (c : Dev nD) → (b : Ref sig .tc) → Buf (Elt F) ((c : Thread nD τ).loc b) := fun c b => W3 m ρ c b

/-- After the third region. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the last host stretch (the end). -/
abbrev W5 : Dev nD → Valuation τ sig (Elt F) := fun c => StableHlo.after hostOps3 (W4 m ρ c)

/-! ## The proof data family and what rides along -/

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c

abbrev 𝒱₀ : Variants := Variants.none
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes. -/
abbrev Tₙ (c : Dev nD) : sProp 𝕄 := iprop(StableHlo.held (c : Thread nD τ) (Pipeline.ucRefs τ sig) (W5 m ρ c) ∗ ∃ r, prngReg c r)

end Cert.KernelIdeal.Fr

end
-- ==== Proof.KReg02.lean ====
/-
  The first and third pallas_calls as segments of the program: each window reads its own array, so a region's
  arrays are split out of the device's unscoped buffers at its entry and put back at its exit.
-/
import proofs.«132770_j30940944400685_2_alg».proof.Proof.KRunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Entered from every unscoped buffer at the contents before it, left at the contents after it: its arrays are split
    out of the unscoped buffers and put back at what the pipeline leaves; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Entered from every unscoped buffer at the contents before it, left at the contents after it: its arrays are split
    out of the unscoped buffers and put back at what the pipeline leaves; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KRun.lean ====
/-
  The program as five segments — the reshape, the three pallas_calls, the reshape — and its launch: from any memory,
  every weakly fair execution terminates without a fault, and the final memory holds every unscoped buffer at the
  last boundary's contents. The second pallas_call's segment is a parameter here (its windows share an array, so
  its entry and exit are proved apart); it has to chain with its neighbours.
-/
import proofs.«132770_j30940944400685_2_alg».proof.Proof.KReg02
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Reg1 : Type _ := Pipeline.RegionSeg (pcfgs (F := F)) adm (pdats m ρ) () defs₀ 𝒱₀ L lv 1

abbrev segs (R1 : Reg1 m ρ) : List (Pipeline.Seg (pcfgs (F := F)) adm (pdats m ρ) () defs₀ 𝒱₀ L lv) :=
  [ .host (hseg hostOps0 hostOps0_sub hostOps0_fresh' (W0 m ρ)),
    .region (reg0 m ρ),
    .region R1,
    .region (reg2 m ρ),
    .host (hseg hostOps3 hostOps3_sub hostOps3_fresh' (W4 m ρ)) ]

theorem main_run (R1 : Reg1 m ρ) (c : Dev nD) : main (F := F) c = Pipeline.Seg.run (segs m ρ R1) :=
  (main_chain c).trans (by chain_rfl)

set_option backward.isDefEq.respectTransparency.types false in
theorem run_all_of (R1 : Reg1 m ρ) (hpre1 : ∀ c, (reg0 m ρ).post c ⊢ R1.pre c) (hpost1 : ∀ c, R1.post c ⊢ (reg2 m ρ).pre c) :
    θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ R1)
    (fun c Q => by rw [main_run m ρ R1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, hpre1, hpost1, fun _ => .rfl, fun c =>
      show iprop(StableHlo.held (c : Thread nD τ) (Pipeline.ucRefs τ sig) (W5 m ρ c) ∗ R c)
        ⊢ (iprop(Tₙ m ρ c ∗ ∃ W, owes (c : Thread nD τ) (0 : CellTallies nD τ sig Unit) W) : sProp 𝕄) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Fr

end
-- ==== Proof.KArgs.lean ====
/-
  The launch arguments are never written: no host operation and no pallas_call has one as its result, so at every
  boundary of the program an argument's buffer holds what the launch memory holds. A region that reads an argument
  through an input window leaves that window's array as found; a region none of whose arrays it is does not touch it.
-/
import proofs.«132770_j30940944400685_2_alg».proof.Proof.KRunDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The two host stretches: each writes one buffer -/

/-- The first reshape writes main_v0 only: every other buffer is as launched. -/
theorem W1_of_ne (c : Dev nD) (b : Ref sig .tc) (hb : b ≠ main_v0) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact StableHlo.devRef_ne_of_ne hb))).trans rfl

/-- The last reshape writes main_v4 only. -/
theorem W5_of_ne (c : Dev nD) (b : Ref sig .tc) (hb : b ≠ main_v4) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-! ## After the first region -/

theorem W2_main_arg0 (c : Dev nD) : W2 m ρ c main_arg0 = m ((c : Thread nD τ).loc main_arg0) :=
  (W2_of_ne m ρ c main_arg0 (by decide)).trans (W1_of_ne m ρ c main_arg0 (by decide))
/-- The projection matrix is the first region's second input window. -/
theorem W2_main_arg1 (c : Dev nD) : W2 m ρ c main_arg1 = m ((c : Thread nD τ).loc main_arg1) :=
  (W2_arr m ρ c 1).trans ((((dat0 (V1 m ρ) c).arrAt_in 1 rfl _).trans (A_eq0 (V1 m ρ) c 1)).trans
    (W1_of_ne m ρ c main_arg1 (by decide)))
theorem W2_main_arg2 (c : Dev nD) : W2 m ρ c main_arg2 = m ((c : Thread nD τ).loc main_arg2) :=
  (W2_of_ne m ρ c main_arg2 (by decide)).trans (W1_of_ne m ρ c main_arg2 (by decide))
theorem W2_main_arg3 (c : Dev nD) : W2 m ρ c main_arg3 = m ((c : Thread nD τ).loc main_arg3) :=
  (W2_of_ne m ρ c main_arg3 (by decide)).trans (W1_of_ne m ρ c main_arg3 (by decide))
theorem W2_main_arg4 (c : Dev nD) : W2 m ρ c main_arg4 = m ((c : Thread nD τ).loc main_arg4) :=
  (W2_of_ne m ρ c main_arg4 (by decide)).trans (W1_of_ne m ρ c main_arg4 (by decide))
theorem W2_main_arg5 (c : Dev nD) : W2 m ρ c main_arg5 = m ((c : Thread nD τ).loc main_arg5) :=
  (W2_of_ne m ρ c main_arg5 (by decide)).trans (W1_of_ne m ρ c main_arg5 (by decide))

/-! ## After the second region -/

theorem W3_main_arg0 (c : Dev nD) : W3 m ρ c main_arg0 = m ((c : Thread nD τ).loc main_arg0) :=
  (W3_of_ne m ρ c main_arg0 (by decide)).trans (W2_main_arg0 m ρ c)
theorem W3_main_arg1 (c : Dev nD) : W3 m ρ c main_arg1 = m ((c : Thread nD τ).loc main_arg1) :=
  (W3_of_ne m ρ c main_arg1 (by decide)).trans (W2_main_arg1 m ρ c)
theorem W3_main_arg2 (c : Dev nD) : W3 m ρ c main_arg2 = m ((c : Thread nD τ).loc main_arg2) :=
  (W3_of_ne m ρ c main_arg2 (by decide)).trans (W2_main_arg2 m ρ c)
theorem W3_main_arg3 (c : Dev nD) : W3 m ρ c main_arg3 = m ((c : Thread nD τ).loc main_arg3) :=
  (W3_of_ne m ρ c main_arg3 (by decide)).trans (W2_main_arg3 m ρ c)
theorem W3_main_arg4 (c : Dev nD) : W3 m ρ c main_arg4 = m ((c : Thread nD τ).loc main_arg4) :=
  (W3_of_ne m ρ c main_arg4 (by decide)).trans (W2_main_arg4 m ρ c)
theorem W3_main_arg5 (c : Dev nD) : W3 m ρ c main_arg5 = m ((c : Thread nD τ).loc main_arg5) :=
  (W3_of_ne m ρ c main_arg5 (by decide)).trans (W2_main_arg5 m ρ c)

/-! ## After the third region: the four parameters are its input windows 1 … 4 -/

theorem W4_main_arg0 (c : Dev nD) : W4 m ρ c main_arg0 = m ((c : Thread nD τ).loc main_arg0) :=
  (W4_of_ne m ρ c main_arg0 (by decide)).trans (W3_main_arg0 m ρ c)
theorem W4_main_arg1 (c : Dev nD) : W4 m ρ c main_arg1 = m ((c : Thread nD τ).loc main_arg1) :=
  (W4_of_ne m ρ c main_arg1 (by decide)).trans (W3_main_arg1 m ρ c)
theorem W4_main_arg2 (c : Dev nD) : W4 m ρ c main_arg2 = m ((c : Thread nD τ).loc main_arg2) :=
  (W4_arr m ρ c 1).trans ((((dat2 (V3 m ρ) c).arrAt_in 1 rfl _).trans (A_eq2 (V3 m ρ) c 1)).trans (W3_main_arg2 m ρ c))
theorem W4_main_arg3 (c : Dev nD) : W4 m ρ c main_arg3 = m ((c : Thread nD τ).loc main_arg3) :=
  (W4_arr m ρ c 2).trans ((((dat2 (V3 m ρ) c).arrAt_in 2 rfl _).trans (A_eq2 (V3 m ρ) c 2)).trans (W3_main_arg3 m ρ c))
theorem W4_main_arg4 (c : Dev nD) : W4 m ρ c main_arg4 = m ((c : Thread nD τ).loc main_arg4) :=
  (W4_arr m ρ c 3).trans ((((dat2 (V3 m ρ) c).arrAt_in 3 rfl _).trans (A_eq2 (V3 m ρ) c 3)).trans (W3_main_arg4 m ρ c))
theorem W4_main_arg5 (c : Dev nD) : W4 m ρ c main_arg5 = m ((c : Thread nD τ).loc main_arg5) :=
  (W4_arr m ρ c 4).trans ((((dat2 (V3 m ρ) c).arrAt_in 4 rfl _).trans (A_eq2 (V3 m ρ) c 4)).trans (W3_main_arg5 m ρ c))

/-! ## At the end -/

theorem W5_main_arg0 (c : Dev nD) : W5 m ρ c main_arg0 = m ((c : Thread nD τ).loc main_arg0) :=
  (W5_of_ne m ρ c main_arg0 (by decide)).trans (W4_main_arg0 m ρ c)
theorem W5_main_arg1 (c : Dev nD) : W5 m ρ c main_arg1 = m ((c : Thread nD τ).loc main_arg1) :=
  (W5_of_ne m ρ c main_arg1 (by decide)).trans (W4_main_arg1 m ρ c)
theorem W5_main_arg2 (c : Dev nD) : W5 m ρ c main_arg2 = m ((c : Thread nD τ).loc main_arg2) :=
  (W5_of_ne m ρ c main_arg2 (by decide)).trans (W4_main_arg2 m ρ c)
theorem W5_main_arg3 (c : Dev nD) : W5 m ρ c main_arg3 = m ((c : Thread nD τ).loc main_arg3) :=
  (W5_of_ne m ρ c main_arg3 (by decide)).trans (W4_main_arg3 m ρ c)
theorem W5_main_arg4 (c : Dev nD) : W5 m ρ c main_arg4 = m ((c : Thread nD τ).loc main_arg4) :=
  (W5_of_ne m ρ c main_arg4 (by decide)).trans (W4_main_arg4 m ρ c)
theorem W5_main_arg5 (c : Dev nD) : W5 m ρ c main_arg5 = m ((c : Thread nD τ).loc main_arg5) :=
  (W5_of_ne m ρ c main_arg5 (by decide)).trans (W4_main_arg5 m ρ c)

/-- Every argument ends as launched. -/
theorem W5_args (c : Dev nD) :
    W5 m ρ c main_arg0 = m ((c : Thread nD τ).loc main_arg0) ∧ W5 m ρ c main_arg1 = m ((c : Thread nD τ).loc main_arg1)
      ∧ W5 m ρ c main_arg2 = m ((c : Thread nD τ).loc main_arg2) ∧ W5 m ρ c main_arg3 = m ((c : Thread nD τ).loc main_arg3)
      ∧ W5 m ρ c main_arg4 = m ((c : Thread nD τ).loc main_arg4) ∧ W5 m ρ c main_arg5 = m ((c : Thread nD τ).loc main_arg5) :=
  ⟨W5_main_arg0 m ρ c, W5_main_arg1 m ρ c, W5_main_arg2 m ρ c, W5_main_arg3 m ρ c, W5_main_arg4 m ρ c, W5_main_arg5 m ρ c⟩

end Cert.KernelIdeal.Fr

end
-- ==== Proof.KFrameClaim.lean ====
/-
  The frame: every weakly fair execution of the program terminates without a fault and each argument array ends as
  launched — no host operation writes an argument, and a region either reads it through an input window or does
  not touch it, so the last boundary's contents at an argument walk back to the launch memory.
-/
import proofs.«132770_j30940944400685_2_alg».proof.Proof.KRun
import proofs.«132770_j30940944400685_2_alg».proof.Proof.KArgs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame_of (R1 : Reg1 m ρ) (hpre1 : ∀ c, (reg0 m ρ).post c ⊢ R1.pre c) (hpost1 : ∀ c, R1.post c ⊢ (reg2 m ρ).pre c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩)
    (run_all_of m ρ R1 hpre1 hpost1)

end Cert.KernelIdeal.Fr

end
-- ==== Proof.KShare1.lean ====
/-
  The second pallas_call's arrays against the device's buffers. Its three input windows read one array, the output
  window another; the pipeline holds the shared array once per input window, at the left half of the full share,
  the left half of the right half and the right half of the right half, which together are the full share. So the
  two buffers held whole at the full share are exactly the four windows' arrays at the same contents.
-/
import proofs.«132770_j30940944400685_2_alg».proof.Proof.KRunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind the second pallas_call's arrays, at contents `V`, are its arrays at contents `G` read off `V`:
    the shared one in its three shares, the output's at the full share. -/
theorem arrays1_iff (V0 : (c : Dev nD) → (b : Ref sig .tc) → Buf (Elt F) ((c : Thread nD τ).loc b)) (c : Dev nD)
    (V : (b : Ref sig .tc) → Buf (Elt F) ((c : Thread nD τ).loc b))
    (G : (w : Fin cfg1.W) → Buf (Elt F) ((cfg1.win w).arr.view.loc (c.tc : Thread nD τ))) (hG : ∀ w, G w = V (Pipeline.arrRef spec1 w)) :
    (Pipeline.arrBufs spec1 c V : sProp 𝕄) ⊣⊢ (dat1 V0 c).arrays G := by
  have himg : Finset.univ.image (Pipeline.arrRef spec1) = {main_v1, main_v2} := by decide
  -- the full share is its left half and its right half; the right half its own two halves
  have h1 := pointsTo_share (Ix := Unit) (Name := ℕ) (U := UR sig nD τ) (Lvl := ℕ) (ℓ := (c : Thread nD τ).loc main_v1)
    (I := Finset.univ) (f := V main_v1) (PosShare.mem_left_op_right fullShare)
  have h2 := pointsTo_share (Ix := Unit) (Name := ℕ) (U := UR sig nD τ) (Lvl := ℕ) (ℓ := (c : Thread nD τ).loc main_v1)
    (I := Finset.univ) (f := V main_v1) (PosShare.mem_left_op_right fullShare.right)
  unfold Pipeline.arrBufs Pipeline.Dat.arrays
  rw [bigSep_W1, himg, bigSep_insert (by decide), bigSep_singleton, hG 0, hG 1, hG 2, hG 3]
  show iprop((((c : Thread nD τ).loc main_v1) ↦{fullShare} V main_v1) ∗ (((c : Thread nD τ).loc main_v2) ↦{fullShare} V main_v2)) ⊣⊢
    iprop((((c : Thread nD τ).loc main_v1) ↦[(spec1 0).arr.view.set]{fullShare.left} V main_v1)
      ∗ (((c : Thread nD τ).loc main_v1) ↦[(spec1 1).arr.view.set]{fullShare.right.left} V main_v1)
      ∗ (((c : Thread nD τ).loc main_v1) ↦[(spec1 2).arr.view.set]{fullShare.right.right} V main_v1)
      ∗ (((c : Thread nD τ).loc main_v2) ↦[(spec1 3).arr.view.set]{fullShare} V main_v2))
  -- the three input windows' arrays are one whole buffer, the output's another
  rw [(arr_whole1 0).set_eq_univ, (arr_whole1 3).set_eq_univ]
  exact (Idealize.SL.BI.Laws.sep_congr (h1.trans (Idealize.SL.BI.Laws.sep_congr .rfl h2)) .rfl).trans
    (Idealize.SL.BI.Laws.sep_assoc.trans (Idealize.SL.BI.Laws.sep_congr .rfl Idealize.SL.BI.Laws.sep_assoc))

end Cert.KernelIdeal.Fr

end
-- ==== Proof.KReg1.lean ====
/-
  The second pallas_call as a segment of the program. Its three input windows read one array, so the two buffers
  behind its arrays are split out of the device's unscoped buffers at its entry, the shared one dealt to the input
  windows in three shares that make up the full share, and put back whole at its exit; the input array is left as
  found and the output array holds what the write-backs leave.
-/
import proofs.«132770_j30940944400685_2_alg».proof.Proof.KShare1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the pipeline leaves in each of the second pallas_call's arrays is what the device holds after it: the
    shared input array as it was entered (no input window is written back), the output array at the write-backs. -/
theorem hF1 (c : Dev nD) (w : Fin cfg1.W) : (pdats m ρ 1 c).arrAt w cfg1.N = V3 m ρ c (Pipeline.arrRef spec1 w) := by
  have hne : (main_v1 : Ref sig .tc) ≠ main_v2 := by decide
  match w with
  | ⟨0, _⟩ =>
    exact ((dat1 (V2 m ρ) c).arrAt_in 0 rfl cfg1.N).trans ((A_eq1 (V2 m ρ) c 0).trans (W3_of_ne m ρ c main_v1 hne).symm)
  | ⟨1, _⟩ =>
    exact ((dat1 (V2 m ρ) c).arrAt_in 1 rfl cfg1.N).trans ((A_eq1 (V2 m ρ) c 1).trans (W3_of_ne m ρ c main_v1 hne).symm)
  | ⟨2, _⟩ =>
    exact ((dat1 (V2 m ρ) c).arrAt_in 2 rfl cfg1.N).trans ((A_eq1 (V2 m ρ) c 2).trans (W3_of_ne m ρ c main_v1 hne).symm)
  | ⟨3, _⟩ => exact (W3_out m ρ c).symm

/-- Every buffer that is none of its arrays is as entered. -/
theorem hrest1 (c : Dev nD) : ∀ b, b ∉ Finset.univ.image (Pipeline.arrRef spec1) → V3 m ρ c b = V2 m ρ c b :=
  fun b hb => W3_of_ne m ρ c b fun e => hb (Finset.mem_image.mpr ⟨3, Finset.mem_univ _, e.symm⟩)

/-- ENTRY, the arrays' part: the device's unscoped buffers at the contents entered from are the arrays at the proof
    data's entry contents and the unscoped rest. -/
theorem arrays1_of_unscopedBufs (c : Dev nD) :
    (unscopedBufs (Ix := Unit) (Name := ℕ) (U := UR sig nD τ) (Lvl := ℕ) c (V2 m ρ c) : sProp 𝕄)
      ⊢ iprop((pdats m ρ 1 c).arrays ((pdats m ρ 1 c).arrAt · 0)
          ∗ Pipeline.unscopedRest (Ix := Unit) (Name := ℕ) (U := UR sig nD τ) (Lvl := ℕ) spec1 c (V2 m ρ c)) := by
  rw [Pipeline.unscopedBufs_split₀ (Pipeline.pin (pcfgs (F := F)) adm) 1 winFacts₀1.arr_unscoped c (V2 m ρ c)]
  exact sep_mono (arrays1_iff (V2 m ρ) c (V2 m ρ c) _ (fun w => A_eq1 (V2 m ρ) c w)).1 .rfl

/-- EXIT, the arrays' part: the arrays at what the pipeline leaves and the unscoped rest as entered are the device's
    unscoped buffers at the contents after the region. -/
theorem unscopedBufs_of_arrays1 (c : Dev nD) :
    iprop((pdats m ρ 1 c).arrays ((pdats m ρ 1 c).arrAt · cfg1.N)
        ∗ Pipeline.unscopedRest (Ix := Unit) (Name := ℕ) (U := UR sig nD τ) (Lvl := ℕ) spec1 c (V2 m ρ c))
      ⊢ (unscopedBufs (Ix := Unit) (Name := ℕ) (U := UR sig nD τ) (Lvl := ℕ) c (V3 m ρ c) : sProp 𝕄) := by
  rw [Pipeline.unscopedBufs_split₀ (Pipeline.pin (pcfgs (F := F)) adm) 1 winFacts₀1.arr_unscoped c (V3 m ρ c)]
  refine sep_mono (arrays1_iff (V2 m ρ) c (V3 m ρ c) _ (hF1 m ρ c)).2 (Entails.of_eq ?_)
  unfold Pipeline.unscopedRest
  exact bigSep_congr fun b hb => by rw [hrest1 m ρ c b (Finset.mem_sdiff.mp hb).2]

set_option backward.isDefEq.respectTransparency.types false in
/-- Entered from every unscoped buffer at the contents before it, left at the contents after it: the two buffers
    behind its arrays are split out of the unscoped buffers, the shared one dealt to the three input windows in
    shares, and put back at what the pipeline leaves; the generator register goes into the region's invariant and
    comes back; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := arrays1_of_unscopedBufs m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.Spec.lean ====
/-
  The function both programs compute, stage by stage, over the extended reals.

  A token is a row r = b·4096 + n of a [32768, ·] matrix (b one of 8 images, n one of 64·64 positions).
  Stage 1 projects each token onto 1536 channels, laid out as (which of q, k, v) · 512 + head · 64 + feature.
  Stage 2 is linear attention, one image and one head at a time: the queries are normalised by a softmax over the
  64 features of a token and scaled by 1/8, the keys by a softmax over the 4096 tokens of a feature; the context
  is ctx(d, e) = Σₙ k̂(n, d) · v(n, e) and the output is out(n, e) = Σ_d q̂(n, d) · ctx(d, e). Stage 3 projects the
  512 attention channels of a token and adds a bias. Stage 4 normalises each token over its 512 channels by the
  biased variance; it is written twice, with the reciprocal square root as a factor and with the square root as a
  divisor, because the two programs differ exactly there.

  Every maximum starts from −∞ and every sum is a plain finite sum, so the order in which a program reduces does
  not appear here.
-/
import Idealize.ShloMosaic.PureOps.Ideal
import Idealize.ShloMosaic.Lib.ValueIdx

noncomputable section

namespace Cert.Spec

open Idealize.ShloMosaic Idealize.ShloMosaic.ValueIdx
open scoped BigOperators

/-! ## The four float words the programs share -/

/-- 1/8, the attention scale 64^(-1/2). -/
def eighth : EReal := Ideal.ofBits .f32 0x3E000000#32
/-- 512, the number of channels a token is normalised over. -/
def n512 : EReal := Ideal.ofBits .f32 0x44000000#32
/-- The variance offset, the 32-bit float nearest 10⁻⁵. -/
def eps : EReal := Ideal.ofBits .f32 0x3727C5AC#32
/-- −∞, where every maximum starts. -/
def negInf : EReal := Ideal.ofBits .f32 0xFF800000#32

/-! ## Softmax over a finite axis -/

/-- The maximum of f over its axis, started from −∞. -/
def maxOver {n : Nat} (f : Fin n → EReal) : EReal := (Finset.univ : Finset (Fin n)).fold max negInf f

/-- exp(fᵢ − max f) / Σⱼ exp(fⱼ − max f). -/
def softmax {n : Nat} (f : Fin n → EReal) (i : Fin n) : EReal :=
  Ideal.div (Ideal.exp (f i - maxOver f)) (∑ j : Fin n, Ideal.exp (f j - maxOver f))

/-! ## Flat indices -/

/-- Token n of image b as a row. -/
def rowOf (b : Fin 8) (n : Fin 4096) : Fin 32768 := ⟨b.val * 4096 + n.val, by have := b.isLt; have := n.isLt; omega⟩
/-- Feature d of head h of part s (0 = q, 1 = k, 2 = v) as a projection channel. -/
def colOf (s : Fin 3) (h : Fin 8) (d : Fin 64) : Fin 1536 :=
  ⟨s.val * 512 + h.val * 64 + d.val, by have := s.isLt; have := h.isLt; have := d.isLt; omega⟩
/-- Feature e of head h as an attention channel. -/
def ocolOf (h : Fin 8) (e : Fin 64) : Fin 512 := ⟨h.val * 64 + e.val, by have := h.isLt; have := e.isLt; omega⟩
/-- Feature d of the first (half = 0) or second (half = 1) head of a pair, as one of the pair's 128 lanes. -/
def lane (half : Fin 2) (d : Fin 64) : Fin 128 := ⟨half.val * 64 + d.val, by have := half.isLt; have := d.isLt; omega⟩
/-- Position (i, j) of image a as a row. -/
def flat4 (a : Fin 8) (i j : Fin 64) : Fin 32768 :=
  ⟨(a.val * 64 + i.val) * 64 + j.val, by have := a.isLt; have := i.isLt; have := j.isLt; omega⟩

/-- Position (i, j) as a token of its image. -/
def tokOf (i j : Fin 64) : Fin 4096 := ⟨i.val * 64 + j.val, by have := i.isLt; have := j.isLt; omega⟩

theorem flat4_eq_rowOf (a : Fin 8) (i j : Fin 64) : flat4 a i j = rowOf a (tokOf i j) := by
  have := a.isLt; have := i.isLt; have := j.isLt
  apply Fin.ext; simp only [flat4, rowOf, tokOf]; omega

/-- A [8, 64, 64, 512] array read as a [32768, 512] matrix, row-major. -/
def unflat (A : Fin 8 → Fin 64 → Fin 64 → Fin 512 → EReal) (r : Fin 32768) (k : Fin 512) : EReal :=
  A ⟨r.val / 4096, by have := r.isLt; omega⟩ ⟨r.val / 64 % 64, by omega⟩ ⟨r.val % 64, by omega⟩ k

theorem unflat_flat4 (A : Fin 8 → Fin 64 → Fin 64 → Fin 512 → EReal) (a : Fin 8) (i j : Fin 64) (k : Fin 512) :
    unflat A (flat4 a i j) k = A a i j k := by
  have := a.isLt; have := i.isLt; have := j.isLt
  unfold unflat flat4
  congr 1 <;> apply Fin.ext <;> simp only <;> omega

/-! ## Stage 1: the projection onto q, k, v -/

def qkvS (X : Fin 32768 → Fin 512 → EReal) (W : Fin 512 → Fin 1536 → EReal) (r : Fin 32768) (c : Fin 1536) : EReal :=
  ∑ k : Fin 512, X r k * W k c

/-! ## Stage 2: linear attention -/

/-- One image, one head: q, k, v are [tokens, features]. -/
def attnHead (q k v : Fin 4096 → Fin 64 → EReal) (n : Fin 4096) (e : Fin 64) : EReal :=
  ∑ d : Fin 64, (softmax (fun d' => q n d') d * eighth) * (∑ m : Fin 4096, softmax (fun m' => k m' d) m * v m e)

/-- Image b, token n, head h, feature e, out of the projected matrix. -/
def attnS (Q : Fin 32768 → Fin 1536 → EReal) (b : Fin 8) (n : Fin 4096) (h : Fin 8) (e : Fin 64) : EReal :=
  attnHead (fun m d => Q (rowOf b m) (colOf 0 h d)) (fun m d => Q (rowOf b m) (colOf 1 h d))
    (fun m d => Q (rowOf b m) (colOf 2 h d)) n e

/-- The same as a [32768, 512] matrix. -/
def attnFlat (Q : Fin 32768 → Fin 1536 → EReal) (r : Fin 32768) (c : Fin 512) : EReal :=
  attnS Q ⟨r.val / 4096, by have := r.isLt; omega⟩ ⟨r.val % 4096, by omega⟩ ⟨c.val / 64, by have := c.isLt; omega⟩ ⟨c.val % 64, by omega⟩

theorem attnFlat_rowOf_ocolOf (Q : Fin 32768 → Fin 1536 → EReal) (b : Fin 8) (n : Fin 4096) (h : Fin 8) (e : Fin 64) :
    attnFlat Q (rowOf b n) (ocolOf h e) = attnS Q b n h e := by
  have := b.isLt; have := n.isLt; have := h.isLt; have := e.isLt
  unfold attnFlat rowOf ocolOf
  congr 1 <;> apply Fin.ext <;> simp only <;> omega

/-! ## Stage 3: the output projection -/

/-- One token: its 512 attention channels projected, plus the bias. -/
def projRow (a : Fin 512 → EReal) (Wo : Fin 512 → Fin 512 → EReal) (bo : Fin 512 → EReal) (c : Fin 512) : EReal :=
  (∑ k : Fin 512, a k * Wo k c) + bo c

def projS (A : Fin 32768 → Fin 512 → EReal) (Wo : Fin 512 → Fin 512 → EReal) (bo : Fin 512 → EReal)
    (r : Fin 32768) (c : Fin 512) : EReal :=
  projRow (A r) Wo bo c

/-! ## Stage 4: normalisation over the channels of a token -/

/-- The mean of a token's 512 channels. -/
def meanRow (y : Fin 512 → EReal) : EReal := Ideal.div (∑ c : Fin 512, y c) n512

/-- Their biased variance. -/
def varRow (y : Fin 512 → EReal) : EReal :=
  Ideal.div (∑ c : Fin 512, (y c - meanRow y) * (y c - meanRow y)) n512

/-- One token normalised, with the reciprocal square root as a factor. -/
def lnRowK (y g beta : Fin 512 → EReal) (c : Fin 512) : EReal :=
  (y c - meanRow y) * Ideal.rsqrt (varRow y + eps) * g c + beta c

/-- One token normalised, with the square root as a divisor. -/
def lnRowR (y g beta : Fin 512 → EReal) (c : Fin 512) : EReal :=
  Ideal.div (y c - meanRow y) (Ideal.sqrt (varRow y + eps)) * g c + beta c

def lnK (Y : Fin 32768 → Fin 512 → EReal) (g beta : Fin 512 → EReal) (r : Fin 32768) (c : Fin 512) : EReal :=
  lnRowK (Y r) g beta c

def lnR (Y : Fin 32768 → Fin 512 → EReal) (g beta : Fin 512 → EReal) (r : Fin 32768) (c : Fin 512) : EReal :=
  lnRowR (Y r) g beta c

/-! ## The whole function -/

/-- What is normalised: the projected attention output plus the bias. -/
def preLN (A : Fin 8 → Fin 64 → Fin 64 → Fin 512 → EReal) (W : Fin 512 → Fin 1536 → EReal)
    (Wo : Fin 512 → Fin 512 → EReal) (bo : Fin 512 → EReal) : Fin 32768 → Fin 512 → EReal :=
  projS (attnFlat (qkvS (unflat A) W)) Wo bo

def outK (A : Fin 8 → Fin 64 → Fin 64 → Fin 512 → EReal) (W : Fin 512 → Fin 1536 → EReal)
    (Wo : Fin 512 → Fin 512 → EReal) (bo g beta : Fin 512 → EReal) : Fin 32768 → Fin 512 → EReal :=
  lnK (preLN A W Wo bo) g beta

def outR (A : Fin 8 → Fin 64 → Fin 64 → Fin 512 → EReal) (W : Fin 512 → Fin 1536 → EReal)
    (Wo : Fin 512 → Fin 512 → EReal) (bo g beta : Fin 512 → EReal) : Fin 32768 → Fin 512 → EReal :=
  lnR (preLN A W Wo bo) g beta

/-! ## Arrays as functions of coordinates, and back -/

def cur4 (x : (⟨4, ![8, 64, 64, 512]⟩ : Shape).Idx → EReal) (a : Fin 8) (i j : Fin 64) (k : Fin 512) : EReal := x (ix4 a i j k)
def cur2 {n0 n1 : Nat} (x : (⟨2, ![n0, n1]⟩ : Shape).Idx → EReal) (a : Fin n0) (b : Fin n1) : EReal := x (ix2 a b)
def cur1 {n : Nat} (x : (⟨1, ![n]⟩ : Shape).Idx → EReal) (a : Fin n) : EReal := x (ix1 a)

/-- A [32768, 512] matrix as a [8, 64, 64, 512] array, row-major. -/
def outArr (f : Fin 32768 → Fin 512 → EReal) : (⟨4, ![8, 64, 64, 512]⟩ : Shape).Idx → EReal :=
  fun i => f (flat4 ⟨(i 0).val, (i 0).isLt⟩ ⟨(i 1).val, (i 1).isLt⟩ ⟨(i 2).val, (i 2).isLt⟩) ⟨(i 3).val, (i 3).isLt⟩

theorem outArr_ix4 (f : Fin 32768 → Fin 512 → EReal) (a : Fin 8) (i j : Fin 64) (k : Fin 512) :
    outArr f (ix4 a i j k) = f (flat4 a i j) k := rfl

/-- A [32768, n] matrix as an array. -/
def mat {n0 n1 : Nat} (f : Fin n0 → Fin n1 → EReal) : (⟨2, ![n0, n1]⟩ : Shape).Idx → EReal :=
  fun i => f ⟨(i 0).val, (i 0).isLt⟩ ⟨(i 1).val, (i 1).isLt⟩

theorem mat_ix2 {n0 n1 : Nat} (f : Fin n0 → Fin n1 → EReal) (a : Fin n0) (b : Fin n1) : mat f (ix2 a b) = f a b := rfl

end Cert.Spec

end
-- ==== Proof.KValue.lean ====
/-
  The program's result, read back from the last boundary to the launch arguments.

  The last operation reshapes the third pallas_call's [32768, 512] result to [8, 64, 64, 512], row-major: entry
  (a, i, j, k) is row (a·64 + i)·64 + j, column k. The third call's result is the normalised output projection of
  the second's, the second's the attention of the first's, the first's the projection of the [32768, 512] reshape
  of the input by the projection matrix; and every parameter read along the way is the launch's.
-/
import proofs.«132770_j30940944400685_2_alg».proof.Proof.KArgs
import proofs.«132770_j30940944400685_2_alg».proof.Proof.Spec
import Idealize.ShloMosaic.Lib.ValueIdx
import Idealize.ShloMosaic.Lib.Pipeline.Value

set_option maxRecDepth 16384

noncomputable section

namespace Cert.KernelIdeal.KVal

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The two reshapes at an index -/

/-- The reshape to [8, 64, 64, 512] of a matrix given by rows and columns is the array of `Spec.outArr`. -/
theorem castBack_mat (f : Fin 32768 → Fin 512 → EReal) (h : S32768x512.ShapeCasts S8x64x64x512) :
    shapeCast S8x64x64x512 (Cert.Spec.mat f) h = Cert.Spec.outArr f := by
  funext idx
  obtain ⟨a, i, j, k, rfl⟩ : ∃ (a : Fin 8) (i j : Fin 64) (k : Fin 512), idx = ix4 a i j k :=
    ⟨idx 0, idx 1, idx 2, idx 3, eq_ix4 idx⟩
  rw [Cert.Spec.outArr_ix4]
  refine (shapeCast_apply _ _ _ (ix2 (Cert.Spec.flat4 a i j) k) ?_).trans (Cert.Spec.mat_ix2 f _ _)
  rw [Shape.rowMajor_val_two, Shape.rowMajor_val_four]
  show ((a.val * 64 + i.val) * 64 + j.val) * 512 + k.val = ((a.val * 64 + i.val) * 64 + j.val) * 512 + k.val
  rfl

/-- The reshape of a [8, 64, 64, 512] array to a matrix, by rows and columns, is `Spec.unflat`. -/
theorem cur2_castFlat (X : FVec Ideal S8x64x64x512 .f32) (h : S8x64x64x512.ShapeCasts S32768x512) :
    Cert.Spec.cur2 (shapeCast S32768x512 X h) = Cert.Spec.unflat (Cert.Spec.cur4 X) := by
  funext r k
  have := r.isLt
  unfold Cert.Spec.cur2 Cert.Spec.unflat Cert.Spec.cur4
  refine shapeCast_apply _ _ _ _ ?_
  rw [Shape.rowMajor_val_two, Shape.rowMajor_val_four]
  show ((r.val / 4096 * 64 + r.val / 64 % 64) * 64 + r.val % 64) * 512 + k.val = r.val * 512 + k.val
  omega

/-- A matrix given by rows and columns, read by rows and columns. -/
theorem cur2_mat {n0 n1 : Nat} (f : Fin n0 → Fin n1 → EReal) : Cert.Spec.cur2 (Cert.Spec.mat f) = f := rfl

/-! ## The result -/

variable (m : (ℓ : Loc nD τ sig) → Buf (Elt Ideal) ℓ) (ρ : Dev nD → PrngReg)

/-- The first region is entered with the input reshaped to a matrix. -/
theorem V1_main_v0 (c : Dev nD) :
    (V1 m ρ c main_v0 : S32768x512.Idx → EReal)
      = shapeCast S32768x512 (m ((c : Thread nD τ).loc main_arg0) : S8x64x64x512.Idx → EReal) shapeCasts_S8x64x64x512_S32768x512 := by
  show StableHlo.after hostOps0 _ (Proc.devRef .tc main_v0) = _
  after_results
  rfl

/-- The last boundary's result buffer is the reshape of the third region's. -/
theorem W5_main_v4 (c : Dev nD) :
    (W5 m ρ c main_v4 : S8x64x64x512.Idx → EReal)
      = shapeCast S8x64x64x512 (W4 m ρ c main_v3 : S32768x512.Idx → EReal) shapeCasts_S32768x512_S8x64x64x512 := by
  show StableHlo.after hostOps3 _ (Proc.devRef .tc main_v4) = _
  after_results
  rfl

/-- The program's result is the specification's function of the launch arguments, given what each of the three
    regions leaves in its output array as a function of the contents it is entered with. -/
theorem W5_result
    (hf0 : ∀ (V : (c : Dev nD) → (b : Ref sig .tc) → Buf (Elt Ideal) ((c : Thread nD τ).loc b)) (c : Dev nD),
      (dat0 (F := Ideal) V c).arrAt 2 cfg0.N
        = Cert.Spec.mat (Cert.Spec.qkvS (Cert.Spec.cur2 (V c main_v0)) (Cert.Spec.cur2 (V c main_arg1))))
    (hf1 : ∀ (V : (c : Dev nD) → (b : Ref sig .tc) → Buf (Elt Ideal) ((c : Thread nD τ).loc b)) (c : Dev nD),
      (dat1 (F := Ideal) V c).arrAt 3 cfg1.N = Cert.Spec.mat (Cert.Spec.attnFlat (Cert.Spec.cur2 (V c main_v1))))
    (hf2 : ∀ (V : (c : Dev nD) → (b : Ref sig .tc) → Buf (Elt Ideal) ((c : Thread nD τ).loc b)) (c : Dev nD),
      (dat2 (F := Ideal) V c).arrAt 5 cfg2.N
        = Cert.Spec.mat (Cert.Spec.lnK (Cert.Spec.projS (Cert.Spec.cur2 (V c main_v2)) (Cert.Spec.cur2 (V c main_arg2))
            (Cert.Spec.cur1 (V c main_arg3))) (Cert.Spec.cur1 (V c main_arg4)) (Cert.Spec.cur1 (V c main_arg5))))
    (c : Dev nD) :
    W5 m ρ c main_v4 = Cert.Spec.outArr (Cert.Spec.outK (Cert.Spec.cur4 (m ((c : Thread nD τ).loc main_arg0))) (Cert.Spec.cur2 (m ((c : Thread nD τ).loc main_arg1)))
        (Cert.Spec.cur2 (m ((c : Thread nD τ).loc main_arg2))) (Cert.Spec.cur1 (m ((c : Thread nD τ).loc main_arg3))) (Cert.Spec.cur1 (m ((c : Thread nD τ).loc main_arg4))) (Cert.Spec.cur1 (m ((c : Thread nD τ).loc main_arg5)))) := by
  -- the first region leaves the projection of the reshaped input
  have e1 : V2 m ρ c main_v1
      = Cert.Spec.mat (Cert.Spec.qkvS (Cert.Spec.unflat (Cert.Spec.cur4 (m ((c : Thread nD τ).loc main_arg0)))) (Cert.Spec.cur2 (m ((c : Thread nD τ).loc main_arg1)))) := by
    refine (W2_arr m ρ c 2).trans ((hf0 (V1 m ρ) c).trans ?_)
    rw [V1_main_v0, cur2_castFlat, show V1 m ρ c main_arg1 = m ((c : Thread nD τ).loc main_arg1) from W1_of_ne m ρ c main_arg1 (by decide)]
  -- the second leaves the attention of that
  have e2 : V3 m ρ c main_v2
      = Cert.Spec.mat (Cert.Spec.attnFlat (Cert.Spec.qkvS (Cert.Spec.unflat (Cert.Spec.cur4 (m ((c : Thread nD τ).loc main_arg0)))) (Cert.Spec.cur2 (m ((c : Thread nD τ).loc main_arg1))))) := by
    refine (W3_out m ρ c).trans ((hf1 (V2 m ρ) c).trans ?_)
    rw [e1, cur2_mat]
  -- the third leaves the normalised output projection of that
  have e3 : W4 m ρ c main_v3
      = Cert.Spec.mat (Cert.Spec.outK (Cert.Spec.cur4 (m ((c : Thread nD τ).loc main_arg0))) (Cert.Spec.cur2 (m ((c : Thread nD τ).loc main_arg1)))
          (Cert.Spec.cur2 (m ((c : Thread nD τ).loc main_arg2))) (Cert.Spec.cur1 (m ((c : Thread nD τ).loc main_arg3))) (Cert.Spec.cur1 (m ((c : Thread nD τ).loc main_arg4))) (Cert.Spec.cur1 (m ((c : Thread nD τ).loc main_arg5)))) := by
    refine (W4_arr m ρ c 5).trans ((hf2 (V3 m ρ) c).trans ?_)
    rw [e2, cur2_mat, show V3 m ρ c main_arg2 = m ((c : Thread nD τ).loc main_arg2) from W3_main_arg2 m ρ c,
      show V3 m ρ c main_arg3 = m ((c : Thread nD τ).loc main_arg3) from W3_main_arg3 m ρ c,
      show V3 m ρ c main_arg4 = m ((c : Thread nD τ).loc main_arg4) from W3_main_arg4 m ρ c,
      show V3 m ρ c main_arg5 = m ((c : Thread nD τ).loc main_arg5) from W3_main_arg5 m ρ c]
    rfl
  exact ((W5_main_v4 m ρ c).trans (congrArg (fun X => shapeCast S8x64x64x512 X shapeCasts_S32768x512_S8x64x64x512) e3)).trans
    (castBack_mat _ _)

end Cert.KernelIdeal.KVal

end
-- ==== Proof.K0Value.lean ====
import proofs.«132770_j30940944400685_2_alg».proof.Proof.Gen.KernelIdeal.Skeleton
import proofs.«132770_j30940944400685_2_alg».proof.Proof.Spec
import Idealize.ShloMosaic.PureOps.Ideal.Laws
import Idealize.ShloMosaic.Lib.ValueLayout
import Idealize.ShloMosaic.Lib.Pipeline.Value

noncomputable section

namespace Cert.KernelIdeal.K0Value

open Idealize.ShloMosaic Idealize.ShloMosaic.ValueIdx Idealize.SL.Sem
open scoped BigOperators

/-! The first kernel's block: a [1024, 512] block of tokens times the [512, 1536] projection matrix, accumulated
    into zero. At the ideal values the narrowings to bf16 are the identity, so the block at (p, c) is the sum over
    the 512 contracted channels of the products of the entries. -/

/-- On its free axis the left operand's index reads the output's row. -/
theorem lhs_0 (i : S1024x1536.Idx) (q : dot_S1024x512_S512x1536_S1024x1536_1_0_0_1_n_n.contr.Idx) :
    (dot_S1024x512_S512x1536_S1024x1536_1_0_0_1_n_n.lhsIdx i q 0).val = (i 0).val := by
  unfold DotDims.lhsIdx
  rw [dif_neg (show ¬(0 : Fin S1024x512.rank) ∈ dot_S1024x512_S512x1536_S1024x1536_1_0_0_1_n_n.lhsBatch by decide),
    dif_pos (show (0 : Fin S1024x512.rank) ∈ dot_S1024x512_S512x1536_S1024x1536_1_0_0_1_n_n.lhsNonContracting by decide)]
  rfl

/-- On its contracted axis the left operand's index reads the contraction coordinate. -/
theorem lhs_1 (i : S1024x1536.Idx) (q : dot_S1024x512_S512x1536_S1024x1536_1_0_0_1_n_n.contr.Idx) :
    (dot_S1024x512_S512x1536_S1024x1536_1_0_0_1_n_n.lhsIdx i q 1).val = (q ⟨0, by decide⟩).val :=
  dot_S1024x512_S512x1536_S1024x1536_1_0_0_1_n_n.lhsIdx_val_of_single rfl i q

/-- On its contracted axis the right operand's index reads the contraction coordinate. -/
theorem rhs_0 (i : S1024x1536.Idx) (q : dot_S1024x512_S512x1536_S1024x1536_1_0_0_1_n_n.contr.Idx) :
    (dot_S1024x512_S512x1536_S1024x1536_1_0_0_1_n_n.rhsIdx i q 0).val = (q ⟨0, by decide⟩).val :=
  dot_S1024x512_S512x1536_S1024x1536_1_0_0_1_n_n.rhsIdx_val_of_single rfl i q

/-- On its free axis the right operand's index reads the output's column. -/
theorem rhs_1 (i : S1024x1536.Idx) (q : dot_S1024x512_S512x1536_S1024x1536_1_0_0_1_n_n.contr.Idx) :
    (dot_S1024x512_S512x1536_S1024x1536_1_0_0_1_n_n.rhsIdx i q 1).val = (i 1).val := by
  unfold DotDims.rhsIdx
  rw [dif_neg (show ¬(1 : Fin S512x1536.rank) ∈ dot_S1024x512_S512x1536_S1024x1536_1_0_0_1_n_n.rhsBatch by decide),
    dif_pos (show (1 : Fin S512x1536.rank) ∈ dot_S1024x512_S512x1536_S1024x1536_1_0_0_1_n_n.rhsNonContracting by decide)]
  rfl

/-- The product into the zero accumulator, read at (p, c): the sum over the contracted coordinate of the products
    of the left operand's row p and the right operand's column c. -/
theorem matmul_zero_apply (A : FVec Ideal S1024x512 .bf16) (B : FVec Ideal S512x1536 .bf16) (p : Fin 1024) (c : Fin 1536) :
    matmul dot_S1024x512_S512x1536_S1024x1536_1_0_0_1_n_n none A B (constant (F := Ideal) S1024x1536 .f32 0x00000000#32) (ix2 p c)
      = ∑ k : Fin 512, A (ix2 p k) * B (ix2 k c) := by
  show FloatOps.matmul _ none A B _ (ix2 p c) = _
  rw [Ideal.matmul_constant_zero_apply,
    ← Equiv.sum_comp (contrEquiv1 dot_S1024x512_S512x1536_S1024x1536_1_0_0_1_n_n 512 rfl rfl).symm]
  refine Finset.sum_congr rfl fun k _ => ?_
  have hk := contrEquiv1_symm_val dot_S1024x512_S512x1536_S1024x1536_1_0_0_1_n_n 512 rfl rfl k
  have el : dot_S1024x512_S512x1536_S1024x1536_1_0_0_1_n_n.lhsIdx (ix2 p c) ((contrEquiv1 dot_S1024x512_S512x1536_S1024x1536_1_0_0_1_n_n 512 rfl rfl).symm k) = ix2 p k :=
    funext fun a => Fin.ext (by
      match a with
      | ⟨0, _⟩ => exact lhs_0 _ _
      | ⟨1, _⟩ => exact (lhs_1 _ _).trans hk)
  have er : dot_S1024x512_S512x1536_S1024x1536_1_0_0_1_n_n.rhsIdx (ix2 p c) ((contrEquiv1 dot_S1024x512_S512x1536_S1024x1536_1_0_0_1_n_n 512 rfl rfl).symm k) = ix2 k c :=
    funext fun a => Fin.ext (by
      match a with
      | ⟨0, _⟩ => exact (rhs_0 _ _).trans hk
      | ⟨1, _⟩ => exact rhs_1 _ _)
  rw [el, er]

/-- The first kernel's block at (p, c): the token's row times the matrix's column. -/
theorem k0_pay1_apply (x0 : Vec Ideal S1024x512 .f32) (w : Vec Ideal S512x1536 .f32) (p : Fin 1024) (c : Fin 1536) :
    Gen.k0_pay1 (F := Ideal) x0 w (ValueIdx.ix2 p c) = ∑ k : Fin 512, x0 (ValueIdx.ix2 p k) * w (ValueIdx.ix2 k c) := by
  unfold Gen.k0_pay1
  rw [truncf_apply, matmul_zero_apply]
  refine Finset.sum_congr rfl fun k _ => ?_
  rw [truncf_apply, truncf_apply, shapeCast_self]

end Cert.KernelIdeal.K0Value

end
-- ==== Proof.KFinal0.lean ====
/-
  The first pallas_call's output array, read off its blocks at the ideal values.

  Point t of the 32 writes back rows 1024·t … 1024·t + 1023 of the [32768, 1536] result. Its block is the product of
  the same rows of the token matrix with the whole projection matrix, so entry (p, q) of the block is entry
  (1024·t + p, q) of the projection of every token: each point writes its block of ONE matrix, and the 32 blocks tile
  the array (row r lies in the block of point r / 1024). The array therefore ends holding that matrix.
-/
import proofs.«132770_j30940944400685_2_alg».proof.Proof.KFrame0
import proofs.«132770_j30940944400685_2_alg».proof.Proof.K0Value
import proofs.«132770_j30940944400685_2_alg».proof.Proof.Spec
import Idealize.ShloMosaic.Lib.Pipeline.Value

noncomputable section

namespace Cert.KernelIdeal.KFin

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The zero offsets of a rank-2 rectangle, however spelt. -/
theorem zero_off2 : (![0, 0] : Fin 2 → Nat) = fun _ => 0 := funext fun a => by fin_cases a <;> rfl

/-- A matrix read as an array, at an index whose coordinates are known. -/
theorem mat_apply_of {n0 n1 : Nat} (f : Fin n0 → Fin n1 → EReal) (i : (⟨2, ![n0, n1]⟩ : Shape).Idx) (a : Fin n0) (b : Fin n1)
    (ha : (i 0).val = a.val) (hb : (i 1).val = b.val) : Cert.Spec.mat f i = f a b := by
  have h0 : (i 0 : Fin n0) = a := Fin.ext ha
  have h1 : (i 1 : Fin n1) = b := Fin.ext hb
  exact (congrArg (Cert.Spec.mat f) (eq_ix2 i)).trans (congrArg₂ f h0 h1)

/-- The block indices over the grid: the token window and the result window sit at row block t, column block 0; the
    projection matrix's window never moves. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The token window's block at point t is rows 1024·t … of the token matrix. -/
theorem tokens_block_apply (c : Dev nD) (t : Fin cfg0.N) (x : S1024x512.Idx) (k : S32768x512.Idx)
    (hk0 : (k 0).val = 1024 * t.val + (x 0).val) (hk1 : (k 1).val = (x 1).val) :
    (iblk0 V c 0 t : Vec Ideal S1024x512 .f32) x = (V c main_v0 : S32768x512.Idx → EReal) k := by
  obtain ⟨e0, e1, -⟩ := index0 t
  unfold iblk0
  rw [View.read_apply]
  show V c main_v0 _ = V c main_v0 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 512 + 1 * (x 1).val = (k 1).val; rw [e1, hk1]; omega

/-- The projection matrix's window's block at every point is the whole matrix. -/
theorem weights_block_apply (c : Dev nD) (t : Fin cfg0.N) (x : S512x1536.Idx) (k : S512x1536.Idx)
    (hk0 : (k 0).val = (x 0).val) (hk1 : (k 1).val = (x 1).val) :
    (iblk0 V c 1 t : Vec Ideal S512x1536 .f32) x = (V c main_arg1 : S512x1536.Idx → EReal) k := by
  obtain ⟨-, -, e0, e1, -⟩ := index0 t
  unfold iblk0
  rw [View.read_apply]
  show V c main_arg1 _ = V c main_arg1 _
  congr 1
  funext a
  apply Fin.ext
  match a with
  | ⟨0, _⟩ => show win0_1.index t (0 : Fin 2) * 512 + 1 * (x 0).val = (k 0).val; rw [e0, hk0]; omega
  | ⟨1, _⟩ => show win0_1.index t (1 : Fin 2) * 1536 + 1 * (x 1).val = (k 1).val; rw [e1, hk1]; omega

/-- The projection of every token, as a function of the region's two arrays. -/
abbrev proj0 (c : Dev nD) : Fin 32768 → Fin 1536 → EReal :=
  Cert.Spec.qkvS (Cert.Spec.cur2 (V c main_v0 : S32768x512.Idx → EReal)) (Cert.Spec.cur2 (V c main_arg1 : S512x1536.Idx → EReal))

/-- Entry (p, q) of what point t computes is entry (1024·t + p, q) of the projection. -/
theorem block0_apply (c : Dev nD) (t : Fin cfg0.N) (p : Fin 1024) (q : Fin 1536) (r : Fin 32768)
    (hr : r.val = 1024 * t.val + p.val) :
    k0_pay1 (F := Ideal) (iblk0 V c 0 t) (iblk0 V c 1 t) (ix2 p q) = proj0 V c r q := by
  refine (K0Value.k0_pay1_apply (iblk0 V c 0 t) (iblk0 V c 1 t) p q).trans ?_
  unfold proj0 Cert.Spec.qkvS
  refine Finset.sum_congr rfl fun k _ => ?_
  exact congrArg₂ (· * ·) (tokens_block_apply V c t (ix2 p k) (ix2 r k) hr rfl)
    (weights_block_apply V c t (ix2 k q) (ix2 k q) rfl rfl)

/-- What point t writes back is block t of the projection. -/
theorem flushed0_eq (c : Dev nD) (t : Fin cfg0.N) :
    (dat0 V c).flushed 2 t = ((cfg0.win 2).blk t).view.read (Elt Ideal) (Cert.Spec.mat (proj0 V c)) := by
  show (cfg0.win 2).cut (grid0.coords t) ((dat0 V c).after 2 t) = _
  rw [after0_2]
  unfold out0_2
  rw [View.canon_unit_zero zero_off2]
  simp only [View.ld_unit_zero (S := S1024x512) zero_off2, View.ld_unit_zero (S := S512x1536) zero_off2]
  obtain ⟨-, -, -, -, e0, e1⟩ := index0 t
  funext j
  have hj0 : (j 0).val < 1024 := (j 0).isLt
  have hj1 : (j 1).val < 1536 := (j 1).isLt
  have ht : t.val < 32 := t.isLt
  rw [View.read_apply]
  have hx : (cfg0.win 2).xinj (grid0.coords t) j = ix2 (⟨(j 0).val, hj0⟩ : Fin 1024) (⟨(j 1).val, hj1⟩ : Fin 1536) :=
    funext fun a => by match a with | ⟨0, _⟩ => rfl | ⟨1, _⟩ => rfl
  show k0_pay1 (F := Ideal) (iblk0 V c 0 t) (iblk0 V c 1 t) ((cfg0.win 2).xinj (grid0.coords t) j) = _
  rw [hx]
  refine (block0_apply V c t ⟨(j 0).val, hj0⟩ ⟨(j 1).val, hj1⟩ ⟨1024 * t.val + (j 0).val, by omega⟩ rfl).trans ?_
  refine (mat_apply_of (proj0 V c) _ _ _ ?_ ?_).symm
  · show win0_2.index t (0 : Fin 2) * 1024 + 1 * (j 0).val = 1024 * t.val + (j 0).val; rw [e0]; omega
  · show win0_2.index t (1 : Fin 2) * 1536 + 1 * (j 1).val = (j 1).val; rw [e1]; omega

/-- An index of the result is in point t's block iff each coordinate is in the block's range on its axis. -/
theorem mem_block0 (t : Fin cfg0.N) (i : S32768x1536.Idx) :
    i ∈ ((cfg0.win 2).blk t).view.set ↔ ∀ a : Fin 2, win0_2.index t a * S1024x1536.size a ≤ (i a).val
      ∧ (i a).val < win0_2.index t a * S1024x1536.size a + S1024x1536.size a := by
  show i ∈ ((View.whole main_v1).slice (win0_2.rect t)).set ↔ _
  rw [View.set_slice_whole, Rect.mem_set_unit]
  exact Iff.rfl

/-- Row r of the result lies in the block of point r / 1024. -/
theorem cover0 (i : S32768x1536.Idx) : ∃ t : Fin cfg0.N, (cfg0.win 2).flush t = true ∧ i ∈ ((cfg0.win 2).blk t).view.set := by
  have hi0 : (i 0).val < 32768 := (i 0).isLt
  have hi1 : (i 1).val < 1536 := (i 1).isLt
  obtain ⟨t, ht⟩ : ∃ t : Fin cfg0.N, t.val = (i 0).val / 1024 := ⟨⟨(i 0).val / 1024, by rw [show cfg0.N = 32 from N_0]; omega⟩, rfl⟩
  obtain ⟨-, -, -, -, e0, e1⟩ := index0 t
  refine ⟨t, flush0_2 t, ?_⟩
  rw [mem_block0]
  intro a
  match a with
  | ⟨0, _⟩ => show win0_2.index t (0 : Fin 2) * 1024 ≤ (i 0).val ∧ (i 0).val < win0_2.index t (0 : Fin 2) * 1024 + 1024; rw [e0]; omega
  | ⟨1, _⟩ => show win0_2.index t (1 : Fin 2) * 1536 ≤ (i 1).val ∧ (i 1).val < win0_2.index t (1 : Fin 2) * 1536 + 1536; rw [e1]; omega

/-- After the region the result array holds the projection of every token. -/
theorem final0 (c : Dev nD) : (dat0 (F := Ideal) V c).arrAt 2 cfg0.N
    = Cert.Spec.mat (Cert.Spec.qkvS (Cert.Spec.cur2 (V c main_v0)) (Cert.Spec.cur2 (V c main_arg1))) :=
  (dat0 V c).arrAt_eq_of_cover 2 (Cert.Spec.mat (proj0 V c)) (fun t _ => flushed0_eq V c t) cover0

end Cert.KernelIdeal.KFin

end
-- ==== Proof.K1ValueDefs.lean ====
/-
  The attention kernel's block arithmetic cut into its stages, each a function of abstract 4096×64 slices:
  the row maximum broadcast along the features, the row softmax times 1/8, the column softmax, the context
  kᵀ·v and the product q̂·context. Both heads of a pair are the same composition of these stages.
-/
import proofs.«132770_j30940944400685_2_alg».proof.Proof.Gen.KernelIdeal.Skeleton
import Idealize.ShloMosaic.PureOps.Ideal

noncomputable section

namespace Cert.KernelIdeal.K1Value

open Idealize.ShloMosaic
open Cert.KernelIdeal Cert.KernelIdeal.Facts₀

/-- The maximum of each row, as a column, broadcast along the 64 features. -/
def rowMaxB (x : FVec Ideal S4096x64 .f32) : FVec Ideal S4096x64 .f32 :=
  broadcastTo S4096x64
    (shapeCast S4096x1 (multiReduction .maximumf [1] S4096 x 0xFF800000#32 reduces_S4096x64_S4096 (.inl rfl) rfl)
      shapeCasts_S4096_S4096x1) broadcasts_S4096x1_S4096x64

/-- The sum of each row, as a column, broadcast along the 64 features. -/
def rowSumB (x : FVec Ideal S4096x64 .f32) : FVec Ideal S4096x64 .f32 :=
  broadcastTo S4096x64
    (shapeCast S4096x1 (multiReduction .add [1] S4096 x 0x00000000#32 reduces_S4096x64_S4096 (.inl rfl) rfl)
      shapeCasts_S4096_S4096x1) broadcasts_S4096x1_S4096x64

/-- The maximum of each column, as a row, broadcast along the 4096 tokens. -/
def colMaxB (y : FVec Ideal S4096x64 .f32) : FVec Ideal S4096x64 .f32 :=
  broadcastTo S4096x64
    (shapeCast S1x64 (multiReduction .maximumf [0] S64 y 0xFF800000#32 reduces_S4096x64_S64 (.inl rfl) rfl)
      shapeCasts_S64_S1x64) broadcasts_S1x64_S4096x64

/-- The sum of each column, as a row, broadcast along the 4096 tokens. -/
def colSumB (y : FVec Ideal S4096x64 .f32) : FVec Ideal S4096x64 .f32 :=
  broadcastTo S4096x64
    (shapeCast S1x64 (multiReduction .add [0] S64 y 0x00000000#32 reduces_S4096x64_S64 (.inl rfl) rfl)
      shapeCasts_S64_S1x64) broadcasts_S1x64_S4096x64

/-- exp(x − mx) normalised along each row, times 1/8: the scaled query softmax, given the row maxima `mx`. -/
def qhat (x mx : FVec Ideal S4096x64 .f32) : FVec Ideal S4096x64 .f32 :=
  mulf (divf (exp (subf x mx)) (rowSumB (exp (subf x mx))))
    (broadcast S4096x64 (Scalar.ofBits (F := Ideal) .f32 0x3E000000#32))

/-- exp(y − column maximum) normalised along each column: the key softmax over the tokens. -/
def khat (y : FVec Ideal S4096x64 .f32) : FVec Ideal S4096x64 .f32 :=
  divf (exp (subf y (colMaxB y))) (colSumB (exp (subf y (colMaxB y))))

/-- The context: the first product, contracting the tokens of both operands. -/
def ctx (kh v : FVec Ideal S4096x64 .f32) : FVec Ideal S64x64 .f32 :=
  matmul dot_S4096x64_S4096x64_S64x64_0_0_1_1_n_n none (truncf .bf16 kh bitsLt_bf16_f32) (truncf .bf16 v bitsLt_bf16_f32)
    (constant S64x64 .f32 0x00000000#32)

/-- The output: the second product, contracting the features of the left operand with the rows of the context. -/
def outp (qh : FVec Ideal S4096x64 .f32) (c : FVec Ideal S64x64 .f32) : FVec Ideal S4096x64 .f32 :=
  matmul dot_S4096x64_S64x64_S4096x64_1_0_0_1_n_n none (truncf .bf16 qh bitsLt_bf16_f32) (truncf .bf16 c bitsLt_bf16_f32)
    (constant S4096x64 .f32 0x00000000#32)

/-- One head: queries `x` with their row maxima `mx`, keys `y`, values `v`. -/
def head (x mx y v : FVec Ideal S4096x64 .f32) : FVec Ideal S4096x64 .f32 :=
  outp (qhat x mx) (ctx (khat y) v)

/-- The lanes 0…63 of a widened block. -/
def lo (b : Vec Ideal S4096x128 .bf16) : FVec Ideal S4096x64 .f32 :=
  extractStridedSlice S4096x64 ![0, 0] (Gen.k1_pay2 (F := Ideal) b) slices_S4096x128_o0_0_S4096x64

/-- The first head's payload is the head of the low lanes. -/
theorem k1_pay5_eq (q k v : Vec Ideal S4096x128 .bf16) :
    Gen.k1_pay5 (F := Ideal) q k v
      = head (lo q) (rowMaxB (lo q))
          (extractStridedSlice S4096x64 ![0, 0] (Gen.k1_pay3 (F := Ideal) k) slices_S4096x128_o0_0_S4096x64)
          (extractStridedSlice S4096x64 ![0, 0] (Gen.k1_pay4 (F := Ideal) v) slices_S4096x128_o0_0_S4096x64) := rfl

/-- The row maxima handed to the second head are those of its own queries. -/
theorem k1_pay9_eq (q : Vec Ideal S4096x128 .bf16) : Gen.k1_pay9 (F := Ideal) q = rowMaxB (Gen.k1_pay6 (F := Ideal) q) := rfl

/-- The stored block: the first head's output beside the second head's, narrowed. -/
theorem k1_pay1_eq (v37 v38 v39 v40 v43 : FVec Ideal S4096x64 .f32) :
    Gen.k1_pay1 (F := Ideal) v37 v38 v39 v40 v43
      = truncf .bf16 (concatenate S4096x128 1 [⟨S4096x64, v37⟩, ⟨S4096x64, head v38 v43 v39 v40⟩]
          concatenates_S4096x64_S4096x64_S4096x128_d1) bitsLt_bf16_f32 := rfl

end Cert.KernelIdeal.K1Value

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.K1ValueRow.lean ====
/-
  The row stages read at an index: the maximum and the sum of a token's 64 features broadcast back along the
  features, and the scaled softmax of a token's features.
-/
import proofs.«132770_j30940944400685_2_alg».proof.Proof.K1ValueDefs
import proofs.«132770_j30940944400685_2_alg».proof.Proof.Spec
import proofs.«132770_j30940944400685_2_alg».proof.Proof.LibColumnLayout
import Idealize.ShloMosaic.PureOps.Ideal.Laws

noncomputable section

namespace Cert.KernelIdeal.K1Value

open Idealize.ShloMosaic Idealize.ShloMosaic.ValueIdx
open Cert.KernelIdeal Cert.KernelIdeal.Facts₀

/-- Inserting feature `d` into the token index `n` gives the matrix index `(n, d)`. -/
theorem lift_row (h : S4096x64.Reduces [1] S4096) (n : Fin 4096) (d : Fin 64) :
    h.lift (ix1 n) d = ix2 n d := by
  funext c
  apply Fin.ext
  match c with
  | ⟨0, _⟩ => rfl
  | ⟨1, _⟩ => rfl

theorem rowMaxB_apply (x : FVec Ideal S4096x64 .f32) (n : Fin 4096) (d : Fin 64) :
    rowMaxB x (ix2 n d) = Cert.Spec.maxOver (fun d' : Fin 64 => x (ix2 n d')) := by
  unfold rowMaxB
  rw [PhysLoss.broadcastTo_a1_ab_apply, PhysLoss.shapeCast_a_a1_apply]
  refine (Ideal.multiReduction_maximumf_single x _ _ _ _ (ix1 n)).trans ?_
  show (Finset.univ : Finset (Fin 64)).fold max (Ideal.ofBits .f32 0xFF800000#32) (x ∘ reduces_S4096x64_S4096.lift (ix1 n)) = _
  unfold Cert.Spec.maxOver Cert.Spec.negInf
  have hf : (x ∘ reduces_S4096x64_S4096.lift (ix1 n)) = fun d' : Fin 64 => x (ix2 n d') :=
    funext fun d' => congrArg x (lift_row _ n d')
  exact congrArg (fun f => (Finset.univ : Finset (Fin 64)).fold max (Ideal.ofBits .f32 0xFF800000#32) f) hf

theorem rowSumB_apply (x : FVec Ideal S4096x64 .f32) (n : Fin 4096) (d : Fin 64) :
    rowSumB x (ix2 n d) = ∑ d' : Fin 64, x (ix2 n d') := by
  unfold rowSumB
  rw [PhysLoss.broadcastTo_a1_ab_apply, PhysLoss.shapeCast_a_a1_apply]
  refine (Ideal.multiReduction_add_single x _ _ _ _ (ix1 n)).trans ?_
  show ∑ d' : Fin 64, x (reduces_S4096x64_S4096.lift (ix1 n) d') = _
  exact Finset.sum_congr rfl fun d' _ => congrArg x (lift_row _ n d')

theorem qhat_apply (x mx : FVec Ideal S4096x64 .f32)
    (hmx : ∀ (n : Fin 4096) (d : Fin 64), mx (ix2 n d) = Cert.Spec.maxOver (fun d' : Fin 64 => x (ix2 n d')))
    (n : Fin 4096) (d : Fin 64) :
    qhat x mx (ix2 n d) = Cert.Spec.softmax (fun d' : Fin 64 => x (ix2 n d')) d * Cert.Spec.eighth := by
  unfold qhat
  rw [mulf_apply, divf_apply, broadcast_apply, rowSumB_apply]
  show Ideal.div (Ideal.exp (x (ix2 n d) - mx (ix2 n d))) (∑ d' : Fin 64, Ideal.exp (x (ix2 n d') - mx (ix2 n d')))
      * Ideal.ofBits .f32 0x3E000000#32 = _
  unfold Cert.Spec.softmax Cert.Spec.eighth
  simp only [hmx]

end Cert.KernelIdeal.K1Value

end
-- ==== Proof.K1ValueCol.lean ====
/-
  The column stages read at an index: the maximum and the sum of a feature over the 4096 tokens broadcast back
  along the tokens, and the softmax of a feature over the tokens.
-/
import proofs.«132770_j30940944400685_2_alg».proof.Proof.K1ValueDefs
import proofs.«132770_j30940944400685_2_alg».proof.Proof.Spec
import Idealize.ShloMosaic.Lib.ValueLayout
import Idealize.ShloMosaic.PureOps.Ideal.Laws

noncomputable section

namespace Cert.KernelIdeal.K1Value

open Idealize.ShloMosaic Idealize.ShloMosaic.ValueIdx
open Cert.KernelIdeal Cert.KernelIdeal.Facts₀

/-- Inserting token `m` into the feature index `d` gives the matrix index `(m, d)`. -/
theorem lift_col (h : S4096x64.Reduces [0] S64) (d : Fin 64) (m : Fin 4096) :
    h.lift (ix1 d) m = ix2 m d := by
  funext c
  apply Fin.ext
  match c with
  | ⟨0, _⟩ => rfl
  | ⟨1, _⟩ => rfl

theorem colMaxB_apply (y : FVec Ideal S4096x64 .f32) (m : Fin 4096) (d : Fin 64) :
    colMaxB y (ix2 m d) = Cert.Spec.maxOver (fun m' : Fin 4096 => y (ix2 m' d)) := by
  unfold colMaxB
  rw [broadcastTo_1b_ab_apply, shapeCast_a_1a_apply]
  refine (Ideal.multiReduction_maximumf_single y _ _ _ _ (ix1 d)).trans ?_
  show (Finset.univ : Finset (Fin 4096)).fold max (Ideal.ofBits .f32 0xFF800000#32) (y ∘ reduces_S4096x64_S64.lift (ix1 d)) = _
  unfold Cert.Spec.maxOver Cert.Spec.negInf
  have hf : (y ∘ reduces_S4096x64_S64.lift (ix1 d)) = fun m' : Fin 4096 => y (ix2 m' d) :=
    funext fun m' => congrArg y (lift_col _ d m')
  exact congrArg (fun f => (Finset.univ : Finset (Fin 4096)).fold max (Ideal.ofBits .f32 0xFF800000#32) f) hf

theorem colSumB_apply (y : FVec Ideal S4096x64 .f32) (m : Fin 4096) (d : Fin 64) :
    colSumB y (ix2 m d) = ∑ m' : Fin 4096, y (ix2 m' d) := by
  unfold colSumB
  rw [broadcastTo_1b_ab_apply, shapeCast_a_1a_apply]
  refine (Ideal.multiReduction_add_single y _ _ _ _ (ix1 d)).trans ?_
  show ∑ m' : Fin 4096, y (reduces_S4096x64_S64.lift (ix1 d) m') = _
  exact Finset.sum_congr rfl fun m' _ => congrArg y (lift_col _ d m')

theorem khat_apply (y : FVec Ideal S4096x64 .f32) (m : Fin 4096) (d : Fin 64) :
    khat y (ix2 m d) = Cert.Spec.softmax (fun m' : Fin 4096 => y (ix2 m' d)) m := by
  unfold khat
  rw [divf_apply, colSumB_apply]
  show Ideal.div (Ideal.exp (y (ix2 m d) - colMaxB y (ix2 m d)))
      (∑ m' : Fin 4096, Ideal.exp (y (ix2 m' d) - colMaxB y (ix2 m' d))) = _
  unfold Cert.Spec.softmax
  simp only [colMaxB_apply]

end Cert.KernelIdeal.K1Value

end
-- ==== Proof.K1ValueMat.lean ====
/-
  The two matrix products read at an index. The context contracts the 4096 tokens of both operands:
  ctx(d, e) = Σₘ k̂(m, d) · v(m, e). The output contracts the 64 features of the left operand with the rows of
  the context: out(n, e) = Σ_d q̂(n, d) · ctx(d, e). At the ideal values narrowing to bf16 changes nothing and the
  accumulator is the zero splat.
-/
import proofs.«132770_j30940944400685_2_alg».proof.Proof.K1ValueDefs
import Idealize.ShloMosaic.Lib.ValueIdx
import Idealize.ShloMosaic.PureOps.Ideal.Laws

noncomputable section

namespace Cert.KernelIdeal.K1Value

open Idealize.ShloMosaic Idealize.ShloMosaic.ValueIdx
open Cert.KernelIdeal Cert.KernelIdeal.Facts₀

/-! ## The first product's operand indices -/

theorem ctx_lhs_0 (i : S64x64.Idx) (q : dot_S4096x64_S4096x64_S64x64_0_0_1_1_n_n.contr.Idx) :
    (dot_S4096x64_S4096x64_S64x64_0_0_1_1_n_n.lhsIdx i q 0).val = (q ⟨0, by decide⟩).val :=
  dot_S4096x64_S4096x64_S64x64_0_0_1_1_n_n.lhsIdx_val_of_single rfl i q

theorem ctx_lhs_1 (i : S64x64.Idx) (q : dot_S4096x64_S4096x64_S64x64_0_0_1_1_n_n.contr.Idx) :
    (dot_S4096x64_S4096x64_S64x64_0_0_1_1_n_n.lhsIdx i q 1).val = (i 0).val := by
  unfold DotDims.lhsIdx
  rw [dif_neg (show ¬(1 : Fin S4096x64.rank) ∈ dot_S4096x64_S4096x64_S64x64_0_0_1_1_n_n.lhsBatch by decide),
    dif_pos (show (1 : Fin S4096x64.rank) ∈ dot_S4096x64_S4096x64_S64x64_0_0_1_1_n_n.lhsNonContracting by decide)]
  rfl

theorem ctx_rhs_0 (i : S64x64.Idx) (q : dot_S4096x64_S4096x64_S64x64_0_0_1_1_n_n.contr.Idx) :
    (dot_S4096x64_S4096x64_S64x64_0_0_1_1_n_n.rhsIdx i q 0).val = (q ⟨0, by decide⟩).val :=
  dot_S4096x64_S4096x64_S64x64_0_0_1_1_n_n.rhsIdx_val_of_single rfl i q

theorem ctx_rhs_1 (i : S64x64.Idx) (q : dot_S4096x64_S4096x64_S64x64_0_0_1_1_n_n.contr.Idx) :
    (dot_S4096x64_S4096x64_S64x64_0_0_1_1_n_n.rhsIdx i q 1).val = (i 1).val := by
  unfold DotDims.rhsIdx
  rw [dif_neg (show ¬(1 : Fin S4096x64.rank) ∈ dot_S4096x64_S4096x64_S64x64_0_0_1_1_n_n.rhsBatch by decide),
    dif_pos (show (1 : Fin S4096x64.rank) ∈ dot_S4096x64_S4096x64_S64x64_0_0_1_1_n_n.rhsNonContracting by decide)]
  rfl

/-- ctx(d, e) = Σₘ k̂(m, d) · v(m, e). -/
theorem ctx_apply (kh v : FVec Ideal S4096x64 .f32) (d e : Fin 64) :
    ctx kh v (ix2 d e) = ∑ m : Fin 4096, kh (ix2 m d) * v (ix2 m e) := by
  unfold ctx
  simp only [matmul]
  rw [Ideal.matmul_constant_zero_apply,
    ← Equiv.sum_comp (contrEquiv1 dot_S4096x64_S4096x64_S64x64_0_0_1_1_n_n 4096 rfl rfl).symm]
  refine Finset.sum_congr rfl fun m _ => ?_
  have hk := contrEquiv1_symm_val dot_S4096x64_S4096x64_S64x64_0_0_1_1_n_n 4096 rfl rfl m
  have el : dot_S4096x64_S4096x64_S64x64_0_0_1_1_n_n.lhsIdx (ix2 d e)
      ((contrEquiv1 dot_S4096x64_S4096x64_S64x64_0_0_1_1_n_n 4096 rfl rfl).symm m) = ix2 m d :=
    funext fun a => Fin.ext (by
      match a with
      | ⟨0, _⟩ => exact (ctx_lhs_0 _ _).trans hk
      | ⟨1, _⟩ => exact ctx_lhs_1 _ _)
  have er : dot_S4096x64_S4096x64_S64x64_0_0_1_1_n_n.rhsIdx (ix2 d e)
      ((contrEquiv1 dot_S4096x64_S4096x64_S64x64_0_0_1_1_n_n 4096 rfl rfl).symm m) = ix2 m e :=
    funext fun a => Fin.ext (by
      match a with
      | ⟨0, _⟩ => exact (ctx_rhs_0 _ _).trans hk
      | ⟨1, _⟩ => exact ctx_rhs_1 _ _)
  rw [el, er]
  rfl

/-! ## The second product's operand indices -/

theorem outp_lhs_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl

theorem outp_lhs_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q

theorem outp_rhs_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q

theorem outp_rhs_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

/-- out(n, e) = Σ_d q̂(n, d) · c(d, e). -/
theorem outp_apply (qh : FVec Ideal S4096x64 .f32) (c : FVec Ideal S64x64 .f32) (n : Fin 4096) (e : Fin 64) :
    outp qh c (ix2 n e) = ∑ d : Fin 64, qh (ix2 n d) * c (ix2 d e) := by
  unfold outp
  simp only [matmul]
  rw [Ideal.matmul_constant_zero_apply,
    ← Equiv.sum_comp (contrEquiv1 dot_S4096x64_S64x64_S4096x64_1_0_0_1_n_n 64 rfl rfl).symm]
  refine Finset.sum_congr rfl fun d _ => ?_
  have hk := contrEquiv1_symm_val dot_S4096x64_S64x64_S4096x64_1_0_0_1_n_n 64 rfl rfl d
  have el : dot_S4096x64_S64x64_S4096x64_1_0_0_1_n_n.lhsIdx (ix2 n e)
      ((contrEquiv1 dot_S4096x64_S64x64_S4096x64_1_0_0_1_n_n 64 rfl rfl).symm d) = ix2 n d :=
    funext fun a => Fin.ext (by
      match a with
      | ⟨0, _⟩ => exact outp_lhs_0 _ _
      | ⟨1, _⟩ => exact (outp_lhs_1 _ _).trans hk)
  have er : dot_S4096x64_S64x64_S4096x64_1_0_0_1_n_n.rhsIdx (ix2 n e)
      ((contrEquiv1 dot_S4096x64_S64x64_S4096x64_1_0_0_1_n_n 64 rfl rfl).symm d) = ix2 d e :=
    funext fun a => Fin.ext (by
      match a with
      | ⟨0, _⟩ => exact (outp_rhs_0 _ _).trans hk
      | ⟨1, _⟩ => exact outp_rhs_1 _ _)
  rw [el, er]
  rfl

end Cert.KernelIdeal.K1Value

end
-- ==== Proof.K1Value.lean ====
/-
  The attention kernel's stored block read at an index: lane `half·64 + e` of token `n` is the linear-attention
  head of the pair's `half`-th 64-lane slices of q, k, v. One head is out(n, e) = Σ_d q̂(n, d) · Σₘ k̂(m, d) · v(m, e)
  with q̂ the softmax over a token's features times 1/8 and k̂ the softmax of a feature over the tokens; the first
  head reads lanes 0…63, the second lanes 64…127, and the block stores the two outputs side by side.
-/
import proofs.«132770_j30940944400685_2_alg».proof.Proof.K1ValueRow
import proofs.«132770_j30940944400685_2_alg».proof.Proof.K1ValueCol
import proofs.«132770_j30940944400685_2_alg».proof.Proof.K1ValueMat
import Idealize.ShloMosaic.Lib.Pipeline.Value
import Idealize.ShloMosaic.Lib.ValueLayout

noncomputable section

namespace Cert.KernelIdeal.K1Value

open Idealize.ShloMosaic Idealize.ShloMosaic.ValueIdx
open Cert.KernelIdeal Cert.KernelIdeal.Facts₀

/-! ## One head over abstract slices -/

theorem head_apply (x mx y v : FVec Ideal S4096x64 .f32)
    (hmx : ∀ (n : Fin 4096) (d : Fin 64), mx (ix2 n d) = Cert.Spec.maxOver (fun d' : Fin 64 => x (ix2 n d')))
    (n : Fin 4096) (e : Fin 64) :
    head x mx y v (ix2 n e)
      = Cert.Spec.attnHead (fun m d => x (ix2 m d)) (fun m d => y (ix2 m d)) (fun m d => v (ix2 m d)) n e := by
  unfold head
  rw [outp_apply]
  unfold Cert.Spec.attnHead
  refine Finset.sum_congr rfl fun d _ => ?_
  rw [qhat_apply x mx hmx, ctx_apply]
  refine congrArg _ (Finset.sum_congr rfl fun m _ => ?_)
  rw [khat_apply]

/-! ## The widened blocks and their two 64-lane slices -/

theorem widen2_apply (b : Vec Ideal S4096x128 .bf16) (i : S4096x128.Idx) : Gen.k1_pay2 (F := Ideal) b i = b i := by
  unfold Gen.k1_pay2
  rw [extf_apply, shapeCast_self]

theorem widen3_apply (b : Vec Ideal S4096x128 .bf16) (i : S4096x128.Idx) : Gen.k1_pay3 (F := Ideal) b i = b i := by
  unfold Gen.k1_pay3
  rw [extf_apply, shapeCast_self]

theorem widen4_apply (b : Vec Ideal S4096x128 .bf16) (i : S4096x128.Idx) : Gen.k1_pay4 (F := Ideal) b i = b i := by
  unfold Gen.k1_pay4
  rw [extf_apply, shapeCast_self]

theorem lane_zero_val (d : Fin 64) : (Cert.Spec.lane 0 d).val = 0 + d.val := by
  show 0 * 64 + d.val = 0 + d.val
  omega

theorem lane_one_val (d : Fin 64) : (Cert.Spec.lane 1 d).val = 64 + d.val := by
  show 1 * 64 + d.val = 64 + d.val
  omega

/-- The slice at lane offset 0 reads lane `d` of the first head. -/
theorem slice_lo_apply (X : FVec Ideal S4096x128 .f32) (n : Fin 4096) (d : Fin 64) :
    extractStridedSlice S4096x64 ![0, 0] X slices_S4096x128_o0_0_S4096x64 (ix2 n d) = X (ix2 n (Cert.Spec.lane 0 d)) :=
  slice2_axis1_apply 0 X slices_S4096x128_o0_0_S4096x64 n d (Cert.Spec.lane 0 d) (lane_zero_val d)

/-- The slice at lane offset 64 reads lane `64 + d`, the second head's. -/
theorem slice_hi_apply (X : FVec Ideal S4096x128 .f32) (n : Fin 4096) (d : Fin 64) :
    extractStridedSlice S4096x64 ![0, 64] X slices_S4096x128_o0_64_S4096x64 (ix2 n d) = X (ix2 n (Cert.Spec.lane 1 d)) :=
  slice2_axis1_apply 64 X slices_S4096x128_o0_64_S4096x64 n d (Cert.Spec.lane 1 d) (lane_one_val d)

/-! ## The two halves of the stored block -/

theorem concat_lo_apply (A B : FVec Ideal S4096x64 .f32) (n : Fin 4096) (e : Fin 64) :
    concatenate S4096x128 1 [⟨S4096x64, A⟩, ⟨S4096x64, B⟩] concatenates_S4096x64_S4096x64_S4096x128_d1
        (ix2 n (Cert.Spec.lane 0 e)) = A (ix2 n e) :=
  concatenate_pair_apply_left 1 A B concatenates_S4096x64_S4096x64_S4096x128_d1 (ix2 n (Cert.Spec.lane 0 e)) rfl (ix2 n e)
    (fun b => by
      match b with
      | ⟨0, _⟩ => rfl
      | ⟨1, _⟩ => show e.val = 0 * 64 + e.val; omega)

theorem concat_hi_apply (A B : FVec Ideal S4096x64 .f32) (n : Fin 4096) (e : Fin 64) :
    concatenate S4096x128 1 [⟨S4096x64, A⟩, ⟨S4096x64, B⟩] concatenates_S4096x64_S4096x64_S4096x128_d1
        (ix2 n (Cert.Spec.lane 1 e)) = B (ix2 n e) :=
  concatenate_pair_apply_right 1 A B concatenates_S4096x64_S4096x64_S4096x128_d1 (ix2 n (Cert.Spec.lane 1 e)) rfl rfl (ix2 n e)
    (fun b hb => by
      match b with
      | ⟨0, _⟩ => rfl
      | ⟨1, _⟩ => exact absurd rfl hb)
    (by show e.val + 64 = 1 * 64 + e.val; omega)

/-! ## The block at an index -/

theorem k1_out_apply_lo (q k v : Vec Ideal S4096x128 .bf16) (n : Fin 4096) (e : Fin 64) :
    Gen.k1_pay1 (F := Ideal) (Gen.k1_pay5 q k v) (Gen.k1_pay6 q) (Gen.k1_pay7 k) (Gen.k1_pay8 v) (Gen.k1_pay9 q)
        (ix2 n (Cert.Spec.lane 0 e))
      = Cert.Spec.attnHead (fun m d => q (ix2 m (Cert.Spec.lane 0 d))) (fun m d => k (ix2 m (Cert.Spec.lane 0 d)))
          (fun m d => v (ix2 m (Cert.Spec.lane 0 d))) n e := by
  rw [k1_pay1_eq, truncf_apply, concat_lo_apply, k1_pay5_eq, head_apply _ _ _ _ (rowMaxB_apply _)]
  have hq : (fun (m : Fin 4096) (d : Fin 64) => lo q (ix2 m d)) = fun m d => q (ix2 m (Cert.Spec.lane 0 d)) :=
    funext fun m => funext fun d => (slice_lo_apply _ m d).trans (widen2_apply q _)
  have hk : (fun (m : Fin 4096) (d : Fin 64) =>
      extractStridedSlice S4096x64 ![0, 0] (Gen.k1_pay3 (F := Ideal) k) slices_S4096x128_o0_0_S4096x64 (ix2 m d))
      = fun m d => k (ix2 m (Cert.Spec.lane 0 d)) :=
    funext fun m => funext fun d => (slice_lo_apply _ m d).trans (widen3_apply k _)
  have hv : (fun (m : Fin 4096) (d : Fin 64) =>
      extractStridedSlice S4096x64 ![0, 0] (Gen.k1_pay4 (F := Ideal) v) slices_S4096x128_o0_0_S4096x64 (ix2 m d))
      = fun m d => v (ix2 m (Cert.Spec.lane 0 d)) :=
    funext fun m => funext fun d => (slice_lo_apply _ m d).trans (widen4_apply v _)
  rw [hq, hk, hv]

theorem k1_out_apply_hi (q k v : Vec Ideal S4096x128 .bf16) (n : Fin 4096) (e : Fin 64) :
    Gen.k1_pay1 (F := Ideal) (Gen.k1_pay5 q k v) (Gen.k1_pay6 q) (Gen.k1_pay7 k) (Gen.k1_pay8 v) (Gen.k1_pay9 q)
        (ix2 n (Cert.Spec.lane 1 e))
      = Cert.Spec.attnHead (fun m d => q (ix2 m (Cert.Spec.lane 1 d))) (fun m d => k (ix2 m (Cert.Spec.lane 1 d)))
          (fun m d => v (ix2 m (Cert.Spec.lane 1 d))) n e := by
  have hmx : ∀ (n : Fin 4096) (d : Fin 64), Gen.k1_pay9 (F := Ideal) q (ix2 n d)
      = Cert.Spec.maxOver (fun d' : Fin 64 => Gen.k1_pay6 (F := Ideal) q (ix2 n d')) := fun n d => by
    rw [k1_pay9_eq]; exact rowMaxB_apply _ n d
  rw [k1_pay1_eq, truncf_apply, concat_hi_apply, head_apply _ _ _ _ hmx]
  have hq : (fun (m : Fin 4096) (d : Fin 64) => Gen.k1_pay6 (F := Ideal) q (ix2 m d))
      = fun m d => q (ix2 m (Cert.Spec.lane 1 d)) :=
    funext fun m => funext fun d => (slice_hi_apply _ m d).trans (widen2_apply q _)
  have hk : (fun (m : Fin 4096) (d : Fin 64) => Gen.k1_pay7 (F := Ideal) k (ix2 m d))
      = fun m d => k (ix2 m (Cert.Spec.lane 1 d)) :=
    funext fun m => funext fun d => (slice_hi_apply _ m d).trans (widen3_apply k _)
  have hv : (fun (m : Fin 4096) (d : Fin 64) => Gen.k1_pay8 (F := Ideal) v (ix2 m d))
      = fun m d => v (ix2 m (Cert.Spec.lane 1 d)) :=
    funext fun m => funext fun d => (slice_hi_apply _ m d).trans (widen4_apply v _)
  rw [hq, hk, hv]

theorem k1_out_apply (q k v : Vec Ideal S4096x128 .bf16) (n : Fin 4096) (half : Fin 2) (e : Fin 64) :
    Gen.k1_pay1 (F := Ideal) (Gen.k1_pay5 q k v) (Gen.k1_pay6 q) (Gen.k1_pay7 k) (Gen.k1_pay8 v) (Gen.k1_pay9 q)
        (ValueIdx.ix2 n (Cert.Spec.lane half e))
      = Cert.Spec.attnHead (fun m d => q (ValueIdx.ix2 m (Cert.Spec.lane half d)))
          (fun m d => k (ValueIdx.ix2 m (Cert.Spec.lane half d)))
          (fun m d => v (ValueIdx.ix2 m (Cert.Spec.lane half d))) n e := by
  match half with
  | ⟨0, _⟩ => exact k1_out_apply_lo q k v n e
  | ⟨1, _⟩ => exact k1_out_apply_hi q k v n e

end Cert.KernelIdeal.K1Value

end
-- ==== Proof.KFinal1.lean ====
/-
  The second pallas_call's output array, read off its blocks at the ideal values.

  Its 32 points are an image b and a pair of heads hp, point t = 4·b + hp. The point reads the image's 4096 rows of
  three 128-lane column slabs of the projected matrix, slabs hp, 4 + hp and 8 + hp: the pair's queries, keys and values.
  It writes back the same rows of slab hp of the [32768, 512] result, and lane half·64 + e of token n of its block is
  the linear attention of head 2·hp + half at token n and feature e. Column hp·128 + half·64 + e of the result is
  channel e of head 2·hp + half, and column (4·s + hp)·128 + half·64 + d of the projected matrix is feature d of that
  head's part s; so each point writes its block of ONE matrix, the attention output of every token, and the 32 blocks
  tile the array (row r, column c lie in the block of point 4·(r / 4096) + c / 128). The array therefore ends
  holding that matrix.
-/
import proofs.«132770_j30940944400685_2_alg».proof.Proof.KFrame1
import proofs.«132770_j30940944400685_2_alg».proof.Proof.K1Value
import proofs.«132770_j30940944400685_2_alg».proof.Proof.Spec
import Idealize.ShloMosaic.Lib.Pipeline.Value

noncomputable section

namespace Cert.KernelIdeal.KFin

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The zero offsets of a rank-2 rectangle, however spelt. -/
theorem zero_off2_r1 : (![0, 0] : Fin 2 → Nat) = fun _ => 0 := funext fun a => by fin_cases a <;> rfl

/-- A matrix read as an array, at an index whose coordinates are known. -/
theorem mat_apply_of_r1 {n0 n1 : Nat} (f : Fin n0 → Fin n1 → EReal) (i : (⟨2, ![n0, n1]⟩ : Shape).Idx) (a : Fin n0) (b : Fin n1)
    (ha : (i 0).val = a.val) (hb : (i 1).val = b.val) : Cert.Spec.mat f i = f a b := by
  have h0 : (i 0 : Fin n0) = a := Fin.ext ha
  have h1 : (i 1 : Fin n1) = b := Fin.ext hb
  exact (congrArg (Cert.Spec.mat f) (eq_ix2 i)).trans (congrArg₂ f h0 h1)

/-- The block indices over the grid: at point t every window sits at row block t / 4; the query, key and value
    windows at column slabs t % 4, 4 + t % 4 and 8 + t % 4 of the projected matrix, the result window at slab t % 4. -/
theorem index1 : ∀ t : Fin cfg1.N, win1_0.index t (0 : Fin 2) = t.val / 4 ∧ win1_0.index t (1 : Fin 2) = t.val % 4
    ∧ win1_1.index t (0 : Fin 2) = t.val / 4 ∧ win1_1.index t (1 : Fin 2) = 4 + t.val % 4
    ∧ win1_2.index t (0 : Fin 2) = t.val / 4 ∧ win1_2.index t (1 : Fin 2) = 8 + t.val % 4
    ∧ win1_3.index t (0 : Fin 2) = t.val / 4 ∧ win1_3.index t (1 : Fin 2) = t.val % 4 :=
  (by decide +kernel : ∀ t : Fin grid1.N, _)

/-- The query window's block at point t: rows 4096·(t / 4) …, lanes 128·(t % 4) … of the projected matrix. -/
theorem q_slab_apply (c : Dev nD) (t : Fin cfg1.N) (x : S4096x128.Idx) (k : S32768x1536.Idx)
    (hk0 : (k 0).val = 4096 * (t.val / 4) + (x 0).val) (hk1 : (k 1).val = 128 * (t.val % 4) + (x 1).val) :
    (iblk1 V c 0 t : Vec Ideal S4096x128 .bf16) x = (V c main_v1 : S32768x1536.Idx → EReal) k := by
  obtain ⟨e0, e1, -⟩ := index1 t
  unfold iblk1
  rw [View.read_apply]
  show V c main_v1 _ = V c main_v1 _
  congr 1
  funext a
  apply Fin.ext
  match a with
  | ⟨0, _⟩ => show win1_0.index t (0 : Fin 2) * 4096 + 1 * (x 0).val = (k 0).val; rw [e0, hk0]; omega
  | ⟨1, _⟩ => show win1_0.index t (1 : Fin 2) * 128 + 1 * (x 1).val = (k 1).val; rw [e1, hk1]; omega

/-- The key window's block at point t: the same rows, lanes 128·(4 + t % 4) …. -/
theorem k_slab_apply (c : Dev nD) (t : Fin cfg1.N) (x : S4096x128.Idx) (k : S32768x1536.Idx)
    (hk0 : (k 0).val = 4096 * (t.val / 4) + (x 0).val) (hk1 : (k 1).val = 128 * (4 + t.val % 4) + (x 1).val) :
    (iblk1 V c 1 t : Vec Ideal S4096x128 .bf16) x = (V c main_v1 : S32768x1536.Idx → EReal) k := by
  obtain ⟨-, -, e0, e1, -⟩ := index1 t
  unfold iblk1
  rw [View.read_apply]
  show V c main_v1 _ = V c main_v1 _
  congr 1
  funext a
  apply Fin.ext
  match a with
  | ⟨0, _⟩ => show win1_1.index t (0 : Fin 2) * 4096 + 1 * (x 0).val = (k 0).val; rw [e0, hk0]; omega
  | ⟨1, _⟩ => show win1_1.index t (1 : Fin 2) * 128 + 1 * (x 1).val = (k 1).val; rw [e1, hk1]; omega

/-- The value window's block at point t: the same rows, lanes 128·(8 + t % 4) …. -/
theorem v_slab_apply (c : Dev nD) (t : Fin cfg1.N) (x : S4096x128.Idx) (k : S32768x1536.Idx)
    (hk0 : (k 0).val = 4096 * (t.val / 4) + (x 0).val) (hk1 : (k 1).val = 128 * (8 + t.val % 4) + (x 1).val) :
    (iblk1 V c 2 t : Vec Ideal S4096x128 .bf16) x = (V c main_v1 : S32768x1536.Idx → EReal) k := by
  obtain ⟨-, -, -, -, e0, e1, -⟩ := index1 t
  unfold iblk1
  rw [View.read_apply]
  show V c main_v1 _ = V c main_v1 _
  congr 1
  funext a
  apply Fin.ext
  match a with
  | ⟨0, _⟩ => show win1_2.index t (0 : Fin 2) * 4096 + 1 * (x 0).val = (k 0).val; rw [e0, hk0]; omega
  | ⟨1, _⟩ => show win1_2.index t (1 : Fin 2) * 128 + 1 * (x 1).val = (k 1).val; rw [e1, hk1]; omega

/-- One head's attention depends only on its queries, keys and values. -/
theorem attnHead_congr {q q' k k' v v' : Fin 4096 → Fin 64 → EReal} (hq : q = q') (hk : k = k') (hv : v = v')
    (n : Fin 4096) (e : Fin 64) : Cert.Spec.attnHead q k v n e = Cert.Spec.attnHead q' k' v' n e := by
  subst hq hk hv; rfl

/-- The projected matrix the region reads, as a function of token and channel. -/
abbrev qkv1 (c : Dev nD) : Fin 32768 → Fin 1536 → EReal := Cert.Spec.cur2 (V c main_v1 : S32768x1536.Idx → EReal)

/-- Lane half·64 + e of token n of what point t = 4·b + hp computes is the attention of image b, head 2·hp + half,
    at token n and feature e. -/
theorem block1_apply (c : Dev nD) (t : Fin cfg1.N) (b : Fin 8) (hp : Fin 4) (hb : b.val = t.val / 4) (hhp : hp.val = t.val % 4)
    (n : Fin 4096) (half : Fin 2) (e : Fin 64) (h : Fin 8) (hh : h.val = 2 * hp.val + half.val) :
    k1_pay1 (F := Ideal) (k1_pay5 (iblk1 V c 0 t) (iblk1 V c 1 t) (iblk1 V c 2 t)) (k1_pay6 (iblk1 V c 0 t)) (k1_pay7 (iblk1 V c 1 t))
        (k1_pay8 (iblk1 V c 2 t)) (k1_pay9 (iblk1 V c 0 t)) (ix2 n (Cert.Spec.lane half e))
      = Cert.Spec.attnS (qkv1 V c) b n h e := by
  refine (K1Value.k1_out_apply (iblk1 V c 0 t) (iblk1 V c 1 t) (iblk1 V c 2 t) n half e).trans ?_
  unfold Cert.Spec.attnS
  have hhalf : half.val < 2 := half.isLt
  refine attnHead_congr (funext fun m => funext fun d => ?_) (funext fun m => funext fun d => ?_)
    (funext fun m => funext fun d => ?_) n e
  · refine q_slab_apply V c t (ix2 m (Cert.Spec.lane half d)) (ix2 (Cert.Spec.rowOf b m) (Cert.Spec.colOf 0 h d)) ?_ ?_
    · show b.val * 4096 + m.val = 4096 * (t.val / 4) + m.val; omega
    · show 0 * 512 + h.val * 64 + d.val = 128 * (t.val % 4) + (half.val * 64 + d.val); omega
  · refine k_slab_apply V c t (ix2 m (Cert.Spec.lane half d)) (ix2 (Cert.Spec.rowOf b m) (Cert.Spec.colOf 1 h d)) ?_ ?_
    · show b.val * 4096 + m.val = 4096 * (t.val / 4) + m.val; omega
    · show 1 * 512 + h.val * 64 + d.val = 128 * (4 + t.val % 4) + (half.val * 64 + d.val); omega
  · refine v_slab_apply V c t (ix2 m (Cert.Spec.lane half d)) (ix2 (Cert.Spec.rowOf b m) (Cert.Spec.colOf 2 h d)) ?_ ?_
    · show b.val * 4096 + m.val = 4096 * (t.val / 4) + m.val; omega
    · show 2 * 512 + h.val * 64 + d.val = 128 * (8 + t.val % 4) + (half.val * 64 + d.val); omega

/-- What point t writes back is block t of the attention output. -/
theorem flushed1_eq (c : Dev nD) (t : Fin cfg1.N) :
    (dat1 V c).flushed 3 t = ((cfg1.win 3).blk t).view.read (Elt Ideal) (Cert.Spec.mat (Cert.Spec.attnFlat (qkv1 V c))) := by
  show (cfg1.win 3).cut (grid1.coords t) ((dat1 V c).after 3 t) = _
  rw [after1_3]
  unfold out1_3
  rw [View.canon_unit_zero zero_off2_r1]
  simp only [View.ld_unit_zero (S := S4096x128) zero_off2_r1]
  obtain ⟨-, -, -, -, -, -, e0, e1⟩ := index1 t
  funext j
  have hj0 : (j 0).val < 4096 := (j 0).isLt
  have hj1 : (j 1).val < 128 := (j 1).isLt
  have ht : t.val < 32 := t.isLt
  rw [View.read_apply]
  have hx : (cfg1.win 3).xinj (grid1.coords t) j
      = ix2 (⟨(j 0).val, hj0⟩ : Fin 4096) (Cert.Spec.lane (⟨(j 1).val / 64, by omega⟩ : Fin 2) (⟨(j 1).val % 64, by omega⟩ : Fin 64)) :=
    funext fun a => by
      match a with
      | ⟨0, _⟩ => rfl
      | ⟨1, _⟩ => exact Fin.ext (show (j 1).val = (j 1).val / 64 * 64 + (j 1).val % 64 by omega)
  show k1_pay1 (F := Ideal) (k1_pay5 (iblk1 V c 0 t) (iblk1 V c 1 t) (iblk1 V c 2 t)) (k1_pay6 (iblk1 V c 0 t)) (k1_pay7 (iblk1 V c 1 t))
    (k1_pay8 (iblk1 V c 2 t)) (k1_pay9 (iblk1 V c 0 t)) ((cfg1.win 3).xinj (grid1.coords t) j) = _
  rw [hx]
  refine (block1_apply V c t ⟨t.val / 4, by omega⟩ ⟨t.val % 4, by omega⟩ rfl rfl ⟨(j 0).val, hj0⟩ ⟨(j 1).val / 64, by omega⟩
    ⟨(j 1).val % 64, by omega⟩ ⟨2 * (t.val % 4) + (j 1).val / 64, by omega⟩ rfl).trans ?_
  rw [← Cert.Spec.attnFlat_rowOf_ocolOf]
  refine (mat_apply_of_r1 (Cert.Spec.attnFlat (qkv1 V c)) _ _ _ ?_ ?_).symm
  · show win1_3.index t (0 : Fin 2) * 4096 + 1 * (j 0).val = t.val / 4 * 4096 + (j 0).val; rw [e0]; omega
  · show win1_3.index t (1 : Fin 2) * 128 + 1 * (j 1).val = (2 * (t.val % 4) + (j 1).val / 64) * 64 + (j 1).val % 64; rw [e1]; omega

/-- An index of the result is in point t's block iff each coordinate is in the block's range on its axis. -/
theorem mem_block1 (t : Fin cfg1.N) (i : S32768x512.Idx) :
    i ∈ ((cfg1.win 3).blk t).view.set ↔ ∀ a : Fin 2, win1_3.index t a * S4096x128.size a ≤ (i a).val
      ∧ (i a).val < win1_3.index t a * S4096x128.size a + S4096x128.size a := by
  show i ∈ ((View.whole main_v2).slice (win1_3.rect t)).set ↔ _
  rw [View.set_slice_whole, Rect.mem_set_unit]
  exact Iff.rfl

/-- Row r, column c of the result lie in the block of point 4·(r / 4096) + c / 128. -/
theorem cover1 (i : S32768x512.Idx) : ∃ t : Fin cfg1.N, (cfg1.win 3).flush t = true ∧ i ∈ ((cfg1.win 3).blk t).view.set := by
  have hi0 : (i 0).val < 32768 := (i 0).isLt
  have hi1 : (i 1).val < 512 := (i 1).isLt
  obtain ⟨t, ht⟩ : ∃ t : Fin cfg1.N, t.val = (i 0).val / 4096 * 4 + (i 1).val / 128 :=
    ⟨⟨(i 0).val / 4096 * 4 + (i 1).val / 128, by rw [show cfg1.N = 32 from N_1]; omega⟩, rfl⟩
  obtain ⟨-, -, -, -, -, -, e0, e1⟩ := index1 t
  refine ⟨t, flush1_3 t, ?_⟩
  rw [mem_block1]
  intro a
  match a with
  | ⟨0, _⟩ => show win1_3.index t (0 : Fin 2) * 4096 ≤ (i 0).val ∧ (i 0).val < win1_3.index t (0 : Fin 2) * 4096 + 4096; rw [e0]; omega
  | ⟨1, _⟩ => show win1_3.index t (1 : Fin 2) * 128 ≤ (i 1).val ∧ (i 1).val < win1_3.index t (1 : Fin 2) * 128 + 128; rw [e1]; omega

/-- After the region the result array holds the attention output of every token. -/
theorem final1 (c : Dev nD) : (dat1 (F := Ideal) V c).arrAt 3 cfg1.N
    = Cert.Spec.mat (Cert.Spec.attnFlat (Cert.Spec.cur2 (V c main_v1))) :=
  (dat1 V c).arrAt_eq_of_cover 3 (Cert.Spec.mat (Cert.Spec.attnFlat (qkv1 V c))) (fun t _ => flushed1_eq V c t) cover1

end Cert.KernelIdeal.KFin

end
-- ==== Proof.K2ValueA.lean ====
import proofs.«132770_j30940944400685_2_alg».proof.Proof.Gen.KernelIdeal.Skeleton
import proofs.«132770_j30940944400685_2_alg».proof.Proof.Spec
import Idealize.ShloMosaic.PureOps.Ideal.Laws
import Idealize.ShloMosaic.Lib.ValueLayout
import Idealize.ShloMosaic.Lib.Pipeline.Value

noncomputable section

namespace Cert.KernelIdeal.K2Value

open Idealize.ShloMosaic Idealize.ShloMosaic.ValueIdx Idealize.SL.Sem
open scoped BigOperators

/-! The third kernel's projection: a [2048, 512] block of attention channels times the [512, 512] output matrix,
    accumulated into zero, plus the bias row. At the ideal values the narrowing of the matrix to bf16 is the
    identity, so the block at (p, c) is the token's projected row at channel c. -/

/-- On its free axis the left operand's index reads the output's row. -/
theorem lhs_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl

/-- On its contracted axis the left operand's index reads the contraction coordinate. -/
theorem lhs_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q

/-- On its contracted axis the right operand's index reads the contraction coordinate. -/
theorem rhs_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q

/-- On its free axis the right operand's index reads the output's column. -/
theorem rhs_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The product into the zero accumulator, read at (p, c): the sum over the contracted coordinate of the products
    of the left operand's row p and the right operand's column c. -/
theorem matmul_zero_apply (A : FVec Ideal S2048x512 .bf16) (B : FVec Ideal S512x512 .bf16) (p : Fin 2048) (c : Fin 512) :
    matmul dot_S2048x512_S512x512_S2048x512_1_0_0_1_n_n none A B (constant (F := Ideal) S2048x512 .f32 0x00000000#32) (ix2 p c)
      = ∑ k : Fin 512, A (ix2 p k) * B (ix2 k c) := by
  show FloatOps.matmul _ none A B _ (ix2 p c) = _
  rw [Ideal.matmul_constant_zero_apply,
    ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p c) ((contrEquiv1 dot_S2048x512_S512x512_S2048x512_1_0_0_1_n_n 512 rfl rfl).symm k) = ix2 p k :=
    funext fun a => Fin.ext (by
      match a with
      | ⟨0, _⟩ => exact lhs_0 _ _
      | ⟨1, _⟩ => exact (lhs_1 _ _).trans hk)
  have er : dot_S2048x512_S512x512_S2048x512_1_0_0_1_n_n.rhsIdx (ix2 p c) ((contrEquiv1 dot_S2048x512_S512x512_S2048x512_1_0_0_1_n_n 512 rfl rfl).symm k) = ix2 k c :=
    funext fun a => Fin.ext (by
      match a with
      | ⟨0, _⟩ => exact (rhs_0 _ _).trans hk
      | ⟨1, _⟩ => exact rhs_1 _ _)
  rw [el, er]

/-- The projected block: the product into zero plus the bias row broadcast over the tokens. -/
def yBlock (a : Vec Ideal S2048x512 .bf16) (wo : Vec Ideal S512x512 .f32) (bo : Vec Ideal S512 .f32) :
    FVec Ideal S2048x512 .f32 :=
  addf
    (matmul dot_S2048x512_S512x512_S2048x512_1_0_0_1_n_n none
      (shapeCast S2048x512 a Gen.shapeCasts_S2048x512_S2048x512 : FVec Ideal S2048x512 .bf16)
      (truncf .bf16 (wo : FVec Ideal S512x512 .f32) Gen.bitsLt_bf16_f32 : FVec Ideal S512x512 .bf16)
      (constant (F := Ideal) S2048x512 .f32 0x00000000#32))
    (broadcastTo S2048x512 (shapeCast S1x512 bo Gen.shapeCasts_S512_S1x512) Gen.broadcasts_S1x512_S2048x512)

/-- The projected block at (p, c): the token's 512 attention channels projected onto channel c, plus the bias. -/
theorem yBlock_apply (a : Vec Ideal S2048x512 .bf16) (wo : Vec Ideal S512x512 .f32) (bo : Vec Ideal S512 .f32)
    (p : Fin 2048) (c : Fin 512) :
    yBlock a wo bo (ix2 p c) = Spec.projRow (fun k => a (ix2 p k)) (Spec.cur2 wo) (Spec.cur1 bo) c := by
  unfold yBlock
  rw [addf_apply, matmul_zero_apply, broadcastTo_1b_ab_apply, shapeCast_a_1a_apply]
  unfold Spec.projRow
  refine congrArg (· + _) (Finset.sum_congr rfl fun k _ => ?_)
  rw [shapeCast_self, truncf_apply]
  rfl

end Cert.KernelIdeal.K2Value

end
-- ==== Proof.K2ValueB.lean ====
import proofs.«132770_j30940944400685_2_alg».proof.Proof.Gen.KernelIdeal.Skeleton
import proofs.«132770_j30940944400685_2_alg».proof.Proof.Spec
import Idealize.ShloMosaic.PureOps.Ideal.Laws
import Idealize.ShloMosaic.Lib.ValueLayout
import Idealize.ShloMosaic.Lib.Pipeline.Value
import proofs.«132770_j30940944400685_2_alg».proof.Proof.LibColumnLayout

noncomputable section

namespace Cert.KernelIdeal.K2Value

open Idealize.ShloMosaic Idealize.ShloMosaic.ValueIdx Idealize.SL.Sem
open scoped BigOperators

/-! The third kernel's normalisation, over an arbitrary [2048, 512] block y: each row is normalised over its 512
    channels. The block's operations are named here in the kernel's own order — the column of row means, the column
    of biased row variances, and the normalised block — and each is read at an index. -/

/-- A reciprocal square root at an index is the reciprocal square root of the element. -/
theorem rsqrt_apply {s : Shape} {φ : FTy} (a : FVec Ideal s φ) (i : s.Idx) : rsqrt a i = Ideal.rsqrt (a i) := rfl

/-- The sum of a [2048, 512] block along its rows, read at row p: the sum over the 512 channels. -/
theorem rowSum_apply (src : FVec Ideal S2048x512 .f32) (p : Fin 2048) :
    multiReduction (F := Ideal) .add [1] S2048 src 0x00000000#32 Gen.reduces_S2048x512_S2048 (.inl rfl) rfl (ix1 p)
      = ∑ c : Fin 512, src (ix2 p c) := by
  refine (Ideal.multiReduction_add_single src 0x00000000#32 Gen.reduces_S2048x512_S2048 (.inl rfl) rfl (ix1 p)).trans ?_
  show (∑ k : Fin 512, src (Gen.reduces_S2048x512_S2048.lift (ix1 p) k)) = _
  refine Finset.sum_congr rfl fun k _ => congrArg src ?_
  funext a; apply Fin.ext
  match a with
  | ⟨0, _⟩ => rfl
  | ⟨1, _⟩ => rfl

/-- The column of row means: each row's sum over 512. -/
def meanCol (y : FVec Ideal S2048x512 .f32) : FVec Ideal S2048x1 .f32 :=
  divf (shapeCast S2048x1 (multiReduction (F := Ideal) .add [1] S2048 y 0x00000000#32 Gen.reduces_S2048x512_S2048 (.inl rfl) rfl)
      Gen.shapeCasts_S2048_S2048x1)
    (broadcast S2048x1 (Scalar.ofBits (F := Ideal) .f32 0x44000000#32))

/-- The block of deviations from the row mean. -/
def devBlock (y : FVec Ideal S2048x512 .f32) : FVec Ideal S2048x512 .f32 :=
  subf y (broadcastTo S2048x512 (meanCol y) Gen.broadcasts_S2048x1_S2048x512)

/-- The column of biased row variances: each row's sum of squared deviations over 512. -/
def varCol (y : FVec Ideal S2048x512 .f32) : FVec Ideal S2048x1 .f32 :=
  divf (shapeCast S2048x1
      (multiReduction (F := Ideal) .add [1] S2048 (mulf (devBlock y) (devBlock y)) 0x00000000#32 Gen.reduces_S2048x512_S2048 (.inl rfl) rfl)
      Gen.shapeCasts_S2048_S2048x1)
    (broadcast S2048x1 (Scalar.ofBits (F := Ideal) .f32 0x44000000#32))

/-- The normalised block: deviation times the reciprocal square root of variance plus the offset, times the scale
    row, plus the shift row. -/
def lnBlock (y : FVec Ideal S2048x512 .f32) (g beta : Vec Ideal S512 .f32) : FVec Ideal S2048x512 .f32 :=
  addf
    (mulf
      (mulf (devBlock y)
        (broadcastTo S2048x512
          (rsqrt (addf (varCol y) (broadcast S2048x1 (Scalar.ofBits (F := Ideal) .f32 0x3727C5AC#32))))
          Gen.broadcasts_S2048x1_S2048x512))
      (broadcastTo S2048x512 (shapeCast S1x512 g Gen.shapeCasts_S512_S1x512) Gen.broadcasts_S1x512_S2048x512))
    (broadcastTo S2048x512 (shapeCast S1x512 beta Gen.shapeCasts_S512_S1x512) Gen.broadcasts_S1x512_S2048x512)

/-- The mean column at row p is the mean of the row. -/
theorem meanCol_apply (y : FVec Ideal S2048x512 .f32) (p : Fin 2048) (u : Fin 1) :
    meanCol y (ix2 p u) = Spec.meanRow (fun c => y (ix2 p c)) := by
  unfold meanCol
  rw [divf_apply, PhysLoss.shapeCast_a_a1_apply, rowSum_apply, broadcast_apply]
  rfl

/-- The deviation block at (p, c) is the entry minus its row's mean. -/
theorem devBlock_apply (y : FVec Ideal S2048x512 .f32) (p : Fin 2048) (c : Fin 512) :
    devBlock y (ix2 p c) = y (ix2 p c) - Spec.meanRow (fun c' => y (ix2 p c')) := by
  unfold devBlock
  rw [subf_apply, PhysLoss.broadcastTo_a1_ab_apply, meanCol_apply]

/-- The variance column at row p is the biased variance of the row. -/
theorem varCol_apply (y : FVec Ideal S2048x512 .f32) (p : Fin 2048) (u : Fin 1) :
    varCol y (ix2 p u) = Spec.varRow (fun c => y (ix2 p c)) := by
  unfold varCol
  rw [divf_apply, PhysLoss.shapeCast_a_a1_apply, rowSum_apply, broadcast_apply]
  unfold Spec.varRow
  refine congrArg (fun s => Ideal.div s _) (Finset.sum_congr rfl fun c _ => ?_)
  rw [mulf_apply, devBlock_apply]

/-- The normalised block at (p, c) is the row's normalisation at channel c. -/
theorem lnBlock_apply (y : FVec Ideal S2048x512 .f32) (g beta : Vec Ideal S512 .f32) (p : Fin 2048) (c : Fin 512) :
    lnBlock y g beta (ix2 p c) = Spec.lnRowK (fun c' => y (ix2 p c')) (Spec.cur1 g) (Spec.cur1 beta) c := by
  unfold lnBlock
  rw [addf_apply, mulf_apply, mulf_apply, devBlock_apply, PhysLoss.broadcastTo_a1_ab_apply, rsqrt_apply, addf_apply,
    varCol_apply, broadcast_apply, broadcastTo_1b_ab_apply, broadcastTo_1b_ab_apply, shapeCast_a_1a_apply,
    shapeCast_a_1a_apply]
  rfl

end Cert.KernelIdeal.K2Value

end
-- ==== Proof.K2Value.lean ====
import proofs.«132770_j30940944400685_2_alg».proof.Proof.K2ValueA
import proofs.«132770_j30940944400685_2_alg».proof.Proof.K2ValueB

noncomputable section

namespace Cert.KernelIdeal.K2Value

open Idealize.ShloMosaic Idealize.ShloMosaic.ValueIdx Idealize.SL.Sem
open scoped BigOperators

/-! The third kernel's block: the projected block, normalised row by row. -/

/-- The kernel's block is the normalisation of its projected block: the same operations in the same order. -/
theorem k2_pay1_eq (a : Vec Ideal S2048x512 .bf16) (wo : Vec Ideal S512x512 .f32) (bo g beta : Vec Ideal S512 .f32) :
    Gen.k2_pay1 (F := Ideal) a wo bo g beta = lnBlock (yBlock a wo bo) g beta := rfl

/-- The third kernel's block at (p, c): the token's projected row, normalised over its 512 channels, at channel c. -/
theorem k2_pay1_apply (a : Vec Ideal S2048x512 .bf16) (wo : Vec Ideal S512x512 .f32) (bo g beta : Vec Ideal S512 .f32)
    (p : Fin 2048) (c : Fin 512) :
    Gen.k2_pay1 (F := Ideal) a wo bo g beta (ValueIdx.ix2 p c)
      = Cert.Spec.lnRowK (Cert.Spec.projRow (fun k => a (ValueIdx.ix2 p k)) (Cert.Spec.cur2 wo) (Cert.Spec.cur1 bo))
          (Cert.Spec.cur1 g) (Cert.Spec.cur1 beta) c := by
  have hy : (fun c' => yBlock a wo bo (ix2 p c'))
      = Spec.projRow (fun k => a (ix2 p k)) (Spec.cur2 wo) (Spec.cur1 bo) :=
    funext fun c' => yBlock_apply a wo bo p c'
  rw [k2_pay1_eq, lnBlock_apply, hy]

end Cert.KernelIdeal.K2Value

end
-- ==== Proof.KFinal2.lean ====
/-
  The third pallas_call's output array, read off its blocks at the ideal values.

  Point t of the 16 writes back rows 2048·t … 2048·t + 2047 of the [32768, 512] result. Its block is computed from the
  same rows of the attention matrix and from the whole output matrix, bias, gain and offset, row by row: row p of the
  block is the token 2048·t + p projected, biased and normalised over its 512 channels. So each point writes its block
  of ONE matrix, the normalised projection of every token, and the 16 blocks tile the array (row r lies in the block of
  point r / 2048). The array therefore ends holding that matrix.
-/
import proofs.«132770_j30940944400685_2_alg».proof.Proof.KFrame2
import proofs.«132770_j30940944400685_2_alg».proof.Proof.K2Value
import proofs.«132770_j30940944400685_2_alg».proof.Proof.Spec
import Idealize.ShloMosaic.Lib.Pipeline.Value

noncomputable section

namespace Cert.KernelIdeal.KFin

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The zero offsets of a rank-2 rectangle, however spelt. -/
theorem zero_off2_r2 : (![0, 0] : Fin 2 → Nat) = fun _ => 0 := funext fun a => by fin_cases a <;> rfl

/-- The zero offset of a rank-1 rectangle, however spelt. -/
theorem zero_off1_r2 : (![0] : Fin 1 → Nat) = fun _ => 0 := funext fun a => by fin_cases a; rfl

/-- A matrix read as an array, at an index whose coordinates are known. -/
theorem mat_apply_of_r2 {n0 n1 : Nat} (f : Fin n0 → Fin n1 → EReal) (i : (⟨2, ![n0, n1]⟩ : Shape).Idx) (a : Fin n0) (b : Fin n1)
    (ha : (i 0).val = a.val) (hb : (i 1).val = b.val) : Cert.Spec.mat f i = f a b := by
  have h0 : (i 0 : Fin n0) = a := Fin.ext ha
  have h1 : (i 1 : Fin n1) = b := Fin.ext hb
  exact (congrArg (Cert.Spec.mat f) (eq_ix2 i)).trans (congrArg₂ f h0 h1)

/-- The block indices over the grid: the attention window and the result window sit at row block t, column block 0;
    the four parameter windows never move. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0 ∧ win2_3.index t (0 : Fin 1) = 0 ∧ win2_4.index t (0 : Fin 1) = 0
    ∧ win2_5.index t (0 : Fin 2) = t.val ∧ win2_5.index t (1 : Fin 2) = 0 :=
  (by decide +kernel : ∀ t : Fin grid2.N, _)

/-- The attention window's block at point t is rows 2048·t … of the attention matrix. -/
theorem attn_block_apply (c : Dev nD) (t : Fin cfg2.N) (x : S2048x512.Idx) (k : S32768x512.Idx)
    (hk0 : (k 0).val = 2048 * t.val + (x 0).val) (hk1 : (k 1).val = (x 1).val) :
    (iblk2 V c 0 t : Vec Ideal S2048x512 .bf16) x = (V c main_v2 : S32768x512.Idx → EReal) k := by
  obtain ⟨e0, e1, -⟩ := index2 t
  unfold iblk2
  rw [View.read_apply]
  show V c main_v2 _ = V c main_v2 _
  congr 1
  funext a
  apply Fin.ext
  match a with
  | ⟨0, _⟩ => show win2_0.index t (0 : Fin 2) * 2048 + 1 * (x 0).val = (k 0).val; rw [e0, hk0]; omega
  | ⟨1, _⟩ => show win2_0.index t (1 : Fin 2) * 512 + 1 * (x 1).val = (k 1).val; rw [e1, hk1]; omega

/-- The output matrix's window's block at every point is the whole matrix. -/
theorem wo_block_eq (c : Dev nD) (t : Fin cfg2.N) :
    (iblk2 V c 1 t : Vec Ideal S512x512 .f32) = (V c main_arg2 : S512x512.Idx → EReal) := by
  obtain ⟨-, -, e0, e1, -⟩ := index2 t
  funext x
  unfold iblk2
  rw [View.read_apply]
  show V c main_arg2 _ = V c main_arg2 _
  congr 1
  funext a
  apply Fin.ext
  match a with
  | ⟨0, _⟩ => show win2_1.index t (0 : Fin 2) * 512 + 1 * (x 0).val = (x 0).val; rw [e0]; omega
  | ⟨1, _⟩ => show win2_1.index t (1 : Fin 2) * 512 + 1 * (x 1).val = (x 1).val; rw [e1]; omega

/-- The bias window's block at every point is the whole bias. -/
theorem bo_block_eq (c : Dev nD) (t : Fin cfg2.N) :
    (iblk2 V c 2 t : Vec Ideal S512 .f32) = (V c main_arg3 : S512.Idx → EReal) := by
  obtain ⟨-, -, -, -, e, -⟩ := index2 t
  funext x
  unfold iblk2
  rw [View.read_apply]
  show V c main_arg3 _ = V c main_arg3 _
  congr 1
  funext a
  apply Fin.ext
  match a with
  | ⟨0, _⟩ => show win2_2.index t (0 : Fin 1) * 512 + 1 * (x 0).val = (x 0).val; rw [e]; omega

/-- The gain window's block at every point is the whole gain. -/
theorem g_block_eq (c : Dev nD) (t : Fin cfg2.N) :
    (iblk2 V c 3 t : Vec Ideal S512 .f32) = (V c main_arg4 : S512.Idx → EReal) := by
  obtain ⟨-, -, -, -, -, e, -⟩ := index2 t
  funext x
  unfold iblk2
  rw [View.read_apply]
  show V c main_arg4 _ = V c main_arg4 _
  congr 1
  funext a
  apply Fin.ext
  match a with
  | ⟨0, _⟩ => show win2_3.index t (0 : Fin 1) * 512 + 1 * (x 0).val = (x 0).val; rw [e]; omega

/-- The offset window's block at every point is the whole offset. -/
theorem beta_block_eq (c : Dev nD) (t : Fin cfg2.N) :
    (iblk2 V c 4 t : Vec Ideal S512 .f32) = (V c main_arg5 : S512.Idx → EReal) := by
  obtain ⟨-, -, -, -, -, -, e, -⟩ := index2 t
  funext x
  unfold iblk2
  rw [View.read_apply]
  show V c main_arg5 _ = V c main_arg5 _
  congr 1
  funext a
  apply Fin.ext
  match a with
  | ⟨0, _⟩ => show win2_4.index t (0 : Fin 1) * 512 + 1 * (x 0).val = (x 0).val; rw [e]; omega

/-- Every token projected, biased and normalised, as a function of the region's five arrays. -/
abbrev norm2 (c : Dev nD) : Fin 32768 → Fin 512 → EReal :=
  Cert.Spec.lnK (Cert.Spec.projS (Cert.Spec.cur2 (V c main_v2 : S32768x512.Idx → EReal)) (Cert.Spec.cur2 (V c main_arg2 : S512x512.Idx → EReal))
    (Cert.Spec.cur1 (V c main_arg3 : S512.Idx → EReal))) (Cert.Spec.cur1 (V c main_arg4 : S512.Idx → EReal)) (Cert.Spec.cur1 (V c main_arg5 : S512.Idx → EReal))

/-- The normalised row depends only on the token's channels and the four parameters. -/
theorem lnRowK_projRow_congr {a a' : Fin 512 → EReal} {W W' : Fin 512 → Fin 512 → EReal} {b b' g g' be be' : Fin 512 → EReal}
    (ha : a = a') (hW : W = W') (hb : b = b') (hg : g = g') (hbe : be = be') (q : Fin 512) :
    Cert.Spec.lnRowK (Cert.Spec.projRow a W b) g be q = Cert.Spec.lnRowK (Cert.Spec.projRow a' W' b') g' be' q := by
  subst ha hW hb hg hbe; rfl

/-- Entry (p, q) of what point t computes is entry (2048·t + p, q) of the normalised projection. -/
theorem block2_apply (c : Dev nD) (t : Fin cfg2.N) (p : Fin 2048) (q : Fin 512) (r : Fin 32768)
    (hr : r.val = 2048 * t.val + p.val) :
    k2_pay1 (F := Ideal) (iblk2 V c 0 t) (iblk2 V c 1 t) (iblk2 V c 2 t) (iblk2 V c 3 t) (iblk2 V c 4 t) (ix2 p q) = norm2 V c r q := by
  refine (K2Value.k2_pay1_apply (iblk2 V c 0 t) (iblk2 V c 1 t) (iblk2 V c 2 t) (iblk2 V c 3 t) (iblk2 V c 4 t) p q).trans ?_
  show _ = Cert.Spec.lnRowK (Cert.Spec.projRow (Cert.Spec.cur2 (V c main_v2 : S32768x512.Idx → EReal) r)
    (Cert.Spec.cur2 (V c main_arg2 : S512x512.Idx → EReal)) (Cert.Spec.cur1 (V c main_arg3 : S512.Idx → EReal)))
    (Cert.Spec.cur1 (V c main_arg4 : S512.Idx → EReal)) (Cert.Spec.cur1 (V c main_arg5 : S512.Idx → EReal)) q
  exact lnRowK_projRow_congr
    (funext fun k => attn_block_apply V c t (ix2 p k) (ix2 r k) hr rfl)
    (congrArg Cert.Spec.cur2 (wo_block_eq V c t)) (congrArg Cert.Spec.cur1 (bo_block_eq V c t))
    (congrArg Cert.Spec.cur1 (g_block_eq V c t)) (congrArg Cert.Spec.cur1 (beta_block_eq V c t)) q

/-- What point t writes back is block t of the normalised projection. -/
theorem flushed2_eq (c : Dev nD) (t : Fin cfg2.N) :
    (dat2 V c).flushed 5 t = ((cfg2.win 5).blk t).view.read (Elt Ideal) (Cert.Spec.mat (norm2 V c)) := by
  show (cfg2.win 5).cut (grid2.coords t) ((dat2 V c).after 5 t) = _
  rw [after2_5]
  unfold out2_5
  rw [View.canon_unit_zero zero_off2_r2]
  simp only [View.ld_unit_zero (S := S2048x512) zero_off2_r2, View.ld_unit_zero (S := S512x512) zero_off2_r2,
    View.ld_unit_zero (S := S512) zero_off1_r2]
  obtain ⟨-, -, -, -, -, -, -, e0, e1⟩ := index2 t
  funext j
  have hj0 : (j 0).val < 2048 := (j 0).isLt
  have hj1 : (j 1).val < 512 := (j 1).isLt
  have ht : t.val < 16 := t.isLt
  rw [View.read_apply]
  have hx : (cfg2.win 5).xinj (grid2.coords t) j = ix2 (⟨(j 0).val, hj0⟩ : Fin 2048) (⟨(j 1).val, hj1⟩ : Fin 512) :=
    funext fun a => by match a with | ⟨0, _⟩ => rfl | ⟨1, _⟩ => rfl
  show k2_pay1 (F := Ideal) (iblk2 V c 0 t) (iblk2 V c 1 t) (iblk2 V c 2 t) (iblk2 V c 3 t) (iblk2 V c 4 t)
    ((cfg2.win 5).xinj (grid2.coords t) j) = _
  rw [hx]
  refine (block2_apply V c t ⟨(j 0).val, hj0⟩ ⟨(j 1).val, hj1⟩ ⟨2048 * t.val + (j 0).val, by omega⟩ rfl).trans ?_
  refine (mat_apply_of_r2 (norm2 V c) _ _ _ ?_ ?_).symm
  · show win2_5.index t (0 : Fin 2) * 2048 + 1 * (j 0).val = 2048 * t.val + (j 0).val; rw [e0]; omega
  · show win2_5.index t (1 : Fin 2) * 512 + 1 * (j 1).val = (j 1).val; rw [e1]; omega

/-- An index of the result is in point t's block iff each coordinate is in the block's range on its axis. -/
theorem mem_block2 (t : Fin cfg2.N) (i : S32768x512.Idx) :
    i ∈ ((cfg2.win 5).blk t).view.set ↔ ∀ a : Fin 2, win2_5.index t a * S2048x512.size a ≤ (i a).val
      ∧ (i a).val < win2_5.index t a * S2048x512.size a + S2048x512.size a := by
  show i ∈ ((View.whole main_v3).slice (win2_5.rect t)).set ↔ _
  rw [View.set_slice_whole, Rect.mem_set_unit]
  exact Iff.rfl

/-- Row r of the result lies in the block of point r / 2048. -/
theorem cover2 (i : S32768x512.Idx) : ∃ t : Fin cfg2.N, (cfg2.win 5).flush t = true ∧ i ∈ ((cfg2.win 5).blk t).view.set := by
  have hi0 : (i 0).val < 32768 := (i 0).isLt
  have hi1 : (i 1).val < 512 := (i 1).isLt
  obtain ⟨t, ht⟩ : ∃ t : Fin cfg2.N, t.val = (i 0).val / 2048 := ⟨⟨(i 0).val / 2048, by rw [show cfg2.N = 16 from N_2]; omega⟩, rfl⟩
  obtain ⟨-, -, -, -, -, -, -, e0, e1⟩ := index2 t
  refine ⟨t, flush2_5 t, ?_⟩
  rw [mem_block2]
  intro a
  match a with
  | ⟨0, _⟩ => show win2_5.index t (0 : Fin 2) * 2048 ≤ (i 0).val ∧ (i 0).val < win2_5.index t (0 : Fin 2) * 2048 + 2048; rw [e0]; omega
  | ⟨1, _⟩ => show win2_5.index t (1 : Fin 2) * 512 ≤ (i 1).val ∧ (i 1).val < win2_5.index t (1 : Fin 2) * 512 + 512; rw [e1]; omega

/-- After the region the result array holds every token projected, biased and normalised. -/
theorem final2 (c : Dev nD) : (dat2 (F := Ideal) V c).arrAt 5 cfg2.N
    = Cert.Spec.mat (Cert.Spec.lnK (Cert.Spec.projS (Cert.Spec.cur2 (V c main_v2)) (Cert.Spec.cur2 (V c main_arg2))
        (Cert.Spec.cur1 (V c main_arg3))) (Cert.Spec.cur1 (V c main_arg4)) (Cert.Spec.cur1 (V c main_arg5))) :=
  (dat2 V c).arrAt_eq_of_cover 5 (Cert.Spec.mat (norm2 V c)) (fun t _ => flushed2_eq V c t) cover2

end Cert.KernelIdeal.KFin

end
-- ==== Proof.KValueClaim.lean ====
/-
  The value of the program's run at the ideal values: every weakly fair execution from a launch memory terminates
  without a fault, the result array ends as the specification's function — the projection onto q, k, v, linear
  attention, the output projection plus bias, and the normalisation with the reciprocal square root as a factor — of
  the six launch arguments, and each argument array ends as launched. The final memory holds every unscoped buffer
  at the last boundary's contents; the result buffer's contents there walk back, region by region, to the launch
  arguments, and an argument's are the launch's own.
-/
import proofs.«132770_j30940944400685_2_alg».proof.Proof.KRun
import proofs.«132770_j30940944400685_2_alg».proof.Proof.KArgs
import proofs.«132770_j30940944400685_2_alg».proof.Proof.KValue
import proofs.«132770_j30940944400685_2_alg».proof.Proof.KFinal0
import proofs.«132770_j30940944400685_2_alg».proof.Proof.KFinal1
import proofs.«132770_j30940944400685_2_alg».proof.Proof.KFinal2
import proofs.«132770_j30940944400685_2_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem value_of (m : (ℓ : Loc nD τ sig) → Buf (Elt Ideal) ℓ) (ρ : Dev nD → PrngReg) (R1 : Reg1 m ρ)
    (hpre1 : ∀ c, (reg0 m ρ).post c ⊢ R1.pre c) (hpost1 : ∀ c, R1.post c ⊢ (reg2 m ρ).pre c) :
    θ_run (defs (F := Ideal)) (onTc (τ := τ) (main (F := Ideal))) ⟨m, fun _ => 0, ρ⟩ (fun r => ∀ c : Dev nD,
      r.2.mem ((c.tc : Thread nD τ).loc main_v4)
        = Cert.Spec.outArr (Cert.Spec.outK (Cert.Spec.cur4 (m ((c.tc : Thread nD τ).loc main_arg0))) (Cert.Spec.cur2 (m ((c.tc : Thread nD τ).loc main_arg1)))
            (Cert.Spec.cur2 (m ((c.tc : Thread nD τ).loc main_arg2))) (Cert.Spec.cur1 (m ((c.tc : Thread nD τ).loc main_arg3)))
            (Cert.Spec.cur1 (m ((c.tc : Thread nD τ).loc main_arg4))) (Cert.Spec.cur1 (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v4 (by decide))).trans
        (KVal.W5_result m ρ (fun V c => KFin.final0 V c) (fun V c => KFin.final1 V c) (fun V c => KFin.final2 V c) c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩)
    (run_all_of m ρ R1 hpre1 hpost1)

end Cert.KernelIdeal.Fr

end
-- ==== Proof.RefRunOps.lean ====
/-
  The reference program's @main as a list of its 92 host operations, the two outlined functions' operations
  written at their call sites over the calls' buffer records, in three stretches: the projection onto q, k, v
  (9 operations), linear attention (35) and the output projection with its normalisation (48).
-/
import proofs.«132770_j30940944400685_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]
variable {F : FTy → Type} [FloatOps F]

/-- The projection: the product with the weight matrix, split by heads and cut into q, k, v. -/
abbrev opsQKV : List (HloOp τ sig (Elt F)) :=
  [ StableHlo.binary main_arg0 main_arg1 main_v0 ((fun l r => Host.dotGeneral dot_S8x64x64x512_S512x1536_S8x64x64x1536_3_0_012_1_n_n none l r) : (⟨S8x64x64x512, .f32⟩ : BufTy).Contents (Elt F) → (⟨S512x1536, .f32⟩ : BufTy).Contents (Elt F) → (⟨S8x64x64x1536, .f32⟩ : BufTy).Contents (Elt F)),
    StableHlo.reshape main_v0 main_v1 rfl shapeCasts_S8x64x64x1536_S8x4096x3x8x64,
    StableHlo.unary main_v1 main_v2 ((transpose S3x8x8x64x4096 [2, 0, 3, 4, 1] · transposes_S8x4096x3x8x64_S3x8x8x64x4096_2_0_3_4_1) : (⟨S8x4096x3x8x64, .f32⟩ : BufTy).Contents (Elt F) → (⟨S3x8x8x64x4096, .f32⟩ : BufTy).Contents (Elt F)),
    StableHlo.unary main_v2 main_v3 ((extractStridedSlice S1x8x8x64x4096 ![0, 0, 0, 0, 0] · slices_S3x8x8x64x4096_S1x8x8x64x4096_0_0_0_0_0) : (⟨S3x8x8x64x4096, .f32⟩ : BufTy).Contents (Elt F) → (⟨S1x8x8x64x4096, .f32⟩ : BufTy).Contents (Elt F)),
    StableHlo.reshape main_v3 main_v4 rfl shapeCasts_S1x8x8x64x4096_S8x8x64x4096,
    StableHlo.unary main_v2 main_v5 ((extractStridedSlice S1x8x8x64x4096 ![1, 0, 0, 0, 0] · slices_S3x8x8x64x4096_S1x8x8x64x4096_1_0_0_0_0) : (⟨S3x8x8x64x4096, .f32⟩ : BufTy).Contents (Elt F) → (⟨S1x8x8x64x4096, .f32⟩ : BufTy).Contents (Elt F)),
    StableHlo.reshape main_v5 main_v6 rfl shapeCasts_S1x8x8x64x4096_S8x8x64x4096,
    StableHlo.unary main_v2 main_v7 ((extractStridedSlice S1x8x8x64x4096 ![2, 0, 0, 0, 0] · slices_S3x8x8x64x4096_S1x8x8x64x4096_2_0_0_0_0) : (⟨S3x8x8x64x4096, .f32⟩ : BufTy).Contents (Elt F) → (⟨S1x8x8x64x4096, .f32⟩ : BufTy).Contents (Elt F)),
    StableHlo.reshape main_v7 main_v8 rfl shapeCasts_S1x8x8x64x4096_S8x8x64x4096 ]

/-- Linear attention: the two softmaxes, the product of keys with values, the product with the queries, back in token-major layout. -/
abbrev opsAttn : List (HloOp τ sig (Elt F)) :=
  [ StableHlo.nullary main_cst (constant S_ .f32 0xFF800000#32),
    StableHlo.binary main_v4 main_cst main_v9 ((fun x v => Host.reduce FloatOps.maximumf x v reducesTo_S8x8x64x4096_S8x8x4096_d2 h_S_) : (⟨S8x8x64x4096, .f32⟩ : BufTy).Contents (Elt F) → (⟨S_, .f32⟩ : BufTy).Contents (Elt F) → (⟨S8x8x4096, .f32⟩ : BufTy).Contents (Elt F)),
    StableHlo.nullary main_cst_0 (constant S_ .f32 0xFF800000#32),
    StableHlo.unary main_cst_0 main_v10 (broadcastInDim S8x8x4096 ![] bcast_S_S8x8x4096 : (⟨S_, .f32⟩ : BufTy).Contents (Elt F) → (⟨S8x8x4096, .f32⟩ : BufTy).Contents (Elt F)),
    StableHlo.binary main_v10 main_v9 main_v11 (maximumf : (⟨S8x8x4096, .f32⟩ : BufTy).Contents (Elt F) → (⟨S8x8x4096, .f32⟩ : BufTy).Contents (Elt F) → (⟨S8x8x4096, .f32⟩ : BufTy).Contents (Elt F)),
    StableHlo.unary main_v11 main_v12 (broadcastInDim S8x8x1x4096 ![0, 1, 3] bcast_S8x8x4096_S8x8x1x4096_0_1_3 : (⟨S8x8x4096, .f32⟩ : BufTy).Contents (Elt F) → (⟨S8x8x1x4096, .f32⟩ : BufTy).Contents (Elt F)),
    StableHlo.unary main_v12 main_v13 (broadcastInDim S8x8x64x4096 ![0, 1, 2, 3] bcast_S8x8x1x4096_S8x8x64x4096_0_1_2_3 : (⟨S8x8x1x4096, .f32⟩ : BufTy).Contents (Elt F) → (⟨S8x8x64x4096, .f32⟩ : BufTy).Contents (Elt F)),
    StableHlo.binary main_v4 main_v13 main_v14 (subf : (⟨S8x8x64x4096, .f32⟩ : BufTy).Contents (Elt F) → (⟨S8x8x64x4096, .f32⟩ : BufTy).Contents (Elt F) → (⟨S8x8x64x4096, .f32⟩ : BufTy).Contents (Elt F)),
    StableHlo.unary main_v14 main_v15 (Host.exp : (⟨S8x8x64x4096, .f32⟩ : BufTy).Contents (Elt F) → (⟨S8x8x64x4096, .f32⟩ : BufTy).Contents (Elt F)),
    StableHlo.nullary main_cst_1 (constant S_ .f32 0x00000000#32),
    StableHlo.binary main_v15 main_cst_1 main_v16 ((fun x v => Host.reduceAdd x v reducesTo_S8x8x64x4096_S8x8x4096_d2 h_S_) : (⟨S8x8x64x4096, .f32⟩ : BufTy).Contents (Elt F) → (⟨S_, .f32⟩ : BufTy).Contents (Elt F) → (⟨S8x8x4096, .f32⟩ : BufTy).Contents (Elt F)),
    StableHlo.unary main_v16 main_v17 (broadcastInDim S8x8x1x4096 ![0, 1, 3] bcast_S8x8x4096_S8x8x1x4096_0_1_3 : (⟨S8x8x4096, .f32⟩ : BufTy).Contents (Elt F) → (⟨S8x8x1x4096, .f32⟩ : BufTy).Contents (Elt F)),
    StableHlo.unary main_v17 main_v18 (broadcastInDim S8x8x64x4096 ![0, 1, 2, 3] bcast_S8x8x1x4096_S8x8x64x4096_0_1_2_3 : (⟨S8x8x1x4096, .f32⟩ : BufTy).Contents (Elt F) → (⟨S8x8x64x4096, .f32⟩ : BufTy).Contents (Elt F)),
    StableHlo.binary main_v15 main_v18 main_v19 (Host.divf : (⟨S8x8x64x4096, .f32⟩ : BufTy).Contents (Elt F) → (⟨S8x8x64x4096, .f32⟩ : BufTy).Contents (Elt F) → (⟨S8x8x64x4096, .f32⟩ : BufTy).Contents (Elt F)),
    StableHlo.nullary main_cst_2 (constant S_ .f32 0xFF800000#32),
    StableHlo.binary main_v6 main_cst_2 main_v20 ((fun x v => Host.reduce FloatOps.maximumf x v reducesTo_S8x8x64x4096_S8x8x64_d3 h_S_) : (⟨S8x8x64x4096, .f32⟩ : BufTy).Contents (Elt F) → (⟨S_, .f32⟩ : BufTy).Contents (Elt F) → (⟨S8x8x64, .f32⟩ : BufTy).Contents (Elt F)),
    StableHlo.nullary main_cst_3 (constant S_ .f32 0xFF800000#32),
    StableHlo.unary main_cst_3 main_v21 (broadcastInDim S8x8x64 ![] bcast_S_S8x8x64 : (⟨S_, .f32⟩ : BufTy).Contents (Elt F) → (⟨S8x8x64, .f32⟩ : BufTy).Contents (Elt F)),
    StableHlo.binary main_v21 main_v20 main_v22 (maximumf : (⟨S8x8x64, .f32⟩ : BufTy).Contents (Elt F) → (⟨S8x8x64, .f32⟩ : BufTy).Contents (Elt F) → (⟨S8x8x64, .f32⟩ : BufTy).Contents (Elt F)),
    StableHlo.unary main_v22 main_v23 (broadcastInDim S8x8x64x1 ![0, 1, 2] bcast_S8x8x64_S8x8x64x1_0_1_2 : (⟨S8x8x64, .f32⟩ : BufTy).Contents (Elt F) → (⟨S8x8x64x1, .f32⟩ : BufTy).Contents (Elt F)),
    StableHlo.unary main_v23 main_v24 (broadcastInDim S8x8x64x4096 ![0, 1, 2, 3] bcast_S8x8x64x1_S8x8x64x4096_0_1_2_3 : (⟨S8x8x64x1, .f32⟩ : BufTy).Contents (Elt F) → (⟨S8x8x64x4096, .f32⟩ : BufTy).Contents (Elt F)),
    StableHlo.binary main_v6 main_v24 main_v25 (subf : (⟨S8x8x64x4096, .f32⟩ : BufTy).Contents (Elt F) → (⟨S8x8x64x4096, .f32⟩ : BufTy).Contents (Elt F) → (⟨S8x8x64x4096, .f32⟩ : BufTy).Contents (Elt F)),
    StableHlo.unary main_v25 main_v26 (Host.exp : (⟨S8x8x64x4096, .f32⟩ : BufTy).Contents (Elt F) → (⟨S8x8x64x4096, .f32⟩ : BufTy).Contents (Elt F)),
    StableHlo.nullary main_cst_4 (constant S_ .f32 0x00000000#32),
    StableHlo.binary main_v26 main_cst_4 main_v27 ((fun x v => Host.reduceAdd x v reducesTo_S8x8x64x4096_S8x8x64_d3 h_S_) : (⟨S8x8x64x4096, .f32⟩ : BufTy).Contents (Elt F) → (⟨S_, .f32⟩ : BufTy).Contents (Elt F) → (⟨S8x8x64, .f32⟩ : BufTy).Contents (Elt F)),
    StableHlo.unary main_v27 main_v28 (broadcastInDim S8x8x64x1 ![0, 1, 2] bcast_S8x8x64_S8x8x64x1_0_1_2 : (⟨S8x8x64, .f32⟩ : BufTy).Contents (Elt F) → (⟨S8x8x64x1, .f32⟩ : BufTy).Contents (Elt F)),
    StableHlo.unary main_v28 main_v29 (broadcastInDim S8x8x64x4096 ![0, 1, 2, 3] bcast_S8x8x64x1_S8x8x64x4096_0_1_2_3 : (⟨S8x8x64x1, .f32⟩ : BufTy).Contents (Elt F) → (⟨S8x8x64x4096, .f32⟩ : BufTy).Contents (Elt F)),
    StableHlo.binary main_v26 main_v29 main_v30 (Host.divf : (⟨S8x8x64x4096, .f32⟩ : BufTy).Contents (Elt F) → (⟨S8x8x64x4096, .f32⟩ : BufTy).Contents (Elt F) → (⟨S8x8x64x4096, .f32⟩ : BufTy).Contents (Elt F)),
    StableHlo.nullary main_cst_5 (constant S_ .f32 0x3E000000#32),
    StableHlo.unary main_cst_5 main_v31 (broadcastInDim S8x8x64x4096 ![] bcast_S_S8x8x64x4096 : (⟨S_, .f32⟩ : BufTy).Contents (Elt F) → (⟨S8x8x64x4096, .f32⟩ : BufTy).Contents (Elt F)),
    StableHlo.binary main_v19 main_v31 main_v32 (mulf : (⟨S8x8x64x4096, .f32⟩ : BufTy).Contents (Elt F) → (⟨S8x8x64x4096, .f32⟩ : BufTy).Contents (Elt F) → (⟨S8x8x64x4096, .f32⟩ : BufTy).Contents (Elt F)),
    StableHlo.binary main_v30 main_v8 main_v33 ((fun l r => Host.dotGeneral dot_S8x8x64x4096_S8x8x64x4096_S8x8x64x64_3_3_2_2_01_01 none l r) : (⟨S8x8x64x4096, .f32⟩ : BufTy).Contents (Elt F) → (⟨S8x8x64x4096, .f32⟩ : BufTy).Contents (Elt F) → (⟨S8x8x64x64, .f32⟩ : BufTy).Contents (Elt F)),
    StableHlo.binary main_v33 main_v32 main_v34 ((fun l r => Host.dotGeneral dot_S8x8x64x64_S8x8x64x4096_S8x8x64x4096_2_2_3_3_01_01 none l r) : (⟨S8x8x64x64, .f32⟩ : BufTy).Contents (Elt F) → (⟨S8x8x64x4096, .f32⟩ : BufTy).Contents (Elt F) → (⟨S8x8x64x4096, .f32⟩ : BufTy).Contents (Elt F)),
    StableHlo.unary main_v34 main_v35 ((transpose S8x4096x8x64 [0, 3, 1, 2] · transposes_S8x8x64x4096_S8x4096x8x64_0_3_1_2) : (⟨S8x8x64x4096, .f32⟩ : BufTy).Contents (Elt F) → (⟨S8x4096x8x64, .f32⟩ : BufTy).Contents (Elt F)),
    StableHlo.reshape main_v35 main_v36 rfl shapeCasts_S8x4096x8x64_S8x64x64x512 ]

/-- The output projection, the bias, and the normalisation over a token's channels (the variance's
    operations and the selection inside it at their call sites). -/
abbrev opsTail : List (HloOp τ sig (Elt F)) :=
  [ StableHlo.binary main_v36 main_arg2 main_v37 ((fun l r => Host.dotGeneral dot_S8x64x64x512_S512x512_S8x64x64x512_3_0_012_1_n_n none l r) : (⟨S8x64x64x512, .f32⟩ : BufTy).Contents (Elt F) → (⟨S512x512, .f32⟩ : BufTy).Contents (Elt F) → (⟨S8x64x64x512, .f32⟩ : BufTy).Contents (Elt F)),
    StableHlo.unary main_arg3 main_v38 (broadcastInDim S1x1x1x512 ![3] bcast_S512_S1x1x1x512_3 : (⟨S512, .f32⟩ : BufTy).Contents (Elt F) → (⟨S1x1x1x512, .f32⟩ : BufTy).Contents (Elt F)),
    StableHlo.unary main_v38 main_v39 (broadcastInDim S8x64x64x512 ![0, 1, 2, 3] bcast_S1x1x1x512_S8x64x64x512_0_1_2_3 : (⟨S1x1x1x512, .f32⟩ : BufTy).Contents (Elt F) → (⟨S8x64x64x512, .f32⟩ : BufTy).Contents (Elt F)),
    StableHlo.binary main_v37 main_v39 main_v40 (addf : (⟨S8x64x64x512, .f32⟩ : BufTy).Contents (Elt F) → (⟨S8x64x64x512, .f32⟩ : BufTy).Contents (Elt F) → (⟨S8x64x64x512, .f32⟩ : BufTy).Contents (Elt F)),
    StableHlo.nullary main_cst_6 (constant S_ .f32 0x00000000#32),
    StableHlo.binary main_v40 main_cst_6 main_v41 ((fun x v => Host.reduceAdd x v reducesTo_S8x64x64x512_S8x64x64_d3 h_S_) : (⟨S8x64x64x512, .f32⟩ : BufTy).Contents (Elt F) → (⟨S_, .f32⟩ : BufTy).Contents (Elt F) → (⟨S8x64x64, .f32⟩ : BufTy).Contents (Elt F)),
    StableHlo.unary main_v41 main_v42 (broadcastInDim S8x64x64x1 ![0, 1, 2] bcast_S8x64x64_S8x64x64x1_0_1_2 : (⟨S8x64x64, .f32⟩ : BufTy).Contents (Elt F) → (⟨S8x64x64x1, .f32⟩ : BufTy).Contents (Elt F)),
    StableHlo.nullary main_cst_7 (constant S_ .f32 0x44000000#32),
    StableHlo.unary main_cst_7 main_v43 (broadcastInDim S8x64x64x1 ![] bcast_S_S8x64x64x1 : (⟨S_, .f32⟩ : BufTy).Contents (Elt F) → (⟨S8x64x64x1, .f32⟩ : BufTy).Contents (Elt F)),
    StableHlo.binary main_v42 main_v43 main_v44 (Host.divf : (⟨S8x64x64x1, .f32⟩ : BufTy).Contents (Elt F) → (⟨S8x64x64x1, .f32⟩ : BufTy).Contents (Elt F) → (⟨S8x64x64x1, .f32⟩ : BufTy).Contents (Elt F)),
    StableHlo.nullary main_c (constantI S_ 32 0#32),
    StableHlo.TRef.nullary main_call0.cst (constant S_ .f32 0x00000000#32),
    StableHlo.TRef.binary (.of main_v40 : StableHlo.TRef sig ⟨S8x64x64x512, .f32⟩) main_call0.cst main_call0.v0 (fun x v => Host.reduceAdd x v reducesTo_S8x64x64x512_S8x64x64_d3 h_S_),
    StableHlo.TRef.unary main_call0.v0 main_call0.v1 (broadcastInDim S8x64x64x1 ![0, 1, 2] bcast_S8x64x64_S8x64x64x1_0_1_2),
    StableHlo.TRef.nullary main_call0.cst_0 (constant S_ .f32 0x44000000#32),
    StableHlo.TRef.unary main_call0.cst_0 main_call0.v2 (broadcastInDim S8x64x64x1 ![] bcast_S_S8x64x64x1),
    StableHlo.TRef.binary main_call0.v1 main_call0.v2 main_call0.v3 Host.divf,
    StableHlo.TRef.unary main_call0.v3 main_call0.v4 (broadcastInDim S8x64x64x512 ![0, 1, 2, 3] bcast_S8x64x64x1_S8x64x64x512_0_1_2_3),
    StableHlo.TRef.binary (.of main_v40 : StableHlo.TRef sig ⟨S8x64x64x512, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x44000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8x64x64x512_S8x64x64_d3 h_S_),
    StableHlo.TRef.unary main_call0.v9 main_call0.v10 (broadcastInDim S8x64x64x1 ![0, 1, 2] bcast_S8x64x64_S8x64x64x1_0_1_2),
    StableHlo.TRef.unary main_call0.v8 main_call0.v11 (broadcastInDim S8x64x64x1 ![] bcast_S_S8x64x64x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S8x64x64x1 ![] bcast_S_S8x64x64x1),
    StableHlo.TRef.ternary main_call0.v13 main_call0.v12 main_call0.call0.v1 main_call0.call0.v2 (fun p a b => select (broadcastInDim S8x64x64x1 ![] bcast_S_S8x64x64x1 p) a b),
    StableHlo.unary main_v44 main_v46 (broadcastInDim S8x64x64x512 ![0, 1, 2, 3] bcast_S8x64x64x1_S8x64x64x512_0_1_2_3 : (⟨S8x64x64x1, .f32⟩ : BufTy).Contents (Elt F) → (⟨S8x64x64x512, .f32⟩ : BufTy).Contents (Elt F)),
    StableHlo.binary main_v40 main_v46 main_v47 (subf : (⟨S8x64x64x512, .f32⟩ : BufTy).Contents (Elt F) → (⟨S8x64x64x512, .f32⟩ : BufTy).Contents (Elt F) → (⟨S8x64x64x512, .f32⟩ : BufTy).Contents (Elt F)),
    StableHlo.nullary main_cst_8 (constant S_ .f32 0x3727C5AC#32),
    StableHlo.unary main_cst_8 main_v48 (broadcastInDim S8x64x64x1 ![] bcast_S_S8x64x64x1 : (⟨S_, .f32⟩ : BufTy).Contents (Elt F) → (⟨S8x64x64x1, .f32⟩ : BufTy).Contents (Elt F)),
    StableHlo.binary main_v45 main_v48 main_v49 (addf : (⟨S8x64x64x1, .f32⟩ : BufTy).Contents (Elt F) → (⟨S8x64x64x1, .f32⟩ : BufTy).Contents (Elt F) → (⟨S8x64x64x1, .f32⟩ : BufTy).Contents (Elt F)),
    StableHlo.unary main_v49 main_v50 (Host.sqrt : (⟨S8x64x64x1, .f32⟩ : BufTy).Contents (Elt F) → (⟨S8x64x64x1, .f32⟩ : BufTy).Contents (Elt F)),
    StableHlo.unary main_v50 main_v51 (broadcastInDim S8x64x64x512 ![0, 1, 2, 3] bcast_S8x64x64x1_S8x64x64x512_0_1_2_3 : (⟨S8x64x64x1, .f32⟩ : BufTy).Contents (Elt F) → (⟨S8x64x64x512, .f32⟩ : BufTy).Contents (Elt F)),
    StableHlo.binary main_v47 main_v51 main_v52 (Host.divf : (⟨S8x64x64x512, .f32⟩ : BufTy).Contents (Elt F) → (⟨S8x64x64x512, .f32⟩ : BufTy).Contents (Elt F) → (⟨S8x64x64x512, .f32⟩ : BufTy).Contents (Elt F)),
    StableHlo.unary main_arg4 main_v53 (broadcastInDim S1x1x1x512 ![3] bcast_S512_S1x1x1x512_3 : (⟨S512, .f32⟩ : BufTy).Contents (Elt F) → (⟨S1x1x1x512, .f32⟩ : BufTy).Contents (Elt F)),
    StableHlo.unary main_v53 main_v54 (broadcastInDim S8x64x64x512 ![0, 1, 2, 3] bcast_S1x1x1x512_S8x64x64x512_0_1_2_3 : (⟨S1x1x1x512, .f32⟩ : BufTy).Contents (Elt F) → (⟨S8x64x64x512, .f32⟩ : BufTy).Contents (Elt F)),
    StableHlo.binary main_v52 main_v54 main_v55 (mulf : (⟨S8x64x64x512, .f32⟩ : BufTy).Contents (Elt F) → (⟨S8x64x64x512, .f32⟩ : BufTy).Contents (Elt F) → (⟨S8x64x64x512, .f32⟩ : BufTy).Contents (Elt F)),
    StableHlo.unary main_arg5 main_v56 (broadcastInDim S1x1x1x512 ![3] bcast_S512_S1x1x1x512_3 : (⟨S512, .f32⟩ : BufTy).Contents (Elt F) → (⟨S1x1x1x512, .f32⟩ : BufTy).Contents (Elt F)),
    StableHlo.unary main_v56 main_v57 (broadcastInDim S8x64x64x512 ![0, 1, 2, 3] bcast_S1x1x1x512_S8x64x64x512_0_1_2_3 : (⟨S1x1x1x512, .f32⟩ : BufTy).Contents (Elt F) → (⟨S8x64x64x512, .f32⟩ : BufTy).Contents (Elt F)),
    StableHlo.binary main_v55 main_v57 main_v58 (addf : (⟨S8x64x64x512, .f32⟩ : BufTy).Contents (Elt F) → (⟨S8x64x64x512, .f32⟩ : BufTy).Contents (Elt F) → (⟨S8x64x64x512, .f32⟩ : BufTy).Contents (Elt F)) ]

/-- @main's 92 operations, in order. -/
abbrev ops : List (HloOp τ sig (Elt F)) := opsQKV ++ (opsAttn ++ opsTail)

/-- Running two stretches one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

end Cert.ReferenceIdeal.RefRun

end
-- ==== Proof.RefRunMain.lean ====
/-
  The reference program's @main is the straight line of its 92 operations (the outlined functions unfolded at
  their calls), every operation touches tensor-value buffers only, and the signature scopes nothing: so every
  weakly fair execution ends with each buffer at the operations' fold over the launch contents.
-/
import proofs.«132770_j30940944400685_2_alg».proof.Proof.RefRunOps

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]
variable {F : FTy → Type} [FloatOps F]

set_option maxRecDepth 8192 in
set_option maxHeartbeats 4000000 in
/-- @main's two windows, with the variance function and the selection inside it unfolded at their calls, are one
    chain of steps: sequencing grafts a continuation onto the leaves of a program, so both sides compute to the
    same tree. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsQKV_sub : (opsQKV : List (HloOp τ sig (Elt F))).Forall fun op => op.bufs ⊆ tcRefs τ sig :=
  ⟨binary_bufs_sub .., reshape_bufs_sub .., unary_bufs_sub .., unary_bufs_sub .., reshape_bufs_sub .., unary_bufs_sub ..,
    reshape_bufs_sub .., unary_bufs_sub .., reshape_bufs_sub ..⟩
theorem opsAttn_sub : (opsAttn : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., nullary_bufs_sub .., unary_bufs_sub ..,
    binary_bufs_sub .., binary_bufs_sub .., binary_bufs_sub .., unary_bufs_sub .., reshape_bufs_sub ..⟩
theorem opsTail_sub : (opsTail : List (HloOp τ sig (Elt F))).Forall fun op => op.bufs ⊆ tcRefs τ sig :=
  ⟨binary_bufs_sub .., unary_bufs_sub .., unary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp opsQKV_sub op h, List.forall_iff_forall_mem.mp opsAttn_sub op h,
      List.forall_iff_forall_mem.mp opsTail_sub op h]

/-- Every operation determines its results: none allocates a buffer. -/
theorem opsQKV_fresh : (opsQKV : List (HloOp τ sig (Elt F))).Forall fun op => op.fresh = ∅ :=
  ⟨rfl, rfl, rfl, rfl, rfl, rfl, rfl, rfl, rfl⟩
theorem opsAttn_fresh : (opsAttn : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl⟩
theorem opsTail_fresh : (opsTail : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩
theorem ops_fresh : ∀ op ∈ (ops : List (HloOp τ sig (Elt F))), op.fresh = ∅ := fun op h => by
  simp only [ops, List.mem_append] at h
  rcases h with h | h | h
  exacts [List.forall_iff_forall_mem.mp opsQKV_fresh op h, List.forall_iff_forall_mem.mp opsAttn_fresh op h,
    List.forall_iff_forall_mem.mp opsTail_fresh op h]

/-- On every device, from any memory with zero counters: every weakly fair execution of @main terminates, and
    every final state has each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefTermQKV.lean ====
/-
  The reference's projection onto q, k, v: its first nine operations as plain functions of the two
  input arrays, each the printed operation's own function applied to the earlier stages, read at the
  ideal instance (a float an extended real).

  v0 : the [8,64,64,512] input times the [512,1536] matrix, contracting the last axis with the first;
  v1 : v0 reshaped (row-major) to [8,4096,3,8,64] = [image, token, part, head, feature];
  v2 : v1 transposed by [2,0,3,4,1] to [3,8,8,64,4096] = [part, image, head, feature, token];
  qArr, kArr, vArr : parts 0, 1, 2 of v2, each reshaped to [8,8,64,4096] = [image, head, feature, token].
-/
import proofs.«132770_j30940944400685_2_alg».proof.Proof.Gen.ReferenceIdeal
import Idealize.ShloMosaic.PureOps.Ideal

noncomputable section

namespace Cert.ReferenceIdeal.RefQKV

open Cert.ReferenceIdeal Cert.ReferenceIdeal.Facts₀ Idealize.ShloMosaic

variable [Cert.ReferenceIdeal.Facts]

/-- main_v0: the dot_general of the input with the projection matrix. -/
def v0 (x : FVec Ideal S8x64x64x512 .f32) (w : FVec Ideal S512x1536 .f32) : FVec Ideal S8x64x64x1536 .f32 :=
  Host.dotGeneral (F := Ideal) dot_S8x64x64x512_S512x1536_S8x64x64x1536_3_0_012_1_n_n none x w

/-- main_v1: v0 in row-major order at the shape [8,4096,3,8,64]. -/
def v1 (x : FVec Ideal S8x64x64x512 .f32) (w : FVec Ideal S512x1536 .f32) : FVec Ideal S8x4096x3x8x64 .f32 :=
  shapeCast S8x4096x3x8x64 (v0 x w) shapeCasts_S8x64x64x1536_S8x4096x3x8x64

/-- main_v2: v1 with its axes permuted by [2,0,3,4,1]. -/
def v2 (x : FVec Ideal S8x64x64x512 .f32) (w : FVec Ideal S512x1536 .f32) : FVec Ideal S3x8x8x64x4096 .f32 :=
  transpose S3x8x8x64x4096 [2, 0, 3, 4, 1] (v1 x w) transposes_S8x4096x3x8x64_S3x8x8x64x4096_2_0_3_4_1

/-- main_v3: part 0 of v2, still with its leading axis of length one. -/
def v3 (x : FVec Ideal S8x64x64x512 .f32) (w : FVec Ideal S512x1536 .f32) : FVec Ideal S1x8x8x64x4096 .f32 :=
  extractStridedSlice S1x8x8x64x4096 ![0, 0, 0, 0, 0] (v2 x w) slices_S3x8x8x64x4096_S1x8x8x64x4096_0_0_0_0_0

/-- main_v4: the queries, [image, head, feature, token]. -/
def qArr (x : FVec Ideal S8x64x64x512 .f32) (w : FVec Ideal S512x1536 .f32) : FVec Ideal S8x8x64x4096 .f32 :=
  shapeCast S8x8x64x4096 (v3 x w) shapeCasts_S1x8x8x64x4096_S8x8x64x4096

/-- main_v5: part 1 of v2. -/
def v5 (x : FVec Ideal S8x64x64x512 .f32) (w : FVec Ideal S512x1536 .f32) : FVec Ideal S1x8x8x64x4096 .f32 :=
  extractStridedSlice S1x8x8x64x4096 ![1, 0, 0, 0, 0] (v2 x w) slices_S3x8x8x64x4096_S1x8x8x64x4096_1_0_0_0_0

/-- main_v6: the keys, [image, head, feature, token]. -/
def kArr (x : FVec Ideal S8x64x64x512 .f32) (w : FVec Ideal S512x1536 .f32) : FVec Ideal S8x8x64x4096 .f32 :=
  shapeCast S8x8x64x4096 (v5 x w) shapeCasts_S1x8x8x64x4096_S8x8x64x4096

/-- main_v7: part 2 of v2. -/
def v7 (x : FVec Ideal S8x64x64x512 .f32) (w : FVec Ideal S512x1536 .f32) : FVec Ideal S1x8x8x64x4096 .f32 :=
  extractStridedSlice S1x8x8x64x4096 ![2, 0, 0, 0, 0] (v2 x w) slices_S3x8x8x64x4096_S1x8x8x64x4096_2_0_0_0_0

/-- main_v8: the values, [image, head, feature, token]. -/
def vArr (x : FVec Ideal S8x64x64x512 .f32) (w : FVec Ideal S512x1536 .f32) : FVec Ideal S8x8x64x4096 .f32 :=
  shapeCast S8x8x64x4096 (v7 x w) shapeCasts_S1x8x8x64x4096_S8x8x64x4096

/-! A reshape's result is stated by the library as `fun i => he ▸ shapeCast y.ty.shape X hn i`, with `he` the
    element types' equation (here rfl) and `y` the result's buffer. `reshapeForm` is that term over any element
    types; at this program's buffers it is, by definition, the stage above. -/

/-- The library's reshape result, as a function of the operand's contents. -/
def reshapeForm {Val : EltTy → Type} (sx sy : Shape) (ex ey : EltTy) (he : ex = ey) (X : sx.Idx → Val ex)
    (hn : sx.ShapeCasts sy) : sy.Idx → Val ey := fun i => he ▸ shapeCast sy X hn i

/-- The library's own statement of a reshape's result, in that form. -/
theorem reshape_result_form {τ : Topo} {sig : RefSig} {Val : EltTy → Type} (a b : Ref sig .tc) (he : a.ty.elt = b.ty.elt)
    (hn : a.ty.shape.ShapeCasts b.ty.shape)
    (ha : a.space ≠ .host ∧ (Proc.devRef .tc a : DevRef τ sig).isScoped = false)
    (hb : b.space ≠ .host ∧ (Proc.devRef .tc b : DevRef τ sig).isScoped = false) (V : Valuation τ sig Val) :
    (StableHlo.reshape a b he hn ha hb : HloOp τ sig Val).result V (Proc.devRef .tc b)
      = reshapeForm (Val := Val) a.ty.shape b.ty.shape a.ty.elt b.ty.elt he (V (Proc.devRef .tc a)) hn :=
  StableHlo.reshape_result a b he hn ha hb V

theorem v1_eq_reshape (x : FVec Ideal S8x64x64x512 .f32) (w : FVec Ideal S512x1536 .f32) :
    reshapeForm (Val := Elt Ideal) main_v0.ty.shape main_v1.ty.shape main_v0.ty.elt main_v1.ty.elt rfl (v0 x w)
      shapeCasts_S8x64x64x1536_S8x4096x3x8x64 = v1 x w := rfl

theorem qArr_eq_reshape (x : FVec Ideal S8x64x64x512 .f32) (w : FVec Ideal S512x1536 .f32) :
    reshapeForm (Val := Elt Ideal) main_v3.ty.shape main_v4.ty.shape main_v3.ty.elt main_v4.ty.elt rfl (v3 x w)
      shapeCasts_S1x8x8x64x4096_S8x8x64x4096 = qArr x w := rfl

theorem kArr_eq_reshape (x : FVec Ideal S8x64x64x512 .f32) (w : FVec Ideal S512x1536 .f32) :
    reshapeForm (Val := Elt Ideal) main_v5.ty.shape main_v6.ty.shape main_v5.ty.elt main_v6.ty.elt rfl (v5 x w)
      shapeCasts_S1x8x8x64x4096_S8x8x64x4096 = kArr x w := rfl

theorem vArr_eq_reshape (x : FVec Ideal S8x64x64x512 .f32) (w : FVec Ideal S512x1536 .f32) :
    reshapeForm (Val := Elt Ideal) main_v7.ty.shape main_v8.ty.shape main_v7.ty.elt main_v8.ty.elt rfl (v7 x w)
      shapeCasts_S1x8x8x64x4096_S8x8x64x4096 = vArr x w := rfl

end Cert.ReferenceIdeal.RefQKV

end
-- ==== Proof.RefRunQKV.lean ====
/-
  What the buffers hold after the projection's nine operations: the queries, keys and values are the three
  stage functions of the two arguments' contents, and the arguments are unchanged.
-/
import proofs.«132770_j30940944400685_2_alg».proof.Proof.RefRunOps
import proofs.«132770_j30940944400685_2_alg».proof.Proof.RefTermQKV

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

theorem qkv_v4 (V : Valuation τ sig (Elt Ideal)) :
    after (opsQKV (F := Ideal)) V (main_v4 : DevRef τ sig)
      = RefQKV.qArr (V (main_arg0 : DevRef τ sig)) (V (main_arg1 : DevRef τ sig)) := by
  after_results_simp
  rfl

theorem qkv_v6 (V : Valuation τ sig (Elt Ideal)) :
    after (opsQKV (F := Ideal)) V (main_v6 : DevRef τ sig)
      = RefQKV.kArr (V (main_arg0 : DevRef τ sig)) (V (main_arg1 : DevRef τ sig)) := by
  after_results_simp
  rfl

theorem qkv_v8 (V : Valuation τ sig (Elt Ideal)) :
    after (opsQKV (F := Ideal)) V (main_v8 : DevRef τ sig)
      = RefQKV.vArr (V (main_arg0 : DevRef τ sig)) (V (main_arg1 : DevRef τ sig)) := by
  after_results_simp
  rfl

theorem qkv_arg0 (V : Valuation τ sig (Elt Ideal)) :
    after (opsQKV (F := Ideal)) V (main_arg0 : DevRef τ sig) = V (main_arg0 : DevRef τ sig) := by
  after_results_simp

theorem qkv_arg1 (V : Valuation τ sig (Elt Ideal)) :
    after (opsQKV (F := Ideal)) V (main_arg1 : DevRef τ sig) = V (main_arg1 : DevRef τ sig) := by
  after_results_simp

theorem qkv_arg2 (V : Valuation τ sig (Elt Ideal)) :
    after (opsQKV (F := Ideal)) V (main_arg2 : DevRef τ sig) = V (main_arg2 : DevRef τ sig) := by
  after_results_simp

theorem qkv_arg3 (V : Valuation τ sig (Elt Ideal)) :
    after (opsQKV (F := Ideal)) V (main_arg3 : DevRef τ sig) = V (main_arg3 : DevRef τ sig) := by
  after_results_simp

theorem qkv_arg4 (V : Valuation τ sig (Elt Ideal)) :
    after (opsQKV (F := Ideal)) V (main_arg4 : DevRef τ sig) = V (main_arg4 : DevRef τ sig) := by
  after_results_simp

theorem qkv_arg5 (V : Valuation τ sig (Elt Ideal)) :
    after (opsQKV (F := Ideal)) V (main_arg5 : DevRef τ sig) = V (main_arg5 : DevRef τ sig) := by
  after_results_simp

end Cert.ReferenceIdeal.RefRun

end
-- ==== Proof.RefTermAttn.lean ====
/-
  The reference's attention, statements main_cst … main_v36 of its first part, as a chain of definitions:
  each stage is the printed operation's function applied to the earlier stages, at the ideal instance.
  Inputs q, k, v : [image, head, feature, token] = [8, 8, 64, 4096]; result [8, 64, 64, 512].
-/
import proofs.«132770_j30940944400685_2_alg».proof.Proof.Gen.ReferenceIdeal
import Idealize.ShloMosaic.PureOps.Ideal

noncomputable section

namespace Cert.ReferenceIdeal.RefAttn

open Cert.ReferenceIdeal Cert.ReferenceIdeal.Facts₀ Idealize.ShloMosaic

variable [Cert.ReferenceIdeal.Facts]

/-! ## The constants -/

/-- The rank-zero −∞. -/
def cNegInf : FVec Ideal S_ .f32 := constant (F := Ideal) S_ .f32 0xFF800000#32
/-- The rank-zero 0. -/
def cZero : FVec Ideal S_ .f32 := constant (F := Ideal) S_ .f32 0x00000000#32
/-- The rank-zero 1/8. -/
def cEighth : FVec Ideal S_ .f32 := constant (F := Ideal) S_ .f32 0x3E000000#32

/-! ## Softmax of q over the feature axis (dimension 2) -/

/-- main_v9: the maximum over the features, from −∞. -/
def qMax0 (q : FVec Ideal S8x8x64x4096 .f32) : FVec Ideal S8x8x4096 .f32 :=
  Host.reduce (FloatOps.maximumf (F := Ideal)) q cNegInf reducesTo_S8x8x64x4096_S8x8x4096_d2 h_S_
/-- main_v10: −∞ everywhere. -/
def qNegInf : FVec Ideal S8x8x4096 .f32 := broadcastInDim S8x8x4096 ![] bcast_S_S8x8x4096 cNegInf
/-- main_v11: the maximum with −∞. -/
def qMax (q : FVec Ideal S8x8x64x4096 .f32) : FVec Ideal S8x8x4096 .f32 := maximumf (F := Ideal) qNegInf (qMax0 q)
/-- main_v12. -/
def qMaxK (q : FVec Ideal S8x8x64x4096 .f32) : FVec Ideal S8x8x1x4096 .f32 :=
  broadcastInDim S8x8x1x4096 ![0, 1, 3] bcast_S8x8x4096_S8x8x1x4096_0_1_3 (qMax q)
/-- main_v13. -/
def qMaxB (q : FVec Ideal S8x8x64x4096 .f32) : FVec Ideal S8x8x64x4096 .f32 :=
  broadcastInDim S8x8x64x4096 ![0, 1, 2, 3] bcast_S8x8x1x4096_S8x8x64x4096_0_1_2_3 (qMaxK q)
/-- main_v14. -/
def qSub (q : FVec Ideal S8x8x64x4096 .f32) : FVec Ideal S8x8x64x4096 .f32 := subf (F := Ideal) q (qMaxB q)
/-- main_v15. -/
def qExp (q : FVec Ideal S8x8x64x4096 .f32) : FVec Ideal S8x8x64x4096 .f32 := Host.exp (F := Ideal) (qSub q)
/-- main_v16: the sum over the features, from 0. -/
def qSum (q : FVec Ideal S8x8x64x4096 .f32) : FVec Ideal S8x8x4096 .f32 :=
  Host.reduceAdd (F := Ideal) (qExp q) cZero reducesTo_S8x8x64x4096_S8x8x4096_d2 h_S_
/-- main_v17. -/
def qSumK (q : FVec Ideal S8x8x64x4096 .f32) : FVec Ideal S8x8x1x4096 .f32 :=
  broadcastInDim S8x8x1x4096 ![0, 1, 3] bcast_S8x8x4096_S8x8x1x4096_0_1_3 (qSum q)
/-- main_v18. -/
def qSumB (q : FVec Ideal S8x8x64x4096 .f32) : FVec Ideal S8x8x64x4096 .f32 :=
  broadcastInDim S8x8x64x4096 ![0, 1, 2, 3] bcast_S8x8x1x4096_S8x8x64x4096_0_1_2_3 (qSumK q)
/-- main_v19: the softmax of q over the features. -/
def qSoft (q : FVec Ideal S8x8x64x4096 .f32) : FVec Ideal S8x8x64x4096 .f32 := Host.divf (F := Ideal) (qExp q) (qSumB q)

/-! ## Softmax of k over the token axis (dimension 3) -/

/-- main_v20: the maximum over the tokens, from −∞. -/
def kMax0 (k : FVec Ideal S8x8x64x4096 .f32) : FVec Ideal S8x8x64 .f32 :=
  Host.reduce (FloatOps.maximumf (F := Ideal)) k cNegInf reducesTo_S8x8x64x4096_S8x8x64_d3 h_S_
/-- main_v21: −∞ everywhere. -/
def kNegInf : FVec Ideal S8x8x64 .f32 := broadcastInDim S8x8x64 ![] bcast_S_S8x8x64 cNegInf
/-- main_v22. -/
def kMax (k : FVec Ideal S8x8x64x4096 .f32) : FVec Ideal S8x8x64 .f32 := maximumf (F := Ideal) kNegInf (kMax0 k)
/-- main_v23. -/
def kMaxK (k : FVec Ideal S8x8x64x4096 .f32) : FVec Ideal S8x8x64x1 .f32 :=
  broadcastInDim S8x8x64x1 ![0, 1, 2] bcast_S8x8x64_S8x8x64x1_0_1_2 (kMax k)
/-- main_v24. -/
def kMaxB (k : FVec Ideal S8x8x64x4096 .f32) : FVec Ideal S8x8x64x4096 .f32 :=
  broadcastInDim S8x8x64x4096 ![0, 1, 2, 3] bcast_S8x8x64x1_S8x8x64x4096_0_1_2_3 (kMaxK k)
/-- main_v25. -/
def kSub (k : FVec Ideal S8x8x64x4096 .f32) : FVec Ideal S8x8x64x4096 .f32 := subf (F := Ideal) k (kMaxB k)
/-- main_v26. -/
def kExp (k : FVec Ideal S8x8x64x4096 .f32) : FVec Ideal S8x8x64x4096 .f32 := Host.exp (F := Ideal) (kSub k)
/-- main_v27: the sum over the tokens, from 0. -/
def kSum (k : FVec Ideal S8x8x64x4096 .f32) : FVec Ideal S8x8x64 .f32 :=
  Host.reduceAdd (F := Ideal) (kExp k) cZero reducesTo_S8x8x64x4096_S8x8x64_d3 h_S_
/-- main_v28. -/
def kSumK (k : FVec Ideal S8x8x64x4096 .f32) : FVec Ideal S8x8x64x1 .f32 :=
  broadcastInDim S8x8x64x1 ![0, 1, 2] bcast_S8x8x64_S8x8x64x1_0_1_2 (kSum k)
/-- main_v29. -/
def kSumB (k : FVec Ideal S8x8x64x4096 .f32) : FVec Ideal S8x8x64x4096 .f32 :=
  broadcastInDim S8x8x64x4096 ![0, 1, 2, 3] bcast_S8x8x64x1_S8x8x64x4096_0_1_2_3 (kSumK k)
/-- main_v30: the softmax of k over the tokens. -/
def kSoft (k : FVec Ideal S8x8x64x4096 .f32) : FVec Ideal S8x8x64x4096 .f32 := Host.divf (F := Ideal) (kExp k) (kSumB k)

/-! ## The scale and the two products -/

/-- main_v31: 1/8 everywhere. -/
def eighthB : FVec Ideal S8x8x64x4096 .f32 := broadcastInDim S8x8x64x4096 ![] bcast_S_S8x8x64x4096 cEighth
/-- main_v32: the scaled query softmax. -/
def qScaled (q : FVec Ideal S8x8x64x4096 .f32) : FVec Ideal S8x8x64x4096 .f32 := mulf (F := Ideal) (qSoft q) eighthB
/-- main_v33: the context, [image, head, key feature, value feature]. -/
def ctx (k v : FVec Ideal S8x8x64x4096 .f32) : FVec Ideal S8x8x64x64 .f32 :=
  Host.dotGeneral (F := Ideal) dot_S8x8x64x4096_S8x8x64x4096_S8x8x64x64_3_3_2_2_01_01 none (kSoft k) v
/-- main_v34: the output, [image, head, value feature, token]. -/
def outHF (q k v : FVec Ideal S8x8x64x4096 .f32) : FVec Ideal S8x8x64x4096 .f32 :=
  Host.dotGeneral (F := Ideal) dot_S8x8x64x64_S8x8x64x4096_S8x8x64x4096_2_2_3_3_01_01 none (ctx k v) (qScaled q)

/-! ## The final layout -/

/-- main_v35: [image, token, head, feature]. -/
def outT (q k v : FVec Ideal S8x8x64x4096 .f32) : FVec Ideal S8x4096x8x64 .f32 :=
  transpose S8x4096x8x64 [0, 3, 1, 2] (outHF q k v) transposes_S8x8x64x4096_S8x4096x8x64_0_3_1_2
/-- main_v36: [image, row, column, head · 64 + feature]. -/
def attnArr (q k v : FVec Ideal S8x8x64x4096 .f32) : FVec Ideal S8x64x64x512 .f32 :=
  shapeCast S8x64x64x512 (outT q k v) shapeCasts_S8x4096x8x64_S8x64x64x512

end Cert.ReferenceIdeal.RefAttn

end
-- ==== Proof.RefRunAttn.lean ====
/-
  What the buffers hold after the attention's thirty-five operations: the result is the attention stage
  function of the queries', keys' and values' contents, and the arguments are unchanged.
-/
import proofs.«132770_j30940944400685_2_alg».proof.Proof.RefRunOps
import proofs.«132770_j30940944400685_2_alg».proof.Proof.RefTermAttn

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

set_option maxRecDepth 8192 in
theorem attn_v36 (V : Valuation τ sig (Elt Ideal)) :
    after (opsAttn (F := Ideal)) V (main_v36 : DevRef τ sig)
      = RefAttn.attnArr (V (main_v4 : DevRef τ sig)) (V (main_v6 : DevRef τ sig)) (V (main_v8 : DevRef τ sig)) := by
  after_results_simp
  rfl

set_option maxRecDepth 8192 in
theorem attn_arg0 (V : Valuation τ sig (Elt Ideal)) :
    after (opsAttn (F := Ideal)) V (main_arg0 : DevRef τ sig) = V (main_arg0 : DevRef τ sig) := by
  after_results_simp

set_option maxRecDepth 8192 in
theorem attn_arg1 (V : Valuation τ sig (Elt Ideal)) :
    after (opsAttn (F := Ideal)) V (main_arg1 : DevRef τ sig) = V (main_arg1 : DevRef τ sig) := by
  after_results_simp

set_option maxRecDepth 8192 in
theorem attn_arg2 (V : Valuation τ sig (Elt Ideal)) :
    after (opsAttn (F := Ideal)) V (main_arg2 : DevRef τ sig) = V (main_arg2 : DevRef τ sig) := by
  after_results_simp

set_option maxRecDepth 8192 in
theorem attn_arg3 (V : Valuation τ sig (Elt Ideal)) :
    after (opsAttn (F := Ideal)) V (main_arg3 : DevRef τ sig) = V (main_arg3 : DevRef τ sig) := by
  after_results_simp

set_option maxRecDepth 8192 in
theorem attn_arg4 (V : Valuation τ sig (Elt Ideal)) :
    after (opsAttn (F := Ideal)) V (main_arg4 : DevRef τ sig) = V (main_arg4 : DevRef τ sig) := by
  after_results_simp

set_option maxRecDepth 8192 in
theorem attn_arg5 (V : Valuation τ sig (Elt Ideal)) :
    after (opsAttn (F := Ideal)) V (main_arg5 : DevRef τ sig) = V (main_arg5 : DevRef τ sig) := by
  after_results_simp

end Cert.ReferenceIdeal.RefRun

end
-- ==== Proof.RefTermTail.lean ====
/-
  The reference's last stage as a term. The attention output ([8, 64, 64, 512]) is contracted over its channels with
  a [512, 512] matrix and a bias is added; each token is then normalised over its 512 channels: the mean is the sum
  from 0 divided by 512, the variance is the sum from 0 of the squared deviations divided by 512 − 0 (selected only
  when 512 − 0 > 0, a NaN word otherwise), and the result is (y − mean) / sqrt(var + ε) · g + β.

  Each definition is one printed operation of the program applied to the earlier ones, in the program's order and
  with the program's own evidence terms; the two outlined functions (the variance, and the selection inside it) are
  written out operation by operation over the call's operands.
-/
import proofs.«132770_j30940944400685_2_alg».proof.Proof.Gen.ReferenceIdeal
import Idealize.ShloMosaic.PureOps.Ideal

noncomputable section

namespace Cert.ReferenceIdeal.RefTail

open Cert.ReferenceIdeal Cert.ReferenceIdeal.Facts₀ Idealize.ShloMosaic

variable [Cert.ReferenceIdeal.Facts]

/-! ## The projection and the bias (main_v37 … main_v40) -/

/-- main_v37: the channels contracted with the matrix. -/
def v37 (a36 : FVec Ideal S8x64x64x512 .f32) (wout : FVec Ideal S512x512 .f32) : FVec Ideal S8x64x64x512 .f32 :=
  Host.dotGeneral (F := Ideal) dot_S8x64x64x512_S512x512_S8x64x64x512_3_0_012_1_n_n none a36 wout

/-- main_v38: the bias as a [1, 1, 1, 512] array. -/
def v38 (bo : FVec Ideal S512 .f32) : FVec Ideal S1x1x1x512 .f32 :=
  broadcastInDim S1x1x1x512 ![3] bcast_S512_S1x1x1x512_3 bo

/-- main_v39: the bias at every token. -/
def v39 (bo : FVec Ideal S512 .f32) : FVec Ideal S8x64x64x512 .f32 :=
  broadcastInDim S8x64x64x512 ![0, 1, 2, 3] bcast_S1x1x1x512_S8x64x64x512_0_1_2_3 (v38 bo)

/-- main_v40: what is normalised. -/
def v40 (a36 : FVec Ideal S8x64x64x512 .f32) (wout : FVec Ideal S512x512 .f32) (bo : FVec Ideal S512 .f32) :
    FVec Ideal S8x64x64x512 .f32 :=
  addf (v37 a36 wout) (v39 bo)

/-! ## The mean of a token's channels (main_cst_6 … main_v44), over y = main_v40 -/

/-- main_cst_6: the word 0. -/
def cst6 : FVec Ideal S_ .f32 := constant (F := Ideal) S_ .f32 0x00000000#32

/-- main_v41: the channel sums. -/
def v41 (y : FVec Ideal S8x64x64x512 .f32) : FVec Ideal S8x64x64 .f32 :=
  Host.reduceAdd (F := Ideal) y cst6 reducesTo_S8x64x64x512_S8x64x64_d3 h_S_

/-- main_v42: the sums as a column. -/
def v42 (y : FVec Ideal S8x64x64x512 .f32) : FVec Ideal S8x64x64x1 .f32 :=
  broadcastInDim S8x64x64x1 ![0, 1, 2] bcast_S8x64x64_S8x64x64x1_0_1_2 (v41 y)

/-- main_cst_7: the word 512. -/
def cst7 : FVec Ideal S_ .f32 := constant (F := Ideal) S_ .f32 0x44000000#32

/-- main_v43: 512 at every token. -/
def v43 : FVec Ideal S8x64x64x1 .f32 := broadcastInDim S8x64x64x1 ![] bcast_S_S8x64x64x1 cst7

/-- main_v44: the means. -/
def v44 (y : FVec Ideal S8x64x64x512 .f32) : FVec Ideal S8x64x64x1 .f32 :=
  Host.divf (F := Ideal) (v42 y) v43

/-- main_c: the integer 0, the variance's second operand. -/
def c0 : IVec S_ 32 := constantI S_ 32 0#32

/-! ## The variance: the outlined function's operations over (y, the integer 0) (main_call0_cst … main_call0_cst_4) -/

/-- The word 0. -/
def var_cst : FVec Ideal S_ .f32 := constant (F := Ideal) S_ .f32 0x00000000#32

/-- The channel sums. -/
def var_v0 (y : FVec Ideal S8x64x64x512 .f32) : FVec Ideal S8x64x64 .f32 :=
  Host.reduceAdd (F := Ideal) y var_cst reducesTo_S8x64x64x512_S8x64x64_d3 h_S_

/-- The sums as a column. -/
def var_v1 (y : FVec Ideal S8x64x64x512 .f32) : FVec Ideal S8x64x64x1 .f32 :=
  broadcastInDim S8x64x64x1 ![0, 1, 2] bcast_S8x64x64_S8x64x64x1_0_1_2 (var_v0 y)

/-- The word 512. -/
def var_cst_0 : FVec Ideal S_ .f32 := constant (F := Ideal) S_ .f32 0x44000000#32

/-- 512 at every token. -/
def var_v2 : FVec Ideal S8x64x64x1 .f32 := broadcastInDim S8x64x64x1 ![] bcast_S_S8x64x64x1 var_cst_0

/-- The means. -/
def var_v3 (y : FVec Ideal S8x64x64x512 .f32) : FVec Ideal S8x64x64x1 .f32 :=
  Host.divf (F := Ideal) (var_v1 y) var_v2

/-- The means at every channel. -/
def var_v4 (y : FVec Ideal S8x64x64x512 .f32) : FVec Ideal S8x64x64x512 .f32 :=
  broadcastInDim S8x64x64x512 ![0, 1, 2, 3] bcast_S8x64x64x1_S8x64x64x512_0_1_2_3 (var_v3 y)

/-- The deviations. -/
def var_v5 (y : FVec Ideal S8x64x64x512 .f32) : FVec Ideal S8x64x64x512 .f32 :=
  subf y (var_v4 y)

/-- Their squares. -/
def var_v6 (y : FVec Ideal S8x64x64x512 .f32) : FVec Ideal S8x64x64x512 .f32 :=
  mulf (var_v5 y) (var_v5 y)

/-- The integer 0 as a float. -/
def var_v7 : FVec Ideal S_ .f32 := sitofp (F := Ideal) .f32 c0

/-- The word 512. -/
def var_cst_1 : FVec Ideal S_ .f32 := constant (F := Ideal) S_ .f32 0x44000000#32

/-- 512 − 0, the divisor. -/
def var_v8 : FVec Ideal S_ .f32 := subf var_cst_1 var_v7

/-- The word 0. -/
def var_cst_2 : FVec Ideal S_ .f32 := constant (F := Ideal) S_ .f32 0x00000000#32

/-- The sums of the squares. -/
def var_v9 (y : FVec Ideal S8x64x64x512 .f32) : FVec Ideal S8x64x64 .f32 :=
  Host.reduceAdd (F := Ideal) (var_v6 y) var_cst_2 reducesTo_S8x64x64x512_S8x64x64_d3 h_S_

/-- The sums as a column. -/
def var_v10 (y : FVec Ideal S8x64x64x512 .f32) : FVec Ideal S8x64x64x1 .f32 :=
  broadcastInDim S8x64x64x1 ![0, 1, 2] bcast_S8x64x64_S8x64x64x1_0_1_2 (var_v9 y)

/-- The divisor at every token. -/
def var_v11 : FVec Ideal S8x64x64x1 .f32 := broadcastInDim S8x64x64x1 ![] bcast_S_S8x64x64x1 var_v8

/-- The quotients. -/
def var_v12 (y : FVec Ideal S8x64x64x512 .f32) : FVec Ideal S8x64x64x1 .f32 :=
  Host.divf (F := Ideal) (var_v10 y) var_v11

/-- The word 0. -/
def var_cst_3 : FVec Ideal S_ .f32 := constant (F := Ideal) S_ .f32 0x00000000#32

/-- Whether the divisor is positive. -/
def var_v13 : IVec S_ 1 := cmpf (F := Ideal) .ogt var_v8 var_cst_3

/-- The NaN word. -/
def var_cst_4 : FVec Ideal S_ .f32 := constant (F := Ideal) S_ .f32 0x7FC00000#32

/-! ## The selection inside the variance: its operations over (the comparison, the quotients, the NaN word) -/

/-- The NaN word converted to its own format. -/
def where_v0 : FVec Ideal S_ .f32 := id var_cst_4

/-- The NaN word at every token. -/
def where_v1 : FVec Ideal S8x64x64x1 .f32 := broadcastInDim S8x64x64x1 ![] bcast_S_S8x64x64x1 where_v0

/-- main_v45: the variances — the quotient where the divisor is positive. -/
def v45 (y : FVec Ideal S8x64x64x512 .f32) : FVec Ideal S8x64x64x1 .f32 :=
  select (broadcastInDim S8x64x64x1 ![] bcast_S_S8x64x64x1 var_v13) (var_v12 y) where_v1

/-! ## The normalisation (main_v46 … main_v58) -/

/-- main_v46: the means at every channel. -/
def v46 (y : FVec Ideal S8x64x64x512 .f32) : FVec Ideal S8x64x64x512 .f32 :=
  broadcastInDim S8x64x64x512 ![0, 1, 2, 3] bcast_S8x64x64x1_S8x64x64x512_0_1_2_3 (v44 y)

/-- main_v47: the deviations. -/
def v47 (y : FVec Ideal S8x64x64x512 .f32) : FVec Ideal S8x64x64x512 .f32 :=
  subf y (v46 y)

/-- main_cst_8: the variance offset. -/
def cst8 : FVec Ideal S_ .f32 := constant (F := Ideal) S_ .f32 0x3727C5AC#32

/-- main_v48: the offset at every token. -/
def v48 : FVec Ideal S8x64x64x1 .f32 := broadcastInDim S8x64x64x1 ![] bcast_S_S8x64x64x1 cst8

/-- main_v49: variance plus offset. -/
def v49 (y : FVec Ideal S8x64x64x512 .f32) : FVec Ideal S8x64x64x1 .f32 :=
  addf (v45 y) v48

/-- main_v50: its square root. -/
def v50 (y : FVec Ideal S8x64x64x512 .f32) : FVec Ideal S8x64x64x1 .f32 :=
  Host.sqrt (F := Ideal) (v49 y)

/-- main_v51: the square root at every channel. -/
def v51 (y : FVec Ideal S8x64x64x512 .f32) : FVec Ideal S8x64x64x512 .f32 :=
  broadcastInDim S8x64x64x512 ![0, 1, 2, 3] bcast_S8x64x64x1_S8x64x64x512_0_1_2_3 (v50 y)

/-- main_v52: the normalised deviations. -/
def v52 (y : FVec Ideal S8x64x64x512 .f32) : FVec Ideal S8x64x64x512 .f32 :=
  Host.divf (F := Ideal) (v47 y) (v51 y)

/-- main_v53: the scale as a [1, 1, 1, 512] array. -/
def v53 (g : FVec Ideal S512 .f32) : FVec Ideal S1x1x1x512 .f32 :=
  broadcastInDim S1x1x1x512 ![3] bcast_S512_S1x1x1x512_3 g

/-- main_v54: the scale at every token. -/
def v54 (g : FVec Ideal S512 .f32) : FVec Ideal S8x64x64x512 .f32 :=
  broadcastInDim S8x64x64x512 ![0, 1, 2, 3] bcast_S1x1x1x512_S8x64x64x512_0_1_2_3 (v53 g)

/-- main_v55: scaled. -/
def v55 (y : FVec Ideal S8x64x64x512 .f32) (g : FVec Ideal S512 .f32) : FVec Ideal S8x64x64x512 .f32 :=
  mulf (v52 y) (v54 g)

/-- main_v56: the shift as a [1, 1, 1, 512] array. -/
def v56 (beta : FVec Ideal S512 .f32) : FVec Ideal S1x1x1x512 .f32 :=
  broadcastInDim S1x1x1x512 ![3] bcast_S512_S1x1x1x512_3 beta

/-- main_v57: the shift at every token. -/
def v57 (beta : FVec Ideal S512 .f32) : FVec Ideal S8x64x64x512 .f32 :=
  broadcastInDim S8x64x64x512 ![0, 1, 2, 3] bcast_S1x1x1x512_S8x64x64x512_0_1_2_3 (v56 beta)

/-- main_v58 over y = main_v40: scaled and shifted. -/
def v58 (y : FVec Ideal S8x64x64x512 .f32) (g beta : FVec Ideal S512 .f32) : FVec Ideal S8x64x64x512 .f32 :=
  addf (v55 y g) (v57 beta)

/-- main_v58: the program's result as a function of the attention output, the matrix, the bias, the scale and the
    shift. -/
def tailArr (a36 : FVec Ideal S8x64x64x512 .f32) (wout : FVec Ideal S512x512 .f32) (bo g beta : FVec Ideal S512 .f32) :
    FVec Ideal S8x64x64x512 .f32 :=
  v58 (v40 a36 wout bo) g beta

end Cert.ReferenceIdeal.RefTail

end
-- ==== Proof.RefRunTail.lean ====
/-
  What the buffers hold after the last forty-eight operations (the output projection, the bias, the variance
  function's and the selection's operations at their calls, the normalisation): the result is the last stage
  function of the attention output's and four arguments' contents, and the arguments are unchanged.
-/
import proofs.«132770_j30940944400685_2_alg».proof.Proof.RefRunOps
import proofs.«132770_j30940944400685_2_alg».proof.Proof.RefTermTail

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

set_option maxRecDepth 8192 in
theorem tail_v58 (V : Valuation τ sig (Elt Ideal)) :
    after (opsTail (F := Ideal)) V (main_v58 : DevRef τ sig)
      = RefTail.tailArr (V (main_v36 : DevRef τ sig)) (V (main_arg2 : DevRef τ sig)) (V (main_arg3 : DevRef τ sig))
          (V (main_arg4 : DevRef τ sig)) (V (main_arg5 : DevRef τ sig)) := by
  after_results_simp
  rfl

set_option maxRecDepth 8192 in
theorem tail_arg0 (V : Valuation τ sig (Elt Ideal)) :
    after (opsTail (F := Ideal)) V (main_arg0 : DevRef τ sig) = V (main_arg0 : DevRef τ sig) := by
  after_results_simp

set_option maxRecDepth 8192 in
theorem tail_arg1 (V : Valuation τ sig (Elt Ideal)) :
    after (opsTail (F := Ideal)) V (main_arg1 : DevRef τ sig) = V (main_arg1 : DevRef τ sig) := by
  after_results_simp

set_option maxRecDepth 8192 in
theorem tail_arg2 (V : Valuation τ sig (Elt Ideal)) :
    after (opsTail (F := Ideal)) V (main_arg2 : DevRef τ sig) = V (main_arg2 : DevRef τ sig) := by
  after_results_simp

set_option maxRecDepth 8192 in
theorem tail_arg3 (V : Valuation τ sig (Elt Ideal)) :
    after (opsTail (F := Ideal)) V (main_arg3 : DevRef τ sig) = V (main_arg3 : DevRef τ sig) := by
  after_results_simp

set_option maxRecDepth 8192 in
theorem tail_arg4 (V : Valuation τ sig (Elt Ideal)) :
    after (opsTail (F := Ideal)) V (main_arg4 : DevRef τ sig) = V (main_arg4 : DevRef τ sig) := by
  after_results_simp

set_option maxRecDepth 8192 in
theorem tail_arg5 (V : Valuation τ sig (Elt Ideal)) :
    after (opsTail (F := Ideal)) V (main_arg5 : DevRef τ sig) = V (main_arg5 : DevRef τ sig) := by
  after_results_simp

end Cert.ReferenceIdeal.RefRun

end
-- ==== Proof.RefTermAll.lean ====
/-
  The reference's whole pure term: the projection onto q, k, v, the linear attention over them, and the output
  projection with bias followed by the normalisation over the channels, composed.
-/
import proofs.«132770_j30940944400685_2_alg».proof.Proof.RefTermQKV
import proofs.«132770_j30940944400685_2_alg».proof.Proof.RefTermAttn
import proofs.«132770_j30940944400685_2_alg».proof.Proof.RefTermTail

noncomputable section

namespace Cert.ReferenceIdeal.RefRun

open Cert.ReferenceIdeal Cert.ReferenceIdeal.Facts₀ Idealize.ShloMosaic

variable [Cert.ReferenceIdeal.Facts]

/-- The reference's result as one function of its six argument arrays. -/
def refTerm (x : FVec Ideal S8x64x64x512 .f32) (wqkv : FVec Ideal S512x1536 .f32) (wout : FVec Ideal S512x512 .f32)
    (bo g beta : FVec Ideal S512 .f32) : FVec Ideal S8x64x64x512 .f32 :=
  RefTail.tailArr (RefAttn.attnArr (RefQKV.qArr x wqkv) (RefQKV.kArr x wqkv) (RefQKV.vArr x wqkv)) wout bo g beta

end Cert.ReferenceIdeal.RefRun

end
-- ==== Proof.RefRun.lean ====
/-
  The reference program's run, read back: every weakly fair execution of @main terminates with the result buffer
  at the composition of the three stage functions — projection, linear attention, output projection with its
  normalisation — of the six arguments' launch contents, and with the arguments unchanged. The fold over the 92
  operations is the fold over the last stretch of the fold over the second of the fold over the first, and each
  stretch's fold has been read off separately.
-/
import proofs.«132770_j30940944400685_2_alg».proof.Proof.RefRunMain
import proofs.«132770_j30940944400685_2_alg».proof.Proof.RefRunQKV
import proofs.«132770_j30940944400685_2_alg».proof.Proof.RefRunAttn
import proofs.«132770_j30940944400685_2_alg».proof.Proof.RefRunTail
import proofs.«132770_j30940944400685_2_alg».proof.Proof.RefTermAll

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- The fold over all the operations, stretch by stretch. -/
theorem after_ops (V : Valuation τ sig (Elt Ideal)) :
    after (ops (F := Ideal)) V = after opsTail (after opsAttn (after opsQKV V)) :=
  (after_append _ _ V).trans (after_append _ _ _)

theorem out_eq (V : Valuation τ sig (Elt Ideal)) :
    after (ops (F := Ideal)) V (main_v58 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [after_ops, tail_v58, attn_v36, attn_arg2, attn_arg3, attn_arg4, attn_arg5, qkv_v4, qkv_v6, qkv_v8,
    qkv_arg2, qkv_arg3, qkv_arg4, qkv_arg5]
  rfl

theorem arg0_eq (V : Valuation τ sig (Elt Ideal)) :
    after (ops (F := Ideal)) V (main_arg0 : DevRef τ sig) = V (main_arg0 : DevRef τ sig) := by
  rw [after_ops, tail_arg0, attn_arg0, qkv_arg0]

theorem arg1_eq (V : Valuation τ sig (Elt Ideal)) :
    after (ops (F := Ideal)) V (main_arg1 : DevRef τ sig) = V (main_arg1 : DevRef τ sig) := by
  rw [after_ops, tail_arg1, attn_arg1, qkv_arg1]

theorem arg2_eq (V : Valuation τ sig (Elt Ideal)) :
    after (ops (F := Ideal)) V (main_arg2 : DevRef τ sig) = V (main_arg2 : DevRef τ sig) := by
  rw [after_ops, tail_arg2, attn_arg2, qkv_arg2]

theorem arg3_eq (V : Valuation τ sig (Elt Ideal)) :
    after (ops (F := Ideal)) V (main_arg3 : DevRef τ sig) = V (main_arg3 : DevRef τ sig) := by
  rw [after_ops, tail_arg3, attn_arg3, qkv_arg3]

theorem arg4_eq (V : Valuation τ sig (Elt Ideal)) :
    after (ops (F := Ideal)) V (main_arg4 : DevRef τ sig) = V (main_arg4 : DevRef τ sig) := by
  rw [after_ops, tail_arg4, attn_arg4, qkv_arg4]

theorem arg5_eq (V : Valuation τ sig (Elt Ideal)) :
    after (ops (F := Ideal)) V (main_arg5 : DevRef τ sig) = V (main_arg5 : DevRef τ sig) := by
  rw [after_ops, tail_arg5, attn_arg5, qkv_arg5]

/-- On every device, from any memory with zero counters: every weakly fair execution of @main terminates with
    the result at `refTerm` of the arguments' launch contents and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v58) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v58).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_after m ρ)

end Cert.ReferenceIdeal.RefRun

end
-- ==== Proof.RefQKV.lean ====
/-
  The reference's queries, keys and values read at an index.

  The projection v0 is a [8,64,64,1536] array: entry (a, i, j, c) is Σₖ x(a, i, j, k) · w(k, c). The reshape to
  [8,4096,3,8,64] is row-major, so entry (b, n, s, h, d) of it is entry (b, n / 64, n % 64, s·512 + h·64 + d) of v0;
  the transpose by [2,0,3,4,1] moves it to (s, b, h, d, n); slicing part s off the leading axis and dropping that axis
  leaves entry (b, h, d, n) of the s-th array. In flat coordinates that is row b·4096 + n and column s·512 + h·64 + d of
  the projected matrix.
-/
import proofs.«132770_j30940944400685_2_alg».proof.Proof.RefTermQKV
import proofs.«132770_j30940944400685_2_alg».proof.Proof.Spec
import Idealize.ShloMosaic.Lib.ValueIdx
import Idealize.ShloMosaic.Lib.Pipeline.Value
import Idealize.ShloMosaic.PureOps.Ideal.Laws

noncomputable section

namespace Cert.ReferenceIdeal.RefQKV

open Cert.ReferenceIdeal Cert.ReferenceIdeal.Facts₀ Idealize.ShloMosaic Idealize.ShloMosaic.ValueIdx
open scoped BigOperators

variable [Cert.ReferenceIdeal.Facts]

/-! ## Positions -/

/-- Row n / 64 of the 64 × 64 grid of positions. -/
def gridRow (n : Fin 4096) : Fin 64 := ⟨n.val / 64, by have := n.isLt; omega⟩
/-- Column n % 64 of the grid. -/
def gridCol (n : Fin 4096) : Fin 64 := ⟨n.val % 64, by omega⟩

theorem rowOf_eq_flat4 (b : Fin 8) (n : Fin 4096) : Cert.Spec.rowOf b n = Cert.Spec.flat4 b (gridRow n) (gridCol n) := by
  have := b.isLt; have := n.isLt
  apply Fin.ext; simp only [Cert.Spec.flat4, Cert.Spec.rowOf, gridRow, gridCol]; omega

/-! ## The projection at an index -/

/-- Entry (a, i, j, c) of the projection is the sum over the contracted channel. -/
theorem v0_apply (x : FVec Ideal S8x64x64x512 .f32) (w : FVec Ideal S512x1536 .f32) (a : Fin 8) (i j : Fin 64) (c : Fin 1536) :
    v0 x w (ix4 a i j c) = ∑ k : Fin 512, x (ix4 a i j k) * w (ix2 k c) := by
  unfold v0
  show FloatOps.dotGeneral _ none _ x w (ix4 a i j c) = _
  rw [Ideal.dotGeneral_apply, ← Equiv.sum_comp (contrEquiv1 dot_S8x64x64x512_S512x1536_S8x64x64x1536_3_0_012_1_n_n 512 rfl rfl).symm]
  refine Finset.sum_congr rfl fun k _ => ?_
  have ck := contrEquiv1_symm_val dot_S8x64x64x512_S512x1536_S8x64x64x1536_3_0_012_1_n_n 512 rfl rfl k
  have l : (dot_S8x64x64x512_S512x1536_S8x64x64x1536_3_0_012_1_n_n).lhsIdx (ix4 a i j c) ((contrEquiv1 _ 512 rfl rfl).symm k) = ix4 a i j k := by
    funext ax; apply Fin.ext
    match ax with
    | ⟨0, _⟩ => simp [DotDims.lhsIdx, dot_S8x64x64x512_S512x1536_S8x64x64x1536_3_0_012_1_n_n]; rfl
    | ⟨1, _⟩ => simp [DotDims.lhsIdx, dot_S8x64x64x512_S512x1536_S8x64x64x1536_3_0_012_1_n_n]; rfl
    | ⟨2, _⟩ => simp [DotDims.lhsIdx, dot_S8x64x64x512_S512x1536_S8x64x64x1536_3_0_012_1_n_n]; rfl
    | ⟨3, _⟩ => simp [DotDims.lhsIdx, dot_S8x64x64x512_S512x1536_S8x64x64x1536_3_0_012_1_n_n]; exact ck
  have r : (dot_S8x64x64x512_S512x1536_S8x64x64x1536_3_0_012_1_n_n).rhsIdx (ix4 a i j c) ((contrEquiv1 _ 512 rfl rfl).symm k) = ix2 k c := by
    funext ax; apply Fin.ext
    match ax with
    | ⟨0, _⟩ => simp [DotDims.rhsIdx, dot_S8x64x64x512_S512x1536_S8x64x64x1536_3_0_012_1_n_n]; exact ck
    | ⟨1, _⟩ => simp [DotDims.rhsIdx, dot_S8x64x64x512_S512x1536_S8x64x64x1536_3_0_012_1_n_n]; rfl
  rw [l, r]

/-- The same in flat coordinates: row b·4096 + n, column c of the projected matrix. -/
theorem v0_apply_flat (x : FVec Ideal S8x64x64x512 .f32) (w : FVec Ideal S512x1536 .f32) (b : Fin 8) (n : Fin 4096) (c : Fin 1536) :
    v0 x w (ix4 b (gridRow n) (gridCol n) c)
      = Cert.Spec.qkvS (Cert.Spec.unflat (Cert.Spec.cur4 x)) (Cert.Spec.cur2 w) (Cert.Spec.rowOf b n) c := by
  rw [v0_apply, rowOf_eq_flat4]
  unfold Cert.Spec.qkvS
  refine Finset.sum_congr rfl fun k _ => ?_
  rw [Cert.Spec.unflat_flat4]
  rfl

/-! ## The reshape and the transpose at an index -/

/-- Entry (b, n, s, h, d) of the reshaped array is entry (b, n / 64, n % 64, s·512 + h·64 + d) of the projection. -/
theorem v1_apply (x : FVec Ideal S8x64x64x512 .f32) (w : FVec Ideal S512x1536 .f32)
    (b : Fin 8) (n : Fin 4096) (s : Fin 3) (h : Fin 8) (d : Fin 64) :
    v1 x w (ix5 b n s h d) = v0 x w (ix4 b (gridRow n) (gridCol n) (Cert.Spec.colOf s h d)) := by
  unfold v1
  refine shapeCast_apply _ _ _ _ ?_
  rw [Shape.rowMajor_val_four, Shape.rowMajor_val_five]
  have := b.isLt; have := n.isLt; have := s.isLt; have := h.isLt; have := d.isLt
  show ((b.val * 64 + n.val / 64) * 64 + n.val % 64) * 1536 + (s.val * 512 + h.val * 64 + d.val)
      = (((b.val * 4096 + n.val) * 3 + s.val) * 8 + h.val) * 64 + d.val
  omega

/-- Entry (s, b, h, d, n) of the transposed array is entry (b, n, s, h, d) of the reshaped one. -/
theorem v2_apply (x : FVec Ideal S8x64x64x512 .f32) (w : FVec Ideal S512x1536 .f32)
    (s : Fin 3) (b h : Fin 8) (d : Fin 64) (n : Fin 4096) :
    v2 x w (ix5 s b h d n) = v1 x w (ix5 b n s h d) := by
  unfold v2
  refine transpose_apply _ _ _ _ _ fun a => ?_
  match a with
  | ⟨0, _⟩ => rfl
  | ⟨1, _⟩ => rfl
  | ⟨2, _⟩ => rfl
  | ⟨3, _⟩ => rfl
  | ⟨4, _⟩ => rfl

/-- Part s of the transposed array, at (b, h, d, n), is the projected matrix at row (b, n) and column (s, h, d). -/
theorem v2_apply_flat (x : FVec Ideal S8x64x64x512 .f32) (w : FVec Ideal S512x1536 .f32)
    (s : Fin 3) (b h : Fin 8) (d : Fin 64) (n : Fin 4096) :
    v2 x w (ix5 s b h d n)
      = Cert.Spec.qkvS (Cert.Spec.unflat (Cert.Spec.cur4 x)) (Cert.Spec.cur2 w) (Cert.Spec.rowOf b n) (Cert.Spec.colOf s h d) := by
  rw [v2_apply, v1_apply, v0_apply_flat]

/-! ## The three slices -/

/-- Dropping the leading axis of length one: entry (b, h, d, n) is entry (0, b, h, d, n). -/
theorem dropLead_apply (y : FVec Ideal S1x8x8x64x4096 .f32) (hc : S1x8x8x64x4096.ShapeCasts S8x8x64x4096)
    (b h : Fin 8) (d : Fin 64) (n : Fin 4096) :
    shapeCast S8x8x64x4096 y hc (ix4 b h d n) = y (ix5 (0 : Fin 1) b h d n) := by
  refine shapeCast_apply _ _ _ _ ?_
  rw [Shape.rowMajor_val_four, Shape.rowMajor_val_five]
  show ((((0 * 8 + b.val) * 8 + h.val) * 64 + d.val) * 4096 + n.val) = ((b.val * 8 + h.val) * 64 + d.val) * 4096 + n.val
  omega

/-- Part s sliced off the leading axis: entry (0, b, h, d, n) of the slice is entry (s, b, h, d, n). -/
theorem slice_apply (y : FVec Ideal S3x8x8x64x4096 .f32) (s : Fin 3) (off : Fin 5 → Nat)
    (hoff : off = ![s.val, 0, 0, 0, 0]) (hs : S3x8x8x64x4096.Slices off S1x8x8x64x4096)
    (b h : Fin 8) (d : Fin 64) (n : Fin 4096) :
    extractStridedSlice S1x8x8x64x4096 off y hs (ix5 (0 : Fin 1) b h d n) = y (ix5 s b h d n) := by
  subst hoff
  refine extractStridedSlice_apply _ _ _ _ _ fun a => ?_
  match a with
  | ⟨0, _⟩ => show s.val = s.val + 0; omega
  | ⟨1, _⟩ => show b.val = 0 + b.val; omega
  | ⟨2, _⟩ => show h.val = 0 + h.val; omega
  | ⟨3, _⟩ => show d.val = 0 + d.val; omega
  | ⟨4, _⟩ => show n.val = 0 + n.val; omega

/-- The queries: part 0. -/
theorem qArr_apply (x : FVec Ideal S8x64x64x512 .f32) (w : FVec Ideal S512x1536 .f32) (b h : Fin 8) (d : Fin 64) (n : Fin 4096) :
    qArr x w (ValueIdx.ix4 b h d n)
      = Cert.Spec.qkvS (Cert.Spec.unflat (Cert.Spec.cur4 x)) (Cert.Spec.cur2 w) (Cert.Spec.rowOf b n) (Cert.Spec.colOf 0 h d) := by
  unfold qArr v3
  rw [dropLead_apply, slice_apply (v2 x w) 0 ![0, 0, 0, 0, 0] rfl, v2_apply_flat]

/-- The keys: part 1. -/
theorem kArr_apply (x : FVec Ideal S8x64x64x512 .f32) (w : FVec Ideal S512x1536 .f32) (b h : Fin 8) (d : Fin 64) (n : Fin 4096) :
    kArr x w (ValueIdx.ix4 b h d n)
      = Cert.Spec.qkvS (Cert.Spec.unflat (Cert.Spec.cur4 x)) (Cert.Spec.cur2 w) (Cert.Spec.rowOf b n) (Cert.Spec.colOf 1 h d) := by
  unfold kArr v5
  rw [dropLead_apply, slice_apply (v2 x w) 1 ![1, 0, 0, 0, 0] rfl, v2_apply_flat]

/-- The values: part 2. -/
theorem vArr_apply (x : FVec Ideal S8x64x64x512 .f32) (w : FVec Ideal S512x1536 .f32) (b h : Fin 8) (d : Fin 64) (n : Fin 4096) :
    vArr x w (ValueIdx.ix4 b h d n)
      = Cert.Spec.qkvS (Cert.Spec.unflat (Cert.Spec.cur4 x)) (Cert.Spec.cur2 w) (Cert.Spec.rowOf b n) (Cert.Spec.colOf 2 h d) := by
  unfold vArr v7
  rw [dropLead_apply, slice_apply (v2 x w) 2 ![2, 0, 0, 0, 0] rfl, v2_apply_flat]

end Cert.ReferenceIdeal.RefQKV

end
-- ==== Proof.RefAttnDot.lean ====
/-
  The two products of the reference's attention, read at an index.  Both are batched over the image and the
  head (axes 0 and 1) and contract one axis: the first the tokens (axis 3 of both operands), the second the
  key features (axis 2 of both operands).
-/
import proofs.«132770_j30940944400685_2_alg».proof.Proof.RefTermAttn
import Idealize.ShloMosaic.Lib.ValueIdx
import Idealize.ShloMosaic.PureOps.Ideal.Laws

noncomputable section

namespace Cert.ReferenceIdeal.RefAttn

open Cert.ReferenceIdeal Cert.ReferenceIdeal.Facts₀ Idealize.ShloMosaic Idealize.ShloMosaic.ValueIdx
open scoped BigOperators

variable [Cert.ReferenceIdeal.Facts]

/-- The product contracting the tokens: at (image a, head h, d, e) the sum over the tokens m of
    K(a, h, d, m) · V(a, h, e, m). -/
theorem dotTok_apply (K V : FVec Ideal S8x8x64x4096 .f32) (a h : Fin 8) (d e : Fin 64) :
    Host.dotGeneral (F := Ideal) dot_S8x8x64x4096_S8x8x64x4096_S8x8x64x64_3_3_2_2_01_01 none K V (ix4 a h d e)
      = ∑ m : Fin 4096, K (ix4 a h d m) * V (ix4 a h e m) := by
  show FloatOps.dotGeneral _ none _ K V (ix4 a h d e) = _
  rw [Ideal.dotGeneral_apply,
    ← Equiv.sum_comp (contrEquiv1 dot_S8x8x64x4096_S8x8x64x4096_S8x8x64x64_3_3_2_2_01_01 4096 rfl rfl).symm]
  refine Finset.sum_congr rfl fun c _ => ?_
  have c3 := contrEquiv1_symm_val dot_S8x8x64x4096_S8x8x64x4096_S8x8x64x64_3_3_2_2_01_01 4096 rfl rfl c
  have l3 : dot_S8x8x64x4096_S8x8x64x4096_S8x8x64x64_3_3_2_2_01_01.lhsIdx (ix4 a h d e)
      ((contrEquiv1 _ 4096 rfl rfl).symm c) = ix4 a h d c := by
    funext ax; apply Fin.ext
    match ax with
    | ⟨0, _⟩ => simp [DotDims.lhsIdx, dot_S8x8x64x4096_S8x8x64x4096_S8x8x64x64_3_3_2_2_01_01]; rfl
    | ⟨1, _⟩ => simp [DotDims.lhsIdx, dot_S8x8x64x4096_S8x8x64x4096_S8x8x64x64_3_3_2_2_01_01]; rfl
    | ⟨2, _⟩ => simp [DotDims.lhsIdx, dot_S8x8x64x4096_S8x8x64x4096_S8x8x64x64_3_3_2_2_01_01]; rfl
    | ⟨3, _⟩ => simp [DotDims.lhsIdx, dot_S8x8x64x4096_S8x8x64x4096_S8x8x64x64_3_3_2_2_01_01]; exact c3
  have r3 : dot_S8x8x64x4096_S8x8x64x4096_S8x8x64x64_3_3_2_2_01_01.rhsIdx (ix4 a h d e)
      ((contrEquiv1 _ 4096 rfl rfl).symm c) = ix4 a h e c := by
    funext ax; apply Fin.ext
    match ax with
    | ⟨0, _⟩ => simp [DotDims.rhsIdx, dot_S8x8x64x4096_S8x8x64x4096_S8x8x64x64_3_3_2_2_01_01]; rfl
    | ⟨1, _⟩ => simp [DotDims.rhsIdx, dot_S8x8x64x4096_S8x8x64x4096_S8x8x64x64_3_3_2_2_01_01]; rfl
    | ⟨2, _⟩ => simp [DotDims.rhsIdx, dot_S8x8x64x4096_S8x8x64x4096_S8x8x64x64_3_3_2_2_01_01]; rfl
    | ⟨3, _⟩ => simp [DotDims.rhsIdx, dot_S8x8x64x4096_S8x8x64x4096_S8x8x64x64_3_3_2_2_01_01]; exact c3
  rw [l3, r3]

/-- The product contracting the key features: at (image a, head h, e, token n) the sum over the features d of
    C(a, h, d, e) · Q(a, h, d, n). -/
theorem dotFeat_apply (C : FVec Ideal S8x8x64x64 .f32) (Q : FVec Ideal S8x8x64x4096 .f32) (a h : Fin 8) (e : Fin 64)
    (n : Fin 4096) :
    Host.dotGeneral (F := Ideal) dot_S8x8x64x64_S8x8x64x4096_S8x8x64x4096_2_2_3_3_01_01 none C Q (ix4 a h e n)
      = ∑ d : Fin 64, C (ix4 a h d e) * Q (ix4 a h d n) := by
  show FloatOps.dotGeneral _ none _ C Q (ix4 a h e n) = _
  rw [Ideal.dotGeneral_apply,
    ← Equiv.sum_comp (contrEquiv1 dot_S8x8x64x64_S8x8x64x4096_S8x8x64x4096_2_2_3_3_01_01 64 rfl rfl).symm]
  refine Finset.sum_congr rfl fun c _ => ?_
  have c3 := contrEquiv1_symm_val dot_S8x8x64x64_S8x8x64x4096_S8x8x64x4096_2_2_3_3_01_01 64 rfl rfl c
  have l3 : dot_S8x8x64x64_S8x8x64x4096_S8x8x64x4096_2_2_3_3_01_01.lhsIdx (ix4 a h e n)
      ((contrEquiv1 _ 64 rfl rfl).symm c) = ix4 a h c e := by
    funext ax; apply Fin.ext
    match ax with
    | ⟨0, _⟩ => simp [DotDims.lhsIdx, dot_S8x8x64x64_S8x8x64x4096_S8x8x64x4096_2_2_3_3_01_01]; rfl
    | ⟨1, _⟩ => simp [DotDims.lhsIdx, dot_S8x8x64x64_S8x8x64x4096_S8x8x64x4096_2_2_3_3_01_01]; rfl
    | ⟨2, _⟩ => simp [DotDims.lhsIdx, dot_S8x8x64x64_S8x8x64x4096_S8x8x64x4096_2_2_3_3_01_01]; exact c3
    | ⟨3, _⟩ => simp [DotDims.lhsIdx, dot_S8x8x64x64_S8x8x64x4096_S8x8x64x4096_2_2_3_3_01_01]; rfl
  have r3 : dot_S8x8x64x64_S8x8x64x4096_S8x8x64x4096_2_2_3_3_01_01.rhsIdx (ix4 a h e n)
      ((contrEquiv1 _ 64 rfl rfl).symm c) = ix4 a h c n := by
    funext ax; apply Fin.ext
    match ax with
    | ⟨0, _⟩ => simp [DotDims.rhsIdx, dot_S8x8x64x64_S8x8x64x4096_S8x8x64x4096_2_2_3_3_01_01]; rfl
    | ⟨1, _⟩ => simp [DotDims.rhsIdx, dot_S8x8x64x64_S8x8x64x4096_S8x8x64x4096_2_2_3_3_01_01]; rfl
    | ⟨2, _⟩ => simp [DotDims.rhsIdx, dot_S8x8x64x64_S8x8x64x4096_S8x8x64x4096_2_2_3_3_01_01]; exact c3
    | ⟨3, _⟩ => simp [DotDims.rhsIdx, dot_S8x8x64x64_S8x8x64x4096_S8x8x64x4096_2_2_3_3_01_01]; rfl
  rw [l3, r3]

end Cert.ReferenceIdeal.RefAttn

end
-- ==== Proof.RefAttnLayout.lean ====
/-
  The last two operations of the reference's attention, read at an index: the transposition
  [image, head, feature, token] → [image, token, head, feature] and the row-major cast to
  [image, row, column, head · 64 + feature], the token being row · 64 + column.
-/
import proofs.«132770_j30940944400685_2_alg».proof.Proof.RefTermAttn
import proofs.«132770_j30940944400685_2_alg».proof.Proof.Spec
import Idealize.ShloMosaic.Lib.ValueIdx
import Idealize.ShloMosaic.Lib.Pipeline.Value

noncomputable section

namespace Cert.ReferenceIdeal.RefAttn

open Cert.ReferenceIdeal Cert.ReferenceIdeal.Facts₀ Idealize.ShloMosaic Idealize.ShloMosaic.ValueIdx

variable [Cert.ReferenceIdeal.Facts]

/-- The transposition by [0, 3, 1, 2] reads, at (a, n, h, e), the operand at (a, h, e, n). -/
theorem transpose_0312_apply {α : Type} (x : S8x8x64x4096.Idx → α) (hT : S8x8x64x4096.Transposes [0, 3, 1, 2] S8x4096x8x64)
    (a : Fin 8) (n : Fin 4096) (h : Fin 8) (e : Fin 64) :
    transpose S8x4096x8x64 [0, 3, 1, 2] x hT (ix4 a n h e) = x (ix4 a h e n) :=
  transpose_apply _ x hT _ _ fun c => match c with
    | ⟨0, _⟩ => rfl | ⟨1, _⟩ => rfl | ⟨2, _⟩ => rfl | ⟨3, _⟩ => rfl

/-- The cast [8, 4096, 8, 64] → [8, 64, 64, 512] reads, at (a, i, j, h · 64 + e), the operand at
    (a, i · 64 + j, h, e): both sit at the same row-major position. -/
theorem shapeCast_tok_apply {α : Type} (x : S8x4096x8x64.Idx → α) (hC : S8x4096x8x64.ShapeCasts S8x64x64x512)
    (a : Fin 8) (i j : Fin 64) (h : Fin 8) (e : Fin 64) :
    shapeCast S8x64x64x512 x hC (ix4 a i j (Cert.Spec.ocolOf h e)) = x (ix4 a (Cert.Spec.tokOf i j) h e) :=
  shapeCast_apply x hC _ _ (by
    rw [Shape.rowMajor_val_four, Shape.rowMajor_val_four]
    show ((a.val * 4096 + (i.val * 64 + j.val)) * 8 + h.val) * 64 + e.val
      = ((a.val * 64 + i.val) * 64 + j.val) * 512 + (h.val * 64 + e.val)
    omega)

/-- The attention array at (a, i, j, h · 64 + e) is the second product at (a, h, e, i · 64 + j). -/
theorem attnArr_eq_outHF (q k v : FVec Ideal S8x8x64x4096 .f32) (a : Fin 8) (i j : Fin 64) (h : Fin 8) (e : Fin 64) :
    attnArr q k v (ix4 a i j (Cert.Spec.ocolOf h e)) = outHF q k v (ix4 a h e (Cert.Spec.tokOf i j)) := by
  unfold attnArr outT
  generalize outHF q k v = O
  rw [shapeCast_tok_apply, transpose_0312_apply]

end Cert.ReferenceIdeal.RefAttn

end
-- ==== Proof.RefAttnReduce.lean ====
/-
  The four reductions of the reference's two softmaxes, read at an index: the maximum from −∞ and the sum
  from 0 of a [image, head, feature, token] array over its features (axis 2) and over its tokens (axis 3).
-/
import proofs.«132770_j30940944400685_2_alg».proof.Proof.RefTermAttn
import proofs.«132770_j30940944400685_2_alg».proof.Proof.Spec
import Idealize.ShloMosaic.Lib.ValueIdx
import Idealize.ShloMosaic.PureOps.Ideal.Laws

noncomputable section

namespace Cert.ReferenceIdeal.RefAttn

open Cert.ReferenceIdeal Cert.ReferenceIdeal.Facts₀ Idealize.ShloMosaic Idealize.ShloMosaic.ValueIdx
open scoped BigOperators

/-- The rank-zero −∞ reads −∞. -/
theorem cNegInf_apply (i : S_.Idx) : cNegInf i = Cert.Spec.negInf := rfl
/-- The rank-zero 0 reads 0. -/
theorem cZero_apply (i : S_.Idx) : cZero i = 0 := Ideal.ofBits_zero_f32
/-- The rank-zero 1/8 reads 1/8. -/
theorem cEighth_apply (i : S_.Idx) : cEighth i = Cert.Spec.eighth := rfl

/-- −∞ is the least extended real. -/
theorem negInf_eq_bot : Cert.Spec.negInf = ⊥ := by
  unfold Cert.Spec.negInf; simp [Ideal.ofBits, Ideal.ieee]

/-- The maximum with −∞ is the other operand. -/
theorem max_negInf (y : EReal) : max Cert.Spec.negInf y = y := by
  rw [negInf_eq_bot]; exact max_eq_right bot_le

/-! ## Over the features -/

/-- The index (a, h, n) with feature d put back on axis 2 is (a, h, d, n). -/
theorem liftFeat (hR : S8x8x64x4096.Reduces [2] S8x8x4096) (a h : Fin 8) (n : Fin 4096)
    (d : Fin (S8x8x64x4096.size 2)) : hR.lift (ix3 a h n) d = ix4 a h (⟨d.val, d.isLt⟩ : Fin 64) n := by
  funext c; apply Fin.ext
  fin_cases c <;> rfl

/-- The maximum over the features from −∞. -/
theorem maxFeat_apply (x : FVec Ideal S8x8x64x4096 .f32) (h' : S8x8x64x4096.ReducesTo [2] S8x8x4096)
    (hu : 0 < S_.numel) (a h : Fin 8) (n : Fin 4096) :
    Host.reduce (FloatOps.maximumf (F := Ideal)) x cNegInf h' hu (ix3 a h n)
      = Cert.Spec.maxOver (fun d : Fin 64 => x (ix4 a h d n)) := by
  have hR : S8x8x64x4096.Reduces [2] S8x8x4096 := by decide
  rw [Host.reduce_eq_fold_single FloatOps.maximumf x _ h' hR hu]
  have hf : (x ∘ hR.lift (ix3 a h n)) = fun d : Fin 64 => x (ix4 a h d n) :=
    funext fun d => congrArg x (liftFeat hR a h n d)
  exact congrArg (fun f => Finset.fold max Cert.Spec.negInf f (Finset.univ : Finset (Fin 64))) hf

/-- The sum over the features from 0. -/
theorem sumFeat_apply (x : FVec Ideal S8x8x64x4096 .f32) (h' : S8x8x64x4096.ReducesTo [2] S8x8x4096)
    (hu : 0 < S_.numel) (a h : Fin 8) (n : Fin 4096) :
    Host.reduceAdd (F := Ideal) x cZero h' hu (ix3 a h n) = ∑ d : Fin 64, x (ix4 a h d n) := by
  have hR : S8x8x64x4096.Reduces [2] S8x8x4096 := by decide
  show Ideal.hostReduceAdd h' x (cZero (Shape.Idx.first hu)) (ix3 a h n) = _
  rw [Ideal.hostReduceAdd_single h' hR, cZero_apply, zero_add]
  exact Finset.sum_congr rfl fun d _ => congrArg x (liftFeat hR a h n d)

/-! ## Over the tokens -/

/-- The index (a, h, d) with token m put back on axis 3 is (a, h, d, m). -/
theorem liftTok (hR : S8x8x64x4096.Reduces [3] S8x8x64) (a h : Fin 8) (d : Fin 64)
    (m : Fin (S8x8x64x4096.size 3)) : hR.lift (ix3 a h d) m = ix4 a h d (⟨m.val, m.isLt⟩ : Fin 4096) := by
  funext c; apply Fin.ext
  fin_cases c <;> rfl

/-- The maximum over the tokens from −∞. -/
theorem maxTok_apply (x : FVec Ideal S8x8x64x4096 .f32) (h' : S8x8x64x4096.ReducesTo [3] S8x8x64)
    (hu : 0 < S_.numel) (a h : Fin 8) (d : Fin 64) :
    Host.reduce (FloatOps.maximumf (F := Ideal)) x cNegInf h' hu (ix3 a h d)
      = Cert.Spec.maxOver (fun m : Fin 4096 => x (ix4 a h d m)) := by
  have hR : S8x8x64x4096.Reduces [3] S8x8x64 := by decide
  rw [Host.reduce_eq_fold_single FloatOps.maximumf x _ h' hR hu]
  have hf : (x ∘ hR.lift (ix3 a h d)) = fun m : Fin 4096 => x (ix4 a h d m) :=
    funext fun m => congrArg x (liftTok hR a h d m)
  exact congrArg (fun f => Finset.fold max Cert.Spec.negInf f (Finset.univ : Finset (Fin 4096))) hf

/-- The sum over the tokens from 0. -/
theorem sumTok_apply (x : FVec Ideal S8x8x64x4096 .f32) (h' : S8x8x64x4096.ReducesTo [3] S8x8x64)
    (hu : 0 < S_.numel) (a h : Fin 8) (d : Fin 64) :
    Host.reduceAdd (F := Ideal) x cZero h' hu (ix3 a h d) = ∑ m : Fin 4096, x (ix4 a h d m) := by
  have hR : S8x8x64x4096.Reduces [3] S8x8x64 := by decide
  show Ideal.hostReduceAdd h' x (cZero (Shape.Idx.first hu)) (ix3 a h d) = _
  rw [Ideal.hostReduceAdd_single h' hR, cZero_apply, zero_add]
  exact Finset.sum_congr rfl fun m _ => congrArg x (liftTok hR a h d m)

end Cert.ReferenceIdeal.RefAttn

end
-- ==== Proof.RefAttnSoft.lean ====
/-
  The reference's two softmaxes read at an index: of q over the features of a token, of k over the tokens of a
  feature.  Each is exp(x − max x) / Σ exp(x − max x) along its axis, the maximum started from −∞ (and taken once
  more with −∞, which changes nothing) and the sum started from 0.
-/
import proofs.«132770_j30940944400685_2_alg».proof.Proof.RefAttnReduce
import Idealize.ShloMosaic.Lib.Pipeline.Value

noncomputable section

namespace Cert.ReferenceIdeal.RefAttn

open Cert.ReferenceIdeal Cert.ReferenceIdeal.Facts₀ Idealize.ShloMosaic Idealize.ShloMosaic.ValueIdx
open scoped BigOperators

variable [Cert.ReferenceIdeal.Facts]

/-! ## Pointwise host operations at an index -/

theorem hostDivf_apply {s : Shape} {φ : FTy} (x y : FVec Ideal s φ) (i : s.Idx) :
    Host.divf (F := Ideal) x y i = Ideal.div (x i) (y i) := rfl
theorem hostExp_apply {s : Shape} {φ : FTy} (x : FVec Ideal s φ) (i : s.Idx) :
    Host.exp (F := Ideal) x i = Ideal.exp (x i) := rfl

/-! ## The keepdims broadcasts -/

/-- [8, 8, 4096] → [8, 8, 1, 4096] → [8, 8, 64, 4096] reads, at (a, h, d, n), the operand at (a, h, n). -/
theorem bcastFeat_apply {α : Type} (y : S8x8x4096.Idx → α)
    (h1 : S8x8x4096.BroadcastsInDim S8x8x1x4096 (![0, 1, 3] : Fin 3 → Fin S8x8x1x4096.rank))
    (h2 : S8x8x1x4096.BroadcastsInDim S8x8x64x4096 (![0, 1, 2, 3] : Fin 4 → Fin S8x8x64x4096.rank))
    (a h : Fin 8) (d : Fin 64) (n : Fin 4096) :
    broadcastInDim S8x8x64x4096 ![0, 1, 2, 3] h2 (broadcastInDim S8x8x1x4096 ![0, 1, 3] h1 y) (ix4 a h d n)
      = y (ix3 a h n) := by
  refine (broadcastInDim_apply _ h2 _ (ix4 a h d n) (ix4 a h (0 : Fin 1) n) fun ax => ?_).trans ?_
  · match ax with
    | ⟨0, _⟩ => rfl
    | ⟨1, _⟩ => rfl
    | ⟨2, _⟩ => rfl
    | ⟨3, _⟩ => rfl
  · refine broadcastInDim_apply _ h1 y (ix4 a h (0 : Fin 1) n) (ix3 a h n) fun ax => ?_
    match ax with
    | ⟨0, _⟩ => rfl
    | ⟨1, _⟩ => rfl
    | ⟨2, _⟩ => rfl

/-- [8, 8, 64] → [8, 8, 64, 1] → [8, 8, 64, 4096] reads, at (a, h, d, m), the operand at (a, h, d). -/
theorem bcastTok_apply {α : Type} (y : S8x8x64.Idx → α)
    (h1 : S8x8x64.BroadcastsInDim S8x8x64x1 (![0, 1, 2] : Fin 3 → Fin S8x8x64x1.rank))
    (h2 : S8x8x64x1.BroadcastsInDim S8x8x64x4096 (![0, 1, 2, 3] : Fin 4 → Fin S8x8x64x4096.rank))
    (a h : Fin 8) (d : Fin 64) (m : Fin 4096) :
    broadcastInDim S8x8x64x4096 ![0, 1, 2, 3] h2 (broadcastInDim S8x8x64x1 ![0, 1, 2] h1 y) (ix4 a h d m)
      = y (ix3 a h d) := by
  refine (broadcastInDim_apply _ h2 _ (ix4 a h d m) (ix4 a h d (0 : Fin 1)) fun ax => ?_).trans ?_
  · match ax with
    | ⟨0, _⟩ => rfl
    | ⟨1, _⟩ => rfl
    | ⟨2, _⟩ => rfl
    | ⟨3, _⟩ => rfl
  · refine broadcastInDim_apply _ h1 y (ix4 a h d (0 : Fin 1)) (ix3 a h d) fun ax => ?_
    match ax with
    | ⟨0, _⟩ => rfl
    | ⟨1, _⟩ => rfl
    | ⟨2, _⟩ => rfl

/-! ## The softmax of q over the features -/

/-- The broadcast maximum at (a, h, d, n) is the maximum of q(a, h, ·, n). -/
theorem qMaxB_apply (q : FVec Ideal S8x8x64x4096 .f32) (a h : Fin 8) (d : Fin 64) (n : Fin 4096) :
    qMaxB q (ix4 a h d n) = Cert.Spec.maxOver (fun d' : Fin 64 => q (ix4 a h d' n)) := by
  unfold qMaxB qMaxK
  rw [bcastFeat_apply]
  unfold qMax
  rw [maximumf_apply]
  have e : qNegInf (ix3 a h n) = Cert.Spec.negInf := rfl
  rw [e, max_negInf]
  unfold qMax0
  exact maxFeat_apply q _ _ a h n

/-- The exponential at (a, h, d, n). -/
theorem qExp_apply (q : FVec Ideal S8x8x64x4096 .f32) (a h : Fin 8) (d : Fin 64) (n : Fin 4096) :
    qExp q (ix4 a h d n)
      = Ideal.exp (q (ix4 a h d n) - Cert.Spec.maxOver (fun d' : Fin 64 => q (ix4 a h d' n))) := by
  unfold qExp qSub
  rw [hostExp_apply, subf_apply, qMaxB_apply]

/-- The softmax of q at (a, h, d, n) is the softmax of q(a, h, ·, n) at d. -/
theorem qSoft_apply (q : FVec Ideal S8x8x64x4096 .f32) (a h : Fin 8) (d : Fin 64) (n : Fin 4096) :
    qSoft q (ix4 a h d n) = Cert.Spec.softmax (fun d' : Fin 64 => q (ix4 a h d' n)) d := by
  unfold qSoft
  rw [hostDivf_apply, qExp_apply]
  unfold qSumB qSumK
  rw [bcastFeat_apply]
  unfold qSum
  rw [sumFeat_apply]
  unfold Cert.Spec.softmax
  refine congrArg (Ideal.div _) ?_
  exact Finset.sum_congr rfl fun d' _ => qExp_apply q a h d' n

/-! ## The softmax of k over the tokens -/

/-- The broadcast maximum at (a, h, d, m) is the maximum of k(a, h, d, ·). -/
theorem kMaxB_apply (k : FVec Ideal S8x8x64x4096 .f32) (a h : Fin 8) (d : Fin 64) (m : Fin 4096) :
    kMaxB k (ix4 a h d m) = Cert.Spec.maxOver (fun m' : Fin 4096 => k (ix4 a h d m')) := by
  unfold kMaxB kMaxK
  rw [bcastTok_apply]
  unfold kMax
  rw [maximumf_apply]
  have e : kNegInf (ix3 a h d) = Cert.Spec.negInf := rfl
  rw [e, max_negInf]
  unfold kMax0
  exact maxTok_apply k _ _ a h d

/-- The exponential at (a, h, d, m). -/
theorem kExp_apply (k : FVec Ideal S8x8x64x4096 .f32) (a h : Fin 8) (d : Fin 64) (m : Fin 4096) :
    kExp k (ix4 a h d m)
      = Ideal.exp (k (ix4 a h d m) - Cert.Spec.maxOver (fun m' : Fin 4096 => k (ix4 a h d m'))) := by
  unfold kExp kSub
  rw [hostExp_apply, subf_apply, kMaxB_apply]

/-- The softmax of k at (a, h, d, m) is the softmax of k(a, h, d, ·) at m. -/
theorem kSoft_apply (k : FVec Ideal S8x8x64x4096 .f32) (a h : Fin 8) (d : Fin 64) (m : Fin 4096) :
    kSoft k (ix4 a h d m) = Cert.Spec.softmax (fun m' : Fin 4096 => k (ix4 a h d m')) m := by
  unfold kSoft
  rw [hostDivf_apply, kExp_apply]
  unfold kSumB kSumK
  rw [bcastTok_apply]
  unfold kSum
  rw [sumTok_apply]
  unfold Cert.Spec.softmax
  refine congrArg (Ideal.div _) ?_
  exact Finset.sum_congr rfl fun m' _ => kExp_apply k a h d m'

end Cert.ReferenceIdeal.RefAttn

end
-- ==== Proof.RefAttn.lean ====
/-
  The reference's attention read at an index, and as the specification's function.  At (image a, row i,
  column j, channel h · 64 + e) the array holds, for token n = i · 64 + j,
  Σ_d ctx(d, e) · (q̂(n, d) · 1/8) with ctx(d, e) = Σₘ k̂(m, d) · v(m, e); the specification writes the same
  product with the query factor first.
-/
import proofs.«132770_j30940944400685_2_alg».proof.Proof.RefAttnDot
import proofs.«132770_j30940944400685_2_alg».proof.Proof.RefAttnLayout
import proofs.«132770_j30940944400685_2_alg».proof.Proof.RefAttnSoft

noncomputable section

namespace Cert.ReferenceIdeal.RefAttn

open Cert.ReferenceIdeal Cert.ReferenceIdeal.Facts₀ Idealize.ShloMosaic Idealize.ShloMosaic.ValueIdx
open scoped BigOperators

variable [Cert.ReferenceIdeal.Facts]

/-- The scaled query softmax at (a, h, d, n). -/
theorem qScaled_apply (q : FVec Ideal S8x8x64x4096 .f32) (a h : Fin 8) (d : Fin 64) (n : Fin 4096) :
    qScaled q (ix4 a h d n) = Cert.Spec.softmax (fun d' : Fin 64 => q (ix4 a h d' n)) d * Cert.Spec.eighth := by
  unfold qScaled
  have e : eighthB (ix4 a h d n) = Cert.Spec.eighth := rfl
  rw [mulf_apply, qSoft_apply, e]

/-- The context at (a, h, d, e): Σₘ k̂(m, d) · v(m, e). -/
theorem ctx_apply (k v : FVec Ideal S8x8x64x4096 .f32) (a h : Fin 8) (d e : Fin 64) :
    ctx k v (ix4 a h d e)
      = ∑ m : Fin 4096, Cert.Spec.softmax (fun m' : Fin 4096 => k (ix4 a h d m')) m * v (ix4 a h e m) := by
  unfold ctx
  rw [dotTok_apply]
  exact Finset.sum_congr rfl fun m _ => by rw [kSoft_apply]

/-- The attention array at (a, i, j, h · 64 + e) is the head's attention of the token (i, j) at feature e. -/
theorem attnArr_apply (q k v : FVec Ideal S8x8x64x4096 .f32) (a : Fin 8) (i j : Fin 64) (h : Fin 8) (e : Fin 64) :
    attnArr q k v (ValueIdx.ix4 a i j (Cert.Spec.ocolOf h e))
      = Cert.Spec.attnHead (fun m d => q (ValueIdx.ix4 a h d m)) (fun m d => k (ValueIdx.ix4 a h d m))
          (fun m d => v (ValueIdx.ix4 a h d m)) (Cert.Spec.tokOf i j) e := by
  rw [attnArr_eq_outHF]
  unfold outHF
  rw [dotFeat_apply]
  unfold Cert.Spec.attnHead
  refine Finset.sum_congr rfl fun d _ => ?_
  rw [qScaled_apply, ctx_apply, mul_comm]

/-- The attention array is the specification's attention of the projected matrix, laid out row-major. -/
theorem attnArr_eq_spec (Qm : Fin 32768 → Fin 1536 → EReal) (q k v : FVec Ideal S8x8x64x4096 .f32)
    (hq : ∀ b h d n, q (ValueIdx.ix4 b h d n) = Qm (Cert.Spec.rowOf b n) (Cert.Spec.colOf 0 h d))
    (hk : ∀ b h d n, k (ValueIdx.ix4 b h d n) = Qm (Cert.Spec.rowOf b n) (Cert.Spec.colOf 1 h d))
    (hv : ∀ b h d n, v (ValueIdx.ix4 b h d n) = Qm (Cert.Spec.rowOf b n) (Cert.Spec.colOf 2 h d)) :
    attnArr q k v = Cert.Spec.outArr (Cert.Spec.attnFlat Qm) := by
  funext idx
  obtain ⟨a, i, j, c, rfl⟩ : ∃ (a : Fin 8) (i j : Fin 64) (c : Fin 512), idx = ix4 a i j c :=
    ⟨idx 0, idx 1, idx 2, idx 3, eq_ix4 idx⟩
  obtain ⟨h, e, rfl⟩ : ∃ (h : Fin 8) (e : Fin 64), c = Cert.Spec.ocolOf h e :=
    ⟨⟨c.val / 64, by have := c.isLt; omega⟩, ⟨c.val % 64, Nat.mod_lt _ (by decide)⟩,
      Fin.ext (by simp only [Cert.Spec.ocolOf]; omega)⟩
  rw [attnArr_apply, Cert.Spec.outArr_ix4, Cert.Spec.flat4_eq_rowOf, Cert.Spec.attnFlat_rowOf_ocolOf]
  unfold Cert.Spec.attnS
  simp only [hq, hk, hv]

end Cert.ReferenceIdeal.RefAttn

end
-- ==== Proof.RefTailA.lean ====
/-
  The reference's output projection read at an index: at token (a, p, q) and channel c it is the sum over the 512
  attention channels k of the attention output at (a, p, q, k) times the matrix at (k, c), plus the bias at c.
-/
import proofs.«132770_j30940944400685_2_alg».proof.Proof.RefTermTail
import Idealize.ShloMosaic.PureOps.Ideal.Laws
import Idealize.ShloMosaic.Lib.ValueIdx
import Idealize.ShloMosaic.Lib.Pipeline.Value
import Idealize.ShloMosaic.Lib.IdealHost

namespace Cert.ReferenceIdeal.RefTail

open Cert.ReferenceIdeal Cert.ReferenceIdeal.Facts₀ Idealize.ShloMosaic Idealize.ShloMosaic.ValueIdx
open scoped BigOperators

variable [Cert.ReferenceIdeal.Facts]

/-- A [512] vector broadcast to [1, 1, 1, 512] and then to [8, 64, 64, 512] reads, at (a, p, q, c), the vector at c. -/
theorem bcast_chan_apply (x : FVec Ideal S512 .f32) (a : Fin 8) (p q : Fin 64) (c : Fin 512) :
    broadcastInDim S8x64x64x512 ![0, 1, 2, 3] bcast_S1x1x1x512_S8x64x64x512_0_1_2_3
      (broadcastInDim S1x1x1x512 ![3] bcast_S512_S1x1x1x512_3 x) (ix4 a p q c) = x (ix1 c) := by
  refine (broadcastInDim_apply _ _ _ (ix4 a p q c) (ix4 (0 : Fin 1) (0 : Fin 1) (0 : Fin 1) c) fun ax => ?_).trans ?_
  · match ax with
    | ⟨0, _⟩ => rfl
    | ⟨1, _⟩ => rfl
    | ⟨2, _⟩ => rfl
    | ⟨3, _⟩ => rfl
  · refine broadcastInDim_apply _ _ _ _ (ix1 c) fun ax => ?_
    match ax with
    | ⟨0, _⟩ => rfl

/-- The contraction at an index: the sum over the contracted channel. -/
theorem v37_apply (a36 : FVec Ideal S8x64x64x512 .f32) (wout : FVec Ideal S512x512 .f32) (a : Fin 8) (p q : Fin 64)
    (c : Fin 512) : v37 a36 wout (ix4 a p q c) = ∑ k : Fin 512, a36 (ix4 a p q k) * wout (ix2 k c) := by
  unfold v37
  simp only [Host.dotGeneral]
  rw [Ideal.dotGeneral_apply]
  rw [← Equiv.sum_comp (contrEquiv1 dot_S8x64x64x512_S512x512_S8x64x64x512_3_0_012_1_n_n 512 rfl rfl).symm]
  refine Finset.sum_congr rfl fun k _ => ?_
  congr 1
  · refine congrArg a36 (funext fun ax => Fin.ext ?_)
    match ax with
    | ⟨0, _⟩ => rfl
    | ⟨1, _⟩ => rfl
    | ⟨2, _⟩ => rfl
    | ⟨3, _⟩ =>
      exact (DotDims.lhsIdx_val_of_single _ rfl _ _).trans (contrEquiv1_symm_val _ 512 rfl rfl k)
  · refine congrArg wout (funext fun ax => Fin.ext ?_)
    match ax with
    | ⟨0, _⟩ =>
      exact (DotDims.rhsIdx_val_of_single _ rfl _ _).trans (contrEquiv1_symm_val _ 512 rfl rfl k)
    | ⟨1, _⟩ => rfl

/-- What is normalised, at an index: the projected channels plus the bias. -/
theorem v40_apply (a36 : FVec Ideal S8x64x64x512 .f32) (wout : FVec Ideal S512x512 .f32) (bo : FVec Ideal S512 .f32)
    (a : Fin 8) (p q : Fin 64) (c : Fin 512) :
    v40 a36 wout bo (ix4 a p q c) = (∑ k : Fin 512, a36 (ix4 a p q k) * wout (ix2 k c)) + bo (ix1 c) := by
  unfold v40 v39 v38
  rw [addf_apply, v37_apply, bcast_chan_apply]

end Cert.ReferenceIdeal.RefTail
-- ==== Proof.RefTailB.lean ====
/-
  The reference's mean and variance of a token's 512 channels, read at an index, for any array y of shape
  [8, 64, 64, 512]. The mean at token (a, p, q) is (Σ_c y(a, p, q, c)) / 512 — the sum's initial word 0 drops out.
  The variance goes through the outlined function: its own mean is the same quotient, the squared deviations are
  summed from 0 and divided by 512 − 0, where 0 is the integer 0 converted, so the divisor is 512; the guard
  512 − 0 > 0 holds, so the selection takes that quotient and never the NaN word.
-/
import proofs.«132770_j30940944400685_2_alg».proof.Proof.RefTermTail
import proofs.«132770_j30940944400685_2_alg».proof.Proof.Spec
import Idealize.ShloMosaic.PureOps.Ideal.Laws
import Idealize.ShloMosaic.Lib.ValueIdx
import Idealize.ShloMosaic.Lib.Pipeline.Value
import Idealize.ShloMosaic.Lib.IdealHost

namespace Cert.ReferenceIdeal.RefTail

open Cert.ReferenceIdeal Cert.ReferenceIdeal.Facts₀ Idealize.ShloMosaic Idealize.ShloMosaic.ValueIdx
open scoped BigOperators

variable [Cert.ReferenceIdeal.Facts]

/-! ## The layout operations of this stage at an index -/

/-- A [8, 64, 64] array as a column [8, 64, 64, 1] reads the array at the token. -/
theorem bcast_col_apply (x : FVec Ideal S8x64x64 .f32) (a : Fin 8) (p q : Fin 64) (u : Fin 1) :
    broadcastInDim S8x64x64x1 ![0, 1, 2] bcast_S8x64x64_S8x64x64x1_0_1_2 x (ix4 a p q u) = x (ix3 a p q) := by
  refine broadcastInDim_apply _ _ _ _ (ix3 a p q) fun ax => ?_
  match ax with
  | ⟨0, _⟩ => rfl
  | ⟨1, _⟩ => rfl
  | ⟨2, _⟩ => rfl

/-- A column [8, 64, 64, 1] broadcast over the 512 channels reads the column at the token. -/
theorem bcast_lane_apply (x : FVec Ideal S8x64x64x1 .f32) (a : Fin 8) (p q : Fin 64) (c : Fin 512) :
    broadcastInDim S8x64x64x512 ![0, 1, 2, 3] bcast_S8x64x64x1_S8x64x64x512_0_1_2_3 x (ix4 a p q c)
      = x (ix4 a p q (0 : Fin 1)) := by
  refine broadcastInDim_apply _ _ _ _ (ix4 a p q (0 : Fin 1)) fun ax => ?_
  match ax with
  | ⟨0, _⟩ => rfl
  | ⟨1, _⟩ => rfl
  | ⟨2, _⟩ => rfl
  | ⟨3, _⟩ => rfl

/-- A scalar broadcast to a column reads the scalar. -/
theorem bcast_scalar_apply {α : Type} (x : S_.Idx → α) (j : S8x64x64x1.Idx) :
    broadcastInDim S8x64x64x1 ![] bcast_S_S8x64x64x1 x j = x ix0 :=
  broadcastInDim_scalar_apply _ x j

/-- The sum over the channels of a token, from an initial scalar. -/
theorem sum_chan_apply (y : FVec Ideal S8x64x64x512 .f32) (init : FVec Ideal S_ .f32) (a : Fin 8) (p q : Fin 64) :
    Host.reduceAdd (F := Ideal) y init reducesTo_S8x64x64x512_S8x64x64_d3 h_S_ (ix3 a p q)
      = init ix0 + ∑ c : Fin 512, y (ix4 a p q c) := by
  rw [hostReduceAdd_apply]
  refine (Ideal.hostReduceAdd_single _ (by decide : S8x64x64x512.Reduces [3] S8x64x64) y _ _).trans ?_
  rw [eq_ix0 (Shape.Idx.first h_S_)]
  show init ix0 + ∑ c : Fin 512, y _ = _
  refine congrArg (init ix0 + ·) (Finset.sum_congr rfl fun c _ => congrArg y (funext fun ax => Fin.ext ?_))
  match ax with
  | ⟨0, _⟩ => rfl
  | ⟨1, _⟩ => rfl
  | ⟨2, _⟩ => rfl
  | ⟨3, _⟩ => rfl

/-! ## The words -/

/-- The word 0x44000000 is the real 512. -/
theorem n512_eq : Cert.Spec.n512 = ((512 : ℝ) : EReal) := by
  unfold Cert.Spec.n512
  simp [Ideal.ofBits, Ideal.ieee, -EReal.coe_mul]; norm_num

/-- 512 is positive. -/
theorem n512_pos : (0 : EReal) < Cert.Spec.n512 := by
  rw [n512_eq]; exact EReal.coe_pos.2 (by norm_num)

/-! ## The mean -/

/-- The mean of a token's channels. -/
theorem v44_apply (y : FVec Ideal S8x64x64x512 .f32) (a : Fin 8) (p q : Fin 64) (u : Fin 1) :
    v44 y (ix4 a p q u) = Cert.Spec.meanRow (fun c => y (ix4 a p q c)) := by
  unfold v44 v42 v41 v43 cst7 cst6 Cert.Spec.meanRow Cert.Spec.n512
  rw [hostDivf_apply, bcast_col_apply, sum_chan_apply, bcast_scalar_apply, constant_apply, constant_apply,
    Ideal.ofBits_zero_f32, zero_add]

/-- The variance function's own mean is the same term. -/
theorem var_v3_eq (y : FVec Ideal S8x64x64x512 .f32) : var_v3 y = v44 y := rfl

/-! ## The variance -/

/-- The divisor 512 − 0, the integer 0 converted, is 512. -/
theorem var_v8_apply : var_v8 ix0 = Cert.Spec.n512 := by
  unfold var_v8 var_cst_1 var_v7 c0 Cert.Spec.n512
  rw [subf_apply, constant_apply, sitofp_apply]
  show Ideal.ofBits .f32 0x44000000#32 - (((0#32 : BitVec 32).toInt : ℝ) : EReal) = _
  rw [show (0#32 : BitVec 32).toInt = 0 by decide, Int.cast_zero, EReal.coe_zero, sub_zero]

/-- The guard 512 − 0 > 0 holds. -/
theorem var_v13_apply : var_v13 ix0 = 1#1 := by
  unfold var_v13 var_cst_3
  rw [cmpf_apply, Ideal.cmpf_def, var_v8_apply, constant_apply, Ideal.ofBits_zero_f32]
  unfold Ideal.cmp
  simp [n512_pos]

/-- The deviations. -/
theorem var_v5_apply (y : FVec Ideal S8x64x64x512 .f32) (a : Fin 8) (p q : Fin 64) (c : Fin 512) :
    var_v5 y (ix4 a p q c) = y (ix4 a p q c) - Cert.Spec.meanRow (fun c' => y (ix4 a p q c')) := by
  unfold var_v5 var_v4
  rw [subf_apply, bcast_lane_apply, var_v3_eq, v44_apply]

/-- The variance of a token's channels. -/
theorem v45_apply (y : FVec Ideal S8x64x64x512 .f32) (a : Fin 8) (p q : Fin 64) (u : Fin 1) :
    v45 y (ix4 a p q u) = Cert.Spec.varRow (fun c => y (ix4 a p q c)) := by
  unfold v45
  rw [select_apply, bcast_scalar_apply, var_v13_apply, select_one]
  unfold var_v12 var_v11 var_v10 var_v9 var_cst_2 Cert.Spec.varRow
  rw [hostDivf_apply, bcast_col_apply, sum_chan_apply, bcast_scalar_apply, var_v8_apply, constant_apply,
    Ideal.ofBits_zero_f32, zero_add]
  refine congrArg (Ideal.div · Cert.Spec.n512) (Finset.sum_congr rfl fun c _ => ?_)
  unfold var_v6
  rw [mulf_apply, var_v5_apply]

end Cert.ReferenceIdeal.RefTail
-- ==== Proof.RefTail.lean ====
/-
  The reference's last stage is the specification's: the projection of the attention output plus the bias, normalised
  token by token with the square root as a divisor. At token (a, p, q) and channel c the program's result is
  (y_c − mean y) / sqrt(var y + ε) · g_c + β_c, where y is the token's projected row, and the row of the array built
  from a [32768, 512] matrix is that matrix's row at the token's flat position.
-/
import proofs.«132770_j30940944400685_2_alg».proof.Proof.RefTailA
import proofs.«132770_j30940944400685_2_alg».proof.Proof.RefTailB

namespace Cert.ReferenceIdeal.RefTail

open Cert.ReferenceIdeal Cert.ReferenceIdeal.Facts₀ Idealize.ShloMosaic Idealize.ShloMosaic.ValueIdx
open scoped BigOperators

variable [Cert.ReferenceIdeal.Facts]

/-- The normalisation at an index, for any array y: the specification's row formula on the token's row. -/
theorem v58_apply (y : FVec Ideal S8x64x64x512 .f32) (g beta : FVec Ideal S512 .f32) (a : Fin 8) (p q : Fin 64)
    (c : Fin 512) :
    v58 y g beta (ix4 a p q c)
      = Cert.Spec.lnRowR (fun c' => y (ix4 a p q c')) (Cert.Spec.cur1 g) (Cert.Spec.cur1 beta) c := by
  unfold v58 v57 v56 v55 v54 v53 v52 v51 v50 v49 v48 cst8 v47 v46 Cert.Spec.lnRowR Cert.Spec.cur1 Cert.Spec.eps
  rw [addf_apply, mulf_apply, hostDivf_apply, subf_apply, bcast_lane_apply, v44_apply, bcast_lane_apply,
    bcast_chan_apply, bcast_chan_apply]
  show Ideal.div _ (Ideal.sqrt (addf (v45 y) _ (ix4 a p q (0 : Fin 1)))) * _ + _ = _
  rw [addf_apply, v45_apply, bcast_scalar_apply, constant_apply]

/-- The reference's last stage on the array of a [32768, 512] matrix is the array of the specification's projected and
    normalised matrix. -/
theorem tailArr_eq_spec (A : Fin 32768 → Fin 512 → EReal) (wout : FVec Ideal S512x512 .f32)
    (bo g beta : FVec Ideal S512 .f32) :
    tailArr (Cert.Spec.outArr A) wout bo g beta
      = Cert.Spec.outArr (Cert.Spec.lnR (Cert.Spec.projS A (Cert.Spec.cur2 wout) (Cert.Spec.cur1 bo))
          (Cert.Spec.cur1 g) (Cert.Spec.cur1 beta)) := by
  funext i
  obtain ⟨a, p, q, c, rfl⟩ : ∃ (a : Fin 8) (p q : Fin 64) (c : Fin 512), i = ix4 a p q c :=
    ⟨i 0, i 1, i 2, i 3, eq_ix4 i⟩
  rw [Cert.Spec.outArr_ix4]
  unfold tailArr Cert.Spec.lnR
  rw [v58_apply]
  refine congrArg (fun row => Cert.Spec.lnRowR row (Cert.Spec.cur1 g) (Cert.Spec.cur1 beta) c) (funext fun c' => ?_)
  rw [v40_apply]
  rfl

end Cert.ReferenceIdeal.RefTail
-- ==== Proof.RefSpec.lean ====
/-
  The reference's whole term is the specification's function: the projected q, k, v arrays are the specification's
  projection read at (token row, channel), the attention over them is the specification's attention as a
  [8, 64, 64, 512] array, and the tail applied to such an array is the normalised output projection.
-/
import proofs.«132770_j30940944400685_2_alg».proof.Proof.RefTermAll
import proofs.«132770_j30940944400685_2_alg».proof.Proof.RefQKV
import proofs.«132770_j30940944400685_2_alg».proof.Proof.RefAttn
import proofs.«132770_j30940944400685_2_alg».proof.Proof.RefTail
import proofs.«132770_j30940944400685_2_alg».proof.Proof.Spec

noncomputable section

namespace Cert.ReferenceIdeal.RefSpec

open Cert.ReferenceIdeal Cert.ReferenceIdeal.Facts₀ Idealize.ShloMosaic Idealize.ShloMosaic.ValueIdx

variable [Cert.ReferenceIdeal.Facts]

/-- The reference's term is the specification's output with the square root as a divisor, as a [8, 64, 64, 512]
    array: the projection's three arrays read the specification's projection, so the attention over them is the
    specification's attention, and the tail of that array is the normalised output projection. -/
theorem refTerm_eq_spec (x : FVec Ideal S8x64x64x512 .f32) (wqkv : FVec Ideal S512x1536 .f32)
    (wout : FVec Ideal S512x512 .f32) (bo g beta : FVec Ideal S512 .f32) :
    RefRun.refTerm x wqkv wout bo g beta
      = Cert.Spec.outArr (Cert.Spec.outR (Cert.Spec.cur4 x) (Cert.Spec.cur2 wqkv) (Cert.Spec.cur2 wout) (Cert.Spec.cur1 bo)
          (Cert.Spec.cur1 g) (Cert.Spec.cur1 beta)) := by
  unfold RefRun.refTerm
  rw [RefAttn.attnArr_eq_spec (Cert.Spec.qkvS (Cert.Spec.unflat (Cert.Spec.cur4 x)) (Cert.Spec.cur2 wqkv)) _ _ _
      (fun b h d n => RefQKV.qArr_apply x wqkv b h d n) (fun b h d n => RefQKV.kArr_apply x wqkv b h d n)
      (fun b h d n => RefQKV.vArr_apply x wqkv b h d n),
    RefTail.tailArr_eq_spec]
  rfl

end Cert.ReferenceIdeal.RefSpec

end
-- ==== Proof.LibBatchNorm.lean ====
/-
  Finiteness on the extended reals.

  At the ideal instance a float is an extended real and every operation is exact, but the
  extended reals are not a field: ⊤ − ⊤ = ⊥, 0 · ⊤ = 0. An algebraic identity between two
  programs therefore holds only where every intermediate value is FINITE, i.e. the coercion
  of a real number. This module defines that predicate, IsReal, and proves that it is closed
  under the operations a normalising network uses: sum, difference, product, maximum, finite
  sums (so matrix-product entries), choice between two finite values, the quotient by a
  nonzero finite value, and the reciprocal square root of a positive finite value. It also
  evaluates the four 32-bit float words 0, 1, 80000 and 10995116 · 2⁻⁴⁰ (and +∞) as extended
  reals, and relates IsReal to the test |x| < +∞.
-/
import Idealize.ShloMosaic.PureOps.Ideal

noncomputable section

namespace Cert.LibBatchNorm

open Idealize.ShloMosaic
open scoped BigOperators

/-! ## The predicate -/

/-- An extended real is FINITE when it is (the coercion of) a real number. -/
def IsReal (x : EReal) : Prop := ∃ a : ℝ, x = (a : EReal)

/-- A real number is finite. -/
theorem isReal_coe (a : ℝ) : IsReal (a : EReal) := ⟨a, rfl⟩

/-- 0 is finite. -/
theorem isReal_zero : IsReal (0 : EReal) := ⟨0, rfl⟩

/-- 1 is finite. -/
theorem isReal_one : IsReal (1 : EReal) := ⟨1, rfl⟩

/-- x is finite iff it is neither −∞ nor +∞. -/
theorem isReal_iff {x : EReal} : IsReal x ↔ x ≠ ⊥ ∧ x ≠ ⊤ := by
  constructor
  · rintro ⟨a, rfl⟩; exact ⟨EReal.coe_ne_bot a, EReal.coe_ne_top a⟩
  · rintro ⟨hb, ht⟩
    induction x using EReal.rec with
    | bot => exact absurd rfl hb
    | coe a => exact ⟨a, rfl⟩
    | top => exact absurd rfl ht

/-- If |x| = max x (−x) is below +∞ then x is finite. -/
theorem isReal_of_abs_lt_top {x : EReal} (h : max x (-x) < ⊤) : IsReal x := by
  induction x using EReal.rec with
  | bot => exact absurd h (by simp)
  | coe a => exact ⟨a, rfl⟩
  | top => exact absurd h (by simp)

/-- A finite x has |x| = max x (−x) below +∞. -/
theorem abs_lt_top_of_isReal {x : EReal} (hx : IsReal x) : max x (-x) < ⊤ := by
  obtain ⟨a, rfl⟩ := hx
  exact max_lt (EReal.coe_lt_top a) (by rw [← EReal.coe_neg]; exact EReal.coe_lt_top _)

/-- The ordered "less than" comparison answers 1 exactly when x < y. -/
theorem cmp_olt_eq_one_iff (x y : EReal) : Ideal.cmp .olt x y = 1#1 ↔ x < y := by
  unfold Ideal.cmp
  by_cases h : x < y <;> simp [h]

/-! ## Closure under the arithmetic operations -/

/-- The sum of two finite values is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite values is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite values is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite value is finite. -/
theorem IsReal.neg {x : EReal} (hx : IsReal x) : IsReal (-x) := by
  obtain ⟨a, rfl⟩ := hx; exact ⟨-a, (EReal.coe_neg a).symm⟩

/-- The maximum of two finite values is finite (it is one of them). -/
theorem IsReal.max {x y : EReal} (hx : IsReal x) (hy : IsReal y) : IsReal (max x y) := by
  rcases le_total x y with h | h
  · rwa [max_eq_right h]
  · rwa [max_eq_left h]

/-- The minimum of two finite values is finite (it is one of them). -/
theorem IsReal.min {x y : EReal} (hx : IsReal x) (hy : IsReal y) : IsReal (min x y) := by
  rcases le_total x y with h | h
  · rwa [min_eq_left h]
  · rwa [min_eq_right h]

/-- |x| = max x (−x) of a finite x is finite. -/
theorem isReal_abs {x : EReal} (hx : IsReal x) : IsReal (max x (-x)) := hx.max hx.neg

/-- A choice between two finite values is finite, whatever the condition. -/
theorem isReal_ite {c : Prop} [Decidable c] {x y : EReal} (hx : IsReal x) (hy : IsReal y) :
    IsReal (if c then x else y) := by
  split <;> assumption

/-- A Boolean choice between two finite values is finite. -/
theorem isReal_cond {c : Bool} {x y : EReal} (hx : IsReal x) (hy : IsReal y) :
    IsReal (bif c then x else y) := by
  cases c <;> assumption

/-- A selection by a one-bit condition between two finite values is finite. -/
theorem isReal_select (c : BitVec 1) {x y : EReal} (hx : IsReal x) (hy : IsReal y) :
    IsReal (Scalar.select c x y) := isReal_ite hx hy

/-! ## Finite sums -/

/-- The coercion ℝ → [−∞, +∞] commutes with finite sums. -/
theorem coe_finset_sum {ι : Type*} (s : Finset ι) (a : ι → ℝ) :
    ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- A sum over a finite set of finite values is finite. -/
theorem isReal_finset_sum {ι : Type*} (s : Finset ι) (f : ι → EReal) (h : ∀ i ∈ s, IsReal (f i)) :
    IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- A sum over a finite index type of finite values is finite. -/
theorem isReal_sum {ι : Type*} [Fintype ι] (f : ι → EReal) (h : ∀ i, IsReal (f i)) : IsReal (∑ i, f i) :=
  isReal_finset_sum _ _ fun i _ => h i

/-- An entry Σₖ aₖ · bₖ of a matrix product of finite matrices is finite. -/
theorem isReal_sum_mul {κ : Type*} [Fintype κ] (a b : κ → EReal) (ha : ∀ k, IsReal (a k)) (hb : ∀ k, IsReal (b k)) :
    IsReal (∑ k, a k * b k) :=
  isReal_sum _ fun k => (ha k).mul (hb k)

/-- A finite accumulator plus an entry Σₖ aₖ · bₖ of a product of finite matrices is finite. -/
theorem isReal_add_sum_mul {κ : Type*} [Fintype κ] {c : EReal} (hc : IsReal c) (a b : κ → EReal)
    (ha : ∀ k, IsReal (a k)) (hb : ∀ k, IsReal (b k)) : IsReal (c + ∑ k, a k * b k) :=
  hc.add (isReal_sum_mul a b ha hb)

/-- The contraction acc j + Σₖ lhs(j,k) · rhs(k,j) of finite operands onto a finite accumulator is finite at every index. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ j, IsReal (acc j)) (j : so.Idx) :
    IsReal (Ideal.matmul d lhs rhs acc j) :=
  isReal_add_sum_mul (ha j) _ _ (fun _ => hl _) (fun _ => hr _)

/-- The contraction Σₖ lhs(j,k) · rhs(k,j) of finite operands is finite at every index. -/
theorem isReal_mxuPass {sl sr so : Shape} (d : DotDims sl sr so) (lhs : sl.Idx → EReal) (rhs : sr.Idx → EReal)
    (hl : ∀ i, IsReal (lhs i)) (hr : ∀ i, IsReal (rhs i)) (j : so.Idx) : IsReal (Ideal.mxuPass d lhs rhs j) :=
  isReal_sum_mul _ _ (fun _ => hl _) (fun _ => hr _)

/-- A finite initial value plus the sum of the finite elements that reduce to an index is finite. -/
theorem isReal_hostReduceAdd {s : Shape} {axes : List (Fin s.rank)} {t : Shape} (h : s.ReducesTo axes t)
    (x : s.Idx → EReal) (init : EReal) (hx : ∀ i, IsReal (x i)) (hi : IsReal init) (j : t.Idx) :
    IsReal (Ideal.hostReduceAdd h x init j) :=
  hi.add (isReal_finset_sum _ _ fun i _ => hx i)

/-- The sum of the finite elements that reduce to an index is finite. -/
theorem isReal_reduceAdd {s : Shape} {axes : List (Fin s.rank)} {t : Shape} (h : s.Reduces axes t)
    (x : s.Idx → EReal) (hx : ∀ i, IsReal (x i)) (j : t.Idx) : IsReal (Ideal.reduceAdd h x j) :=
  isReal_finset_sum _ _ fun i _ => hx i

/-- A finite element plus the sum of the finite updates that land on it is finite. -/
theorem isReal_hostScatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) :=
  (hx i).add (isReal_finset_sum _ _ fun j _ => hu j)

/-! ## Quotients -/

/-- The quotient of two reals with a nonzero divisor, computed on the extended reals, is their real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A finite value times a real is finite. -/
theorem IsReal.mul_coe {x : EReal} (hx : IsReal x) (c : ℝ) : IsReal (x * (c : EReal)) := hx.mul (isReal_coe c)

/-- The quotient of a finite value by a nonzero real is finite. -/
theorem IsReal.div_coe {x : EReal} (hx : IsReal x) {b : ℝ} (hb : b ≠ 0) : IsReal (Ideal.div x (b : EReal)) := by
  rw [Ideal.div_coe hb]; exact hx.mul (isReal_coe _)

/-- The quotient of a finite value by a finite nonzero value is finite. -/
theorem IsReal.div {x y : EReal} (hx : IsReal x) (hy : IsReal y) (h0 : y ≠ 0) : IsReal (Ideal.div x y) := by
  obtain ⟨b, rfl⟩ := hy
  exact hx.div_coe (fun hb => h0 (by rw [hb]; rfl))

/-- The quotient of a finite value by a finite positive value is finite. -/
theorem IsReal.div_of_pos {x y : EReal} (hx : IsReal x) (hy : IsReal y) (h0 : 0 < y) : IsReal (Ideal.div x y) :=
  hx.div hy h0.ne'

/-! ## The reciprocal square root -/

/-- At a positive real a the reciprocal square root is the real (√a)⁻¹. -/
theorem rsqrt_coe_pos {a : ℝ} (ha : 0 < a) : Ideal.rsqrt (a : EReal) = (((Real.sqrt a)⁻¹ : ℝ) : EReal) := by
  rw [Ideal.rsqrt_coe, if_neg (not_lt.2 ha.le), if_neg ha.ne']

/-- (√a)⁻¹ is positive for a positive real a. -/
theorem inv_sqrt_pos {a : ℝ} (ha : 0 < a) : 0 < (Real.sqrt a)⁻¹ := inv_pos.2 (Real.sqrt_pos.2 ha)

/-- The reciprocal square root of a positive real is finite. -/
theorem isReal_rsqrt_coe_pos {a : ℝ} (ha : 0 < a) : IsReal (Ideal.rsqrt (a : EReal)) := ⟨_, rsqrt_coe_pos ha⟩

/-- The reciprocal square root of a finite positive value is finite. -/
theorem IsReal.rsqrt_of_pos {x : EReal} (hx : IsReal x) (hpos : 0 < x) : IsReal (Ideal.rsqrt x) := by
  obtain ⟨a, rfl⟩ := hx
  exact isReal_rsqrt_coe_pos (EReal.coe_pos.1 hpos)

/-- For reals v ≥ 0 and e > 0 the reciprocal square root of v + e is finite. -/
theorem isReal_rsqrt_add {v e : ℝ} (hv : 0 ≤ v) (he : 0 < e) : IsReal (Ideal.rsqrt ((v : EReal) + (e : EReal))) := by
  rw [← EReal.coe_add]; exact isReal_rsqrt_coe_pos (add_pos_of_nonneg_of_pos hv he)

/-- For reals v ≥ 0 and e > 0 the reciprocal square root of v + e is the real (√(v + e))⁻¹. -/
theorem rsqrt_add_eq {v e : ℝ} (hv : 0 ≤ v) (he : 0 < e) :
    Ideal.rsqrt ((v : EReal) + (e : EReal)) = (((Real.sqrt (v + e))⁻¹ : ℝ) : EReal) := by
  rw [← EReal.coe_add]; exact rsqrt_coe_pos (add_pos_of_nonneg_of_pos hv he)

/-- If x is a nonnegative real and y a positive real then the reciprocal square root of x + y is finite. -/
theorem isReal_rsqrt_add_of {x y : EReal} (hx : ∃ v : ℝ, 0 ≤ v ∧ x = (v : EReal)) (hy : ∃ e : ℝ, 0 < e ∧ y = (e : EReal)) :
    IsReal (Ideal.rsqrt (x + y)) := by
  obtain ⟨v, hv, rfl⟩ := hx; obtain ⟨e, he, rfl⟩ := hy; exact isReal_rsqrt_add hv he

/-- The same for the float operations' reciprocal square root of a float sum, at the ideal instance. -/
theorem isReal_floatOps_rsqrt_add_of {φ : FTy} {x y : Ideal φ} (hx : ∃ v : ℝ, 0 ≤ v ∧ x = (v : EReal))
    (hy : ∃ e : ℝ, 0 < e ∧ y = (e : EReal)) : IsReal (FloatOps.rsqrt (FloatOps.addf x y)) :=
  isReal_rsqrt_add_of hx hy

/-- The same for the host's one-operand reciprocal square root of a float sum, at the ideal instance. -/
theorem isReal_hostUnary_rsqrt_add_of {φ : FTy} {x y : Ideal φ} (hx : ∃ v : ℝ, 0 ≤ v ∧ x = (v : EReal))
    (hy : ∃ e : ℝ, 0 < e ∧ y = (e : EReal)) : IsReal (FloatOps.hostUnary .rsqrt (FloatOps.addf x y)) :=
  isReal_rsqrt_add_of hx hy

/-! ## Four float words as extended reals -/

/-- The 32-bit word 0x00000000 denotes 0. -/
theorem ofBits_f32_zero : Ideal.ofBits .f32 0x00000000#32 = 0 := by
  simp [Ideal.ofBits, Ideal.ieee]

/-- The 32-bit word 0x3F800000 denotes 1. -/
theorem ofBits_f32_one : Ideal.ofBits .f32 0x3F800000#32 = 1 := by
  simp [Ideal.ofBits, Ideal.ieee, -EReal.coe_mul]; norm_num

/-- The 32-bit word 0x479C4000 denotes the real 80000. -/
theorem ofBits_f32_80000 : Ideal.ofBits .f32 0x479C4000#32 = ((80000 : ℝ) : EReal) := by
  simp [Ideal.ofBits, Ideal.ieee, -EReal.coe_mul]; norm_num

/-- The 32-bit word 0x3727C5AC (about 10⁻⁵) denotes the real 10995116 / 2⁴⁰. -/
theorem ofBits_f32_eps : Ideal.ofBits .f32 0x3727C5AC#32 = ((10995116 / 2 ^ 40 : ℝ) : EReal) := by
  simp [Ideal.ofBits, Ideal.ieee, -EReal.coe_mul]; norm_num

/-- The 32-bit word 0x7F800000 denotes +∞. -/
theorem ofBits_f32_inf : Ideal.ofBits .f32 0x7F800000#32 = ⊤ := by
  simp [Ideal.ofBits, Ideal.ieee]

/-- 10995116 / 2⁴⁰ is positive. -/
theorem eps_pos : (0 : ℝ) < 10995116 / 2 ^ 40 := by positivity

/-- The word 0x00000000 denotes a finite value. -/
theorem isReal_ofBits_f32_zero : IsReal (Ideal.ofBits .f32 0x00000000#32) := ofBits_f32_zero ▸ isReal_zero

/-- The word 0x3F800000 denotes a finite value. -/
theorem isReal_ofBits_f32_one : IsReal (Ideal.ofBits .f32 0x3F800000#32) := ofBits_f32_one ▸ isReal_one

/-- The word 0x479C4000 denotes a finite value. -/
theorem isReal_ofBits_f32_80000 : IsReal (Ideal.ofBits .f32 0x479C4000#32) := ⟨_, ofBits_f32_80000⟩

/-- The word 0x3727C5AC denotes a finite value. -/
theorem isReal_ofBits_f32_eps : IsReal (Ideal.ofBits .f32 0x3727C5AC#32) := ⟨_, ofBits_f32_eps⟩

/-- The word 0x3727C5AC denotes a positive real. -/
theorem ofBits_f32_eps_pos : ∃ e : ℝ, 0 < e ∧ Ideal.ofBits .f32 0x3727C5AC#32 = (e : EReal) :=
  ⟨_, eps_pos, ofBits_f32_eps⟩

/-- 80000 is not 0. -/
theorem eighty_thousand_ne_zero : (80000 : ℝ) ≠ 0 := by norm_num

/-- If the comparison |x| < (the word 0x7F800000, that is +∞) answers 1, then x is finite. -/
theorem isReal_of_cmp_abs_lt_inf {x : EReal}
    (h : Ideal.cmp .olt (max x (-x)) (Ideal.ofBits .f32 0x7F800000#32) = 1#1) : IsReal x := by
  rw [ofBits_f32_inf, cmp_olt_eq_one_iff] at h
  exact isReal_of_abs_lt_top h

end Cert.LibBatchNorm

end
-- ==== Proof.LibBatchNormVar.lean ====
/-
  The one-pass and two-pass variance on the extended reals.

  For finite values x r over a finite index type of N elements, with S1 = Σ x r and
  S2 = Σ (x r)², the one-pass variance  S2/N − (S1/N)²  equals the two-pass variance
  (Σ (x r − S1/N)²)/N, and both are a nonnegative real. On the extended reals this needs every
  x r finite (⊤ − ⊤ = ⊥ is not 0): the real witnesses are chosen, the coercions pushed outward
  through sums, products and differences, and the identity is then the classical one in ℝ:
  Σ (a − m)² = Σ a² − 2m Σ a + N m², with m = (Σ a)/N.
  The quotient by N is stated in two spellings: as the product with the real 1/N, which is what
  the quotient of an extended real by a nonzero real reduces to, and as that quotient itself.
-/
import proofs.«132770_j30940944400685_2_alg».proof.Proof.LibBatchNorm

noncomputable section

namespace Cert.LibBatchNorm

open Idealize.ShloMosaic
open scoped BigOperators

/-! ## In ℝ -/

/-- Σ (a r − m)² = Σ (a r)² − 2 m Σ a r + N m² over an index type of N elements. -/
theorem real_sum_centered_sq {ι : Type*} [Fintype ι] (a : ι → ℝ) (N : ℝ) (hN : N = (Fintype.card ι : ℝ)) (m : ℝ) :
    ∑ r, (a r - m) * (a r - m) = (∑ r, a r * a r) - 2 * m * (∑ r, a r) + N * (m * m) := by
  have e : ∀ r, (a r - m) * (a r - m) = a r * a r - 2 * m * a r + m * m := fun r => by ring
  simp only [e, Finset.sum_add_distrib, Finset.sum_sub_distrib, ← Finset.mul_sum, Finset.sum_const, Finset.card_univ,
    nsmul_eq_mul, ← hN]
  ring

/-- The variance identity in ℝ: (Σ a²)/N − ((Σ a)/N)² = (Σ (a − (Σ a)/N)²)/N, quotients written as products with 1/N,
    over an index type of N ≠ 0 elements. -/
theorem real_var_identity {ι : Type*} [Fintype ι] (a : ι → ℝ) (N : ℝ) (hN : N = (Fintype.card ι : ℝ)) (hN0 : N ≠ 0) :
    (∑ r, a r * a r) * (1 / N) - ((∑ r, a r) * (1 / N)) * ((∑ r, a r) * (1 / N))
      = (∑ r, (a r - (∑ s, a s) * (1 / N)) * (a r - (∑ s, a s) * (1 / N))) * (1 / N) := by
  rw [real_sum_centered_sq a N hN]; field_simp; ring

/-! ## On the extended reals -/

/-- The variance identity for finite extended reals x r over an index type of N ≠ 0 elements, quotients by N written
    as products with the real 1/N:
    (Σ x²)·(1/N) − ((Σ x)·(1/N))² = (Σ (x − (Σ x)·(1/N))²)·(1/N). -/
theorem var_identity {ι : Type*} [Fintype ι] (x : ι → EReal) (hx : ∀ r, IsReal (x r)) (N : ℝ)
    (hN : N = (Fintype.card ι : ℝ)) (hN0 : N ≠ 0) :
    (∑ r, x r * x r) * ((1 / N : ℝ) : EReal) - ((∑ r, x r) * ((1 / N : ℝ) : EReal)) * ((∑ r, x r) * ((1 / N : ℝ) : EReal))
      = (∑ r, (x r - (∑ s, x s) * ((1 / N : ℝ) : EReal)) * (x r - (∑ s, x s) * ((1 / N : ℝ) : EReal))) * ((1 / N : ℝ) : EReal) := by
  choose a ha using hx
  obtain rfl : x = fun r => (a r : EReal) := funext ha
  simp only [← EReal.coe_mul, ← coe_finset_sum, ← EReal.coe_sub]
  exact congrArg _ (real_var_identity a N hN hN0)

/-- The variance identity with the quotients by the real N ≠ 0 written as quotients:
    (Σ x²)/N − ((Σ x)/N)·((Σ x)/N) = (Σ (x − (Σ x)/N)·(x − (Σ x)/N))/N. -/
theorem var_identity_div {ι : Type*} [Fintype ι] (x : ι → EReal) (hx : ∀ r, IsReal (x r)) (N : ℝ)
    (hN : N = (Fintype.card ι : ℝ)) (hN0 : N ≠ 0) :
    Ideal.div (∑ r, x r * x r) (N : EReal) - Ideal.div (∑ r, x r) (N : EReal) * Ideal.div (∑ r, x r) (N : EReal)
      = Ideal.div (∑ r, (x r - Ideal.div (∑ s, x s) (N : EReal)) * (x r - Ideal.div (∑ s, x s) (N : EReal))) (N : EReal) := by
  simp only [Ideal.div_coe hN0]
  exact var_identity x hx N hN hN0

/-- The mean (Σ x)·(1/N) of finite values is finite. -/
theorem isReal_mean {ι : Type*} [Fintype ι] (x : ι → EReal) (hx : ∀ r, IsReal (x r)) (N : ℝ) :
    IsReal ((∑ r, x r) * ((1 / N : ℝ) : EReal)) :=
  (isReal_sum x hx).mul_coe _

/-- The mean (Σ x)/N of finite values, N a nonzero real, is finite. -/
theorem isReal_mean_div {ι : Type*} [Fintype ι] (x : ι → EReal) (hx : ∀ r, IsReal (x r)) {N : ℝ} (hN0 : N ≠ 0) :
    IsReal (Ideal.div (∑ r, x r) (N : EReal)) :=
  (isReal_sum x hx).div_coe hN0

/-- A mean of squared deviations of finite values from ANY finite centre μ, with a nonnegative real weight c, is a
    nonnegative real: (Σ (x − μ)²)·c = v for a real v ≥ 0. -/
theorem centered_sq_mean_nonneg {ι : Type*} [Fintype ι] (x : ι → EReal) (hx : ∀ r, IsReal (x r)) {μ : EReal}
    (hμ : IsReal μ) {c : ℝ} (hc : 0 ≤ c) :
    ∃ v : ℝ, 0 ≤ v ∧ (∑ r, (x r - μ) * (x r - μ)) * (c : EReal) = (v : EReal) := by
  choose a ha using hx
  obtain rfl : x = fun r => (a r : EReal) := funext ha
  obtain ⟨m, rfl⟩ := hμ
  refine ⟨(∑ r, (a r - m) * (a r - m)) * c, mul_nonneg (Finset.sum_nonneg fun r _ => mul_self_nonneg _) hc, ?_⟩
  simp only [← EReal.coe_mul, ← coe_finset_sum, ← EReal.coe_sub]

/-- The two-pass variance (Σ (x − (Σ x)·(1/N))²)·(1/N) of finite values, N a positive real, is a nonnegative real. -/
theorem var_two_pass_nonneg {ι : Type*} [Fintype ι] (x : ι → EReal) (hx : ∀ r, IsReal (x r)) {N : ℝ} (hN : 0 < N) :
    ∃ v : ℝ, 0 ≤ v ∧
      (∑ r, (x r - (∑ s, x s) * ((1 / N : ℝ) : EReal)) * (x r - (∑ s, x s) * ((1 / N : ℝ) : EReal))) * ((1 / N : ℝ) : EReal)
        = (v : EReal) :=
  centered_sq_mean_nonneg x hx (isReal_mean x hx N) (by positivity)

/-- The two-pass variance (Σ (x − (Σ x)/N)·(x − (Σ x)/N))/N of finite values, N a positive real, is a nonnegative real. -/
theorem var_two_pass_div_nonneg {ι : Type*} [Fintype ι] (x : ι → EReal) (hx : ∀ r, IsReal (x r)) {N : ℝ} (hN : 0 < N) :
    ∃ v : ℝ, 0 ≤ v ∧
      Ideal.div (∑ r, (x r - Ideal.div (∑ s, x s) (N : EReal)) * (x r - Ideal.div (∑ s, x s) (N : EReal))) (N : EReal)
        = (v : EReal) := by
  simp only [Ideal.div_coe hN.ne']
  exact var_two_pass_nonneg x hx hN

/-- The one-pass variance (Σ x²)·(1/N) − ((Σ x)·(1/N))² of finite values over an index type of N > 0 elements is a
    nonnegative real. -/
theorem var_one_pass_nonneg {ι : Type*} [Fintype ι] (x : ι → EReal) (hx : ∀ r, IsReal (x r)) (N : ℝ)
    (hN : N = (Fintype.card ι : ℝ)) (hN0 : 0 < N) :
    ∃ v : ℝ, 0 ≤ v ∧
      (∑ r, x r * x r) * ((1 / N : ℝ) : EReal) - ((∑ r, x r) * ((1 / N : ℝ) : EReal)) * ((∑ r, x r) * ((1 / N : ℝ) : EReal))
        = (v : EReal) := by
  rw [var_identity x hx N hN hN0.ne']
  exact var_two_pass_nonneg x hx hN0

/-- The one-pass variance (Σ x²)/N − ((Σ x)/N)·((Σ x)/N) of finite values over an index type of N > 0 elements is a
    nonnegative real. -/
theorem var_one_pass_div_nonneg {ι : Type*} [Fintype ι] (x : ι → EReal) (hx : ∀ r, IsReal (x r)) (N : ℝ)
    (hN : N = (Fintype.card ι : ℝ)) (hN0 : 0 < N) :
    ∃ v : ℝ, 0 ≤ v ∧
      Ideal.div (∑ r, x r * x r) (N : EReal) - Ideal.div (∑ r, x r) (N : EReal) * Ideal.div (∑ r, x r) (N : EReal)
        = (v : EReal) := by
  simp only [Ideal.div_coe hN0.ne']
  exact var_one_pass_nonneg x hx N hN hN0

/-- With a positive real e added, the reciprocal square root of the two-pass variance of finite values is finite. -/
theorem isReal_rsqrt_var_two_pass_div_add {ι : Type*} [Fintype ι] (x : ι → EReal) (hx : ∀ r, IsReal (x r)) {N : ℝ}
    (hN : 0 < N) {y : EReal} (hy : ∃ e : ℝ, 0 < e ∧ y = (e : EReal)) :
    IsReal (Ideal.rsqrt
      (Ideal.div (∑ r, (x r - Ideal.div (∑ s, x s) (N : EReal)) * (x r - Ideal.div (∑ s, x s) (N : EReal))) (N : EReal) + y)) :=
  isReal_rsqrt_add_of (var_two_pass_div_nonneg x hx hN) hy

/-- With a positive real e added, the reciprocal square root of the one-pass variance of finite values is finite. -/
theorem isReal_rsqrt_var_one_pass_div_add {ι : Type*} [Fintype ι] (x : ι → EReal) (hx : ∀ r, IsReal (x r)) (N : ℝ)
    (hN : N = (Fintype.card ι : ℝ)) (hN0 : 0 < N) {y : EReal} (hy : ∃ e : ℝ, 0 < e ∧ y = (e : EReal)) :
    IsReal (Ideal.rsqrt
      (Ideal.div (∑ r, x r * x r) (N : EReal) - Ideal.div (∑ r, x r) (N : EReal) * Ideal.div (∑ r, x r) (N : EReal) + y)) :=
  isReal_rsqrt_add_of (var_one_pass_div_nonneg x hx N hN hN0) hy

end Cert.LibBatchNorm

end
-- ==== Proof.SpecAlgA.lean ====
/-
  Every stage of the common function maps finite values to finite values.

  The words 512, 1/8, −∞ and the variance offset are evaluated as extended reals. A maximum over a nonempty finite
  axis, started from −∞, of finite values is one of them, so it is finite; the exponential of a finite value is a
  positive real, a sum of positive reals over a nonempty axis is a positive real, and so a softmax of finite values is
  finite. A matrix-product entry of finite matrices is a finite sum of products of finite values. Chaining these, the
  value that is normalised is finite at every token and channel when the four arrays that enter it are.
-/
import proofs.«132770_j30940944400685_2_alg».proof.Proof.Spec
import proofs.«132770_j30940944400685_2_alg».proof.Proof.LibBatchNorm
import proofs.«132770_j30940944400685_2_alg».proof.Proof.LibBatchNormVar

noncomputable section

namespace Cert.SpecAlg

open Idealize.ShloMosaic Cert.LibBatchNorm Cert.Spec
open scoped BigOperators

/-! ## The four words -/

/-- The 32-bit word 0x44000000 denotes the real 512. -/
theorem n512_eq : n512 = ((512 : ℝ) : EReal) := by
  unfold n512
  simp [Ideal.ofBits, Ideal.ieee, -EReal.coe_mul]; norm_num

/-- The 32-bit word 0x3E000000 denotes the real 1/8. -/
theorem eighth_eq : eighth = ((1 / 8 : ℝ) : EReal) := by
  unfold eighth
  simp [Ideal.ofBits, Ideal.ieee, -EReal.coe_mul]; norm_num

/-- The 32-bit word 0xFF800000 denotes −∞. -/
theorem negInf_eq : negInf = ⊥ := by
  unfold negInf
  simp [Ideal.ofBits, Ideal.ieee]

/-- The variance offset is a positive real. -/
theorem eps_pos_real : ∃ e : ℝ, 0 < e ∧ eps = (e : EReal) := ofBits_f32_eps_pos

/-- 1/8 is finite. -/
theorem isReal_eighth : IsReal eighth := ⟨_, eighth_eq⟩

/-! ## The maximum over a nonempty axis -/

/-- The maximum, started from −∞, of finite values over a nonempty axis is finite: it is below +∞ because −∞ and every
    value are, and above −∞ because one value is. -/
theorem isReal_maxOver {n : Nat} (hn : 0 < n) (f : Fin n → EReal) (hf : ∀ i, IsReal (f i)) : IsReal (maxOver f) := by
  rw [isReal_iff]
  unfold maxOver
  rw [negInf_eq]
  constructor
  · apply ne_of_gt
    rw [Finset.lt_fold_max]
    exact Or.inr ⟨⟨0, hn⟩, Finset.mem_univ _, bot_lt_iff_ne_bot.2 (isReal_iff.1 (hf _)).1⟩
  · apply ne_of_lt
    rw [Finset.fold_max_lt]
    exact ⟨bot_lt_top, fun i _ => lt_top_iff_ne_top.2 (isReal_iff.1 (hf i)).2⟩

/-! ## Softmax -/

/-- The softmax of finite values over a nonempty axis is finite: each exponential is a positive real, so is their sum,
    and the quotient of a real by a positive real is a real. -/
theorem isReal_softmax {n : Nat} (hn : 0 < n) (f : Fin n → EReal) (hf : ∀ i, IsReal (f i)) (i : Fin n) :
    IsReal (softmax f i) := by
  obtain ⟨m, hm⟩ := isReal_maxOver hn f hf
  choose a ha using hf
  have hexp : ∀ j, Ideal.exp (f j - maxOver f) = ((Real.exp (a j - m) : ℝ) : EReal) := fun j => by
    rw [ha j, hm, ← EReal.coe_sub, Ideal.exp_coe]
  unfold softmax
  simp only [hexp]
  rw [← coe_finset_sum]
  haveI : Nonempty (Fin n) := ⟨⟨0, hn⟩⟩
  exact (isReal_coe _).div_of_pos (isReal_coe _)
    (EReal.coe_pos.2 (Finset.sum_pos (fun j _ => Real.exp_pos _) Finset.univ_nonempty))

/-! ## The stages -/

/-- A [8, 64, 64, 512] array of finite values read as a matrix has finite entries. -/
theorem isReal_unflat (A : Fin 8 → Fin 64 → Fin 64 → Fin 512 → EReal) (hA : ∀ a i j k, IsReal (A a i j k))
    (r : Fin 32768) (k : Fin 512) : IsReal (unflat A r k) := hA _ _ _ _

/-- Stage 1: a projection of finite tokens by a finite matrix is finite. -/
theorem isReal_qkvS (X : Fin 32768 → Fin 512 → EReal) (W : Fin 512 → Fin 1536 → EReal) (hX : ∀ r k, IsReal (X r k))
    (hW : ∀ k c, IsReal (W k c)) (r : Fin 32768) (c : Fin 1536) : IsReal (qkvS X W r c) :=
  isReal_sum_mul _ _ (fun k => hX r k) (fun k => hW k c)

/-- Stage 2, one image and one head: linear attention of finite queries, keys and values is finite. -/
theorem isReal_attnHead (q k v : Fin 4096 → Fin 64 → EReal) (hq : ∀ n d, IsReal (q n d)) (hk : ∀ n d, IsReal (k n d))
    (hv : ∀ n d, IsReal (v n d)) (n : Fin 4096) (e : Fin 64) : IsReal (attnHead q k v n e) := by
  unfold attnHead
  refine isReal_sum_mul _ _ (fun d => ?_) (fun d => ?_)
  · exact (isReal_softmax (by norm_num) _ (fun d' => hq n d') d).mul isReal_eighth
  · exact isReal_sum_mul _ _ (fun m => isReal_softmax (by norm_num) _ (fun m' => hk m' d) m) (fun m => hv m e)

/-- Stage 2 as a matrix: the attention output of a finite projected matrix is finite. -/
theorem isReal_attnFlat (Q : Fin 32768 → Fin 1536 → EReal) (hQ : ∀ r c, IsReal (Q r c)) (r : Fin 32768) (c : Fin 512) :
    IsReal (attnFlat Q r c) := by
  unfold attnFlat attnS
  exact isReal_attnHead _ _ _ (fun _ _ => hQ _ _) (fun _ _ => hQ _ _) (fun _ _ => hQ _ _) _ _

/-- Stage 3: a projection of finite attention channels by a finite matrix plus a finite bias is finite. -/
theorem isReal_projS (A : Fin 32768 → Fin 512 → EReal) (Wo : Fin 512 → Fin 512 → EReal) (bo : Fin 512 → EReal)
    (hA : ∀ r k, IsReal (A r k)) (hWo : ∀ k c, IsReal (Wo k c)) (hbo : ∀ c, IsReal (bo c)) (r : Fin 32768) (c : Fin 512) :
    IsReal (projS A Wo bo r c) := by
  unfold projS projRow
  exact (isReal_sum_mul _ _ (fun k => hA r k) (fun k => hWo k c)).add (hbo c)

/-- What is normalised is finite at every token and channel when the input, the two weight matrices and the bias are. -/
theorem preLN_isReal (A : Fin 8 → Fin 64 → Fin 64 → Fin 512 → EReal) (W : Fin 512 → Fin 1536 → EReal)
    (Wo : Fin 512 → Fin 512 → EReal) (bo : Fin 512 → EReal)
    (hA : ∀ a i j k, IsReal (A a i j k)) (hW : ∀ k c, IsReal (W k c)) (hWo : ∀ k c, IsReal (Wo k c))
    (hbo : ∀ c, IsReal (bo c)) (r : Fin 32768) (c : Fin 512) : IsReal (preLN A W Wo bo r c) := by
  unfold preLN
  exact isReal_projS _ Wo bo
    (isReal_attnFlat _ (isReal_qkvS _ W (isReal_unflat A hA) hW)) hWo hbo r c

end Cert.SpecAlg

end
-- ==== Proof.SpecAlgB.lean ====
/-
  One token: the reciprocal square root as a factor against the square root as a divisor.

  For a token y of finite channels the mean (Σ y)/512 is finite, the biased variance (Σ (y − mean)²)/512 is a
  nonnegative real v, and the variance offset is a positive real e, so v + e is a positive real a. There the
  reciprocal square root is the real (√a)⁻¹ and the square root is the nonzero real √a, and for the finite
  deviation t = y c − mean the product t · (√a)⁻¹ and the quotient t / √a are the same real. Both normalised forms then
  multiply that one value by g c and add β c, so nothing is asked of g and β.
-/
import proofs.«132770_j30940944400685_2_alg».proof.Proof.SpecAlgA

noncomputable section

namespace Cert.SpecAlg

open Idealize.ShloMosaic Cert.LibBatchNorm Cert.Spec
open scoped BigOperators

/-- The mean of a token of finite channels is finite. -/
theorem isReal_meanRow (y : Fin 512 → EReal) (hy : ∀ c, IsReal (y c)) : IsReal (meanRow y) := by
  unfold meanRow
  rw [n512_eq]
  exact isReal_mean_div y hy (by norm_num)

/-- The biased variance of a token of finite channels is a nonnegative real. -/
theorem varRow_nonneg (y : Fin 512 → EReal) (hy : ∀ c, IsReal (y c)) : ∃ v : ℝ, 0 ≤ v ∧ varRow y = (v : EReal) := by
  unfold varRow meanRow
  rw [n512_eq]
  exact var_two_pass_div_nonneg y hy (by norm_num)

/-- For a finite t and a positive real a, t · rsqrt a = t / sqrt a. -/
theorem mul_rsqrt_eq_div_sqrt {t : EReal} (ht : IsReal t) {a : ℝ} (ha : 0 < a) :
    t * Ideal.rsqrt (a : EReal) = Ideal.div t (Ideal.sqrt (a : EReal)) := by
  obtain ⟨b, rfl⟩ := ht
  rw [rsqrt_coe_pos ha, Ideal.sqrt_coe, if_neg (not_lt.2 ha.le), div_coe_coe b (Real.sqrt_pos.2 ha).ne',
    ← EReal.coe_mul, div_eq_mul_inv]

/-- One token of finite channels: the two normalised forms agree at every channel. -/
theorem lnRow_eq (y g beta : Fin 512 → EReal) (hy : ∀ c, IsReal (y c)) (c : Fin 512) :
    lnRowK y g beta c = lnRowR y g beta c := by
  obtain ⟨v, hv, hvar⟩ := varRow_nonneg y hy
  obtain ⟨e, he, heps⟩ := eps_pos_real
  have ht : IsReal (y c - meanRow y) := (hy c).sub (isReal_meanRow y hy)
  unfold lnRowK lnRowR
  rw [hvar, heps, ← EReal.coe_add, mul_rsqrt_eq_div_sqrt ht (add_pos_of_nonneg_of_pos hv he)]

end Cert.SpecAlg

end
-- ==== Proof.SpecAlg.lean ====
/-
  The kernel's and the reference's functions agree on finite inputs.

  Both normalise the same value, token by token; that value is finite at every token and channel when the input, the
  two weight matrices and the bias are, and on a token of finite channels the two normalised forms agree.
-/
import proofs.«132770_j30940944400685_2_alg».proof.Proof.SpecAlgA
import proofs.«132770_j30940944400685_2_alg».proof.Proof.SpecAlgB

noncomputable section

namespace Cert.SpecAlg

open Idealize.ShloMosaic Cert.LibBatchNorm Cert.Spec
open scoped BigOperators

/-- On finite inputs the function with the reciprocal square root as a factor is the function with the square root as a
    divisor. -/
theorem outK_eq_outR (A : Fin 8 → Fin 64 → Fin 64 → Fin 512 → EReal) (W : Fin 512 → Fin 1536 → EReal)
    (Wo : Fin 512 → Fin 512 → EReal) (bo g beta : Fin 512 → EReal)
    (hA : ∀ a i j k, IsReal (A a i j k)) (hW : ∀ k c, IsReal (W k c)) (hWo : ∀ k c, IsReal (Wo k c))
    (hbo : ∀ c, IsReal (bo c)) : outK A W Wo bo g beta = outR A W Wo bo g beta := by
  funext r c
  unfold outK outR lnK lnR
  exact lnRow_eq _ g beta (fun c' => preLN_isReal A W Wo bo hA hW hWo hbo r c') c

end Cert.SpecAlg

end
-- ==== Proof.FiniteInputs.lean ====
/-
  From the printed precondition to "every input entry is a real number".

  The precondition is the conjunction, over the six input arrays, of all(|x| < +∞). A conjunction of one-bit words is 1
  exactly when both are; a reduction by "and" over every axis that answers 1 had a 1 at every entry; and an entry's
  comparison |x| < +∞ answering 1 says that x is neither infinity, that is, a real number.
-/
import proofs.«132770_j30940944400685_2_alg».proof.Proof.Gen.Pre_finite_inputs
import proofs.«132770_j30940944400685_2_alg».proof.Proof.LibBatchNorm
import Idealize.ShloMosaic.Lib.ReduceAll

noncomputable section

namespace Cert.FiniteInputs

open Idealize.ShloMosaic Cert.LibBatchNorm Cert.Pre_finite_inputs

/-- The shape with no axes has one index. -/
instance subsingleton_scalar_idx : Subsingleton S_.Idx := ⟨fun a b => funext fun d => d.elim0⟩

/-- One all(|x| < +∞) over an array of any shape: if the reduction by "and" answers 1, every entry is finite. -/
theorem all_finite {s : Shape} {axes : List (Fin s.rank)} (x : FVec Ideal s .f32)
    (bc : S_.BroadcastsInDim s (![] : Fin 0 → Fin s.rank)) (h : s.ReducesTo axes S_) (hu : 0 < S_.numel)
    (init : IVec S_ 1) (j : S_.Idx)
    (e : Host.reduce IntOp.andi
      (cmpf .olt (Host.absf x) (broadcastInDim s ![] bc (constant (F := Ideal) S_ .f32 0x7F800000#32))) init h hu j = 1#1)
    (i : s.Idx) : IsReal (x i) :=
  isReal_of_cmp_abs_lt_inf (Host.reduce_andi_all _ init h hu j e i)

variable [Cert.Pre_finite_inputs.Facts]

/-- If the printed precondition answers 1 on six arrays, every entry of each of them is finite. -/
theorem of_pre (x : FVec Ideal S8x64x64x512 .f32) (w : FVec Ideal S512x1536 .f32) (wo : FVec Ideal S512x512 .f32)
    (bo g beta : FVec Ideal S512 .f32)
    (h : Cert.Pre_finite_inputs.fn (F := Ideal) x w wo bo g beta = fun _ => 1#1) :
    (∀ i, IsReal (x i)) ∧ (∀ i, IsReal (w i)) ∧ (∀ i, IsReal (wo i)) ∧ (∀ i, IsReal (bo i)) ∧ (∀ i, IsReal (g i))
      ∧ (∀ i, IsReal (beta i)) := by
  have h0 := congrFun h (fun a => a.elim0)
  dsimp only [fn, fn_part1, andi] at h0
  simp only [IntOp.andi_eq_one] at h0
  obtain ⟨⟨⟨⟨⟨h1, h2⟩, h3⟩, h4⟩, h5⟩, h6⟩ := h0
  exact ⟨all_finite x _ _ _ _ _ h1, all_finite w _ _ _ _ _ h2, all_finite wo _ _ _ _ _ h3, all_finite bo _ _ _ _ _ h4,
    all_finite g _ _ _ _ _ h5, all_finite beta _ _ _ _ _ h6⟩

end Cert.FiniteInputs

end
-- ==== Proof.ProofAlg.lean ====
/-
  The algebraic conjunct assembled: at the ideal instance, from memories that agree on the six arguments, the
  kernel's result is the specification's output with the reciprocal square root as a factor, the reference's is
  the same output with the square root as a divisor, and on finite inputs — which the precondition grants —
  the two are one function.
-/
import proofs.«132770_j30940944400685_2_alg».proof.Defs
import proofs.«132770_j30940944400685_2_alg».proof.Proof.Spec
import proofs.«132770_j30940944400685_2_alg».proof.Proof.SpecAlg
import proofs.«132770_j30940944400685_2_alg».proof.Proof.FiniteInputs
import proofs.«132770_j30940944400685_2_alg».proof.Proof.RefTermAll
import proofs.«132770_j30940944400685_2_alg».proof.Proof.RefRun
import proofs.«132770_j30940944400685_2_alg».proof.Proof.RefSpec

noncomputable section

namespace Cert.Proof.Alg

open Idealize.ShloMosaic Idealize.ShloMosaic.TcCoe Idealize.SL.Sem Idealize.ShloMosaic.ValueIdx

variable [Cert.KernelIdeal.Facts] [Cert.ReferenceIdeal.Facts] [Cert.Pre_finite_inputs.Facts]

/-- From a run of the idealized kernel that ends at the specification's output (reciprocal square root as a
    factor) of its arguments: the algebraic conjunct. -/
theorem algebraic_of
    (krun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v4) = Cert.Spec.outArr (Cert.Spec.outK (Cert.Spec.cur4 (m ((c.tc : Thread Cert.KernelIdeal.nD Cert.KernelIdeal.τ).loc Cert.KernelIdeal.main_arg0))) (Cert.Spec.cur2 (m ((c.tc : Thread Cert.KernelIdeal.nD Cert.KernelIdeal.τ).loc Cert.KernelIdeal.main_arg1))) (Cert.Spec.cur2 (m ((c.tc : Thread Cert.KernelIdeal.nD Cert.KernelIdeal.τ).loc Cert.KernelIdeal.main_arg2))) (Cert.Spec.cur1 (m ((c.tc : Thread Cert.KernelIdeal.nD Cert.KernelIdeal.τ).loc Cert.KernelIdeal.main_arg3))) (Cert.Spec.cur1 (m ((c.tc : Thread Cert.KernelIdeal.nD Cert.KernelIdeal.τ).loc Cert.KernelIdeal.main_arg4))) (Cert.Spec.cur1 (m ((c.tc : Thread Cert.KernelIdeal.nD Cert.KernelIdeal.τ).loc Cert.KernelIdeal.main_arg5))))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))) :
    Cert.algebraic_KernelIdeal_ReferenceIdeal := by
  intro m ρ m' ρ' hpre hagree
  refine ⟨fun c => Cert.Spec.outArr (Cert.Spec.outK (Cert.Spec.cur4 (m ((c.tc : Thread Cert.KernelIdeal.nD Cert.KernelIdeal.τ).loc Cert.KernelIdeal.main_arg0))) (Cert.Spec.cur2 (m ((c.tc : Thread Cert.KernelIdeal.nD Cert.KernelIdeal.τ).loc Cert.KernelIdeal.main_arg1))) (Cert.Spec.cur2 (m ((c.tc : Thread Cert.KernelIdeal.nD Cert.KernelIdeal.τ).loc Cert.KernelIdeal.main_arg2))) (Cert.Spec.cur1 (m ((c.tc : Thread Cert.KernelIdeal.nD Cert.KernelIdeal.τ).loc Cert.KernelIdeal.main_arg3))) (Cert.Spec.cur1 (m ((c.tc : Thread Cert.KernelIdeal.nD Cert.KernelIdeal.τ).loc Cert.KernelIdeal.main_arg4))) (Cert.Spec.cur1 (m ((c.tc : Thread Cert.KernelIdeal.nD Cert.KernelIdeal.τ).loc Cert.KernelIdeal.main_arg5)))), krun m ρ, ?_⟩
  refine (θ_run (Cert.ReferenceIdeal.defs (F := Ideal)) _ _).mono (fun _ h c => ⟨(h c).1.trans ?_, (h c).2⟩)
    (Cert.ReferenceIdeal.RefRun.run m' ρ')
  rw [Cert.ReferenceIdeal.RefSpec.refTerm_eq_spec, (hagree c).1, (hagree c).2.1, (hagree c).2.2.1, (hagree c).2.2.2.1, (hagree c).2.2.2.2.1, (hagree c).2.2.2.2.2]
  have p := Cert.FiniteInputs.of_pre _ _ _ _ _ _ (hpre c)
  exact congrArg Cert.Spec.outArr
    (Cert.SpecAlg.outK_eq_outR _ _ _ _ _ _ (fun a i j k => p.1 (ix4 a i j k)) (fun k c => p.2.1 (ix2 k c))
      (fun k c => p.2.2.1 (ix2 k c)) (fun c => p.2.2.2.1 (ix1 c))).symm

end Cert.Proof.Alg

end
-- ==== Proof.lean ====
/-
  Linear attention followed by a channel normalisation, as three pallas_calls, against its jnp reference.

  Both programs compute, on the extended reals, ONE function of the six arguments (Proof/Spec.lean): tokens are
  projected onto queries, keys and values; per image and head the queries are normalised by a softmax over the 64
  features and scaled by 1/8, the keys by a softmax over the 4096 tokens, and out = q̂ · (k̂ᵀ v); the 512 attention
  channels of a token are projected, a bias is added, and the token is normalised over its 512 channels by the
  biased variance plus a fixed offset.

  The kernel reaches it in three regions: rows 1024 at a time for the projection; one image and one pair of heads
  at a time for the attention, reading three 128-lane column slabs of the projected matrix; rows 2048 at a time for
  the output projection and the normalisation. Each region's body loads its blocks whole, computes one value and
  stores it over its whole output block, so each output array ends holding one function of the region's inputs, block
  by block, and the three compose. The reference reaches it as 71 host operations over [8, 8, 64, 4096] arrays of
  [image, head, feature, token]; read index by index they are the same sums, maxima and quotients, the two
  arrangements meeting in the flat coordinates row = image · 4096 + token, column = part · 512 + head · 64 + feature.

  The programs differ in one place: the kernel multiplies a centred value by the reciprocal square root of the
  variance plus the offset, the reference divides by the square root. On the extended reals these agree where that
  sum is a positive real, which holds because every input is finite: a finite sum of products of reals is real, the
  exponential of a real is a positive real, so each softmax is real, and a variance of reals is a nonnegative real.
  That is the only use of the precondition in the value claim.

  The frames: every weakly fair execution terminates without a fault and the arguments end as launched. For the
  kernel program this is the launch of its five segments — reshape, three regions, reshape — each region's body run
  symbolically once at a generic grid point; the second region's three input windows read one array, which the
  device therefore holds in three shares through that region. It is proved once at any float instance and cited at
  the word level and at the ideal instance. For the reference it is its run with the result dropped.
-/
import proofs.«132770_j30940944400685_2_alg».proof.Defs
import proofs.«132770_j30940944400685_2_alg».proof.Proof.Gen.Kernel
import proofs.«132770_j30940944400685_2_alg».proof.Proof.Gen.KernelIdeal
import proofs.«132770_j30940944400685_2_alg».proof.Proof.Gen.ReferenceIdeal
import proofs.«132770_j30940944400685_2_alg».proof.Proof.Gen.Pre_finite_inputs
import proofs.«132770_j30940944400685_2_alg».proof.Proof.BFrameClaim
import proofs.«132770_j30940944400685_2_alg».proof.Proof.BReg1
import proofs.«132770_j30940944400685_2_alg».proof.Proof.KFrameClaim
import proofs.«132770_j30940944400685_2_alg».proof.Proof.KReg1
import proofs.«132770_j30940944400685_2_alg».proof.Proof.KValueClaim
import proofs.«132770_j30940944400685_2_alg».proof.Proof.RefRun
import proofs.«132770_j30940944400685_2_alg».proof.Proof.RefSpec
import proofs.«132770_j30940944400685_2_alg».proof.Proof.ProofAlg

noncomputable section

namespace Cert.Proof

open Idealize.ShloMosaic Idealize.SL.Sem

/-- The word-level kernel program runs to the end, faults nowhere and leaves its arguments as launched. -/
theorem frame_kernel : Cert.frame_Kernel := fun m ρ _ =>
  Cert.Kernel.Fr.frame_of m ρ (Cert.Kernel.Fr.reg1 m ρ) (fun _ => .rfl) (fun _ => .rfl)

/-- The same program read at the ideal instance. -/
theorem frame_kernelIdeal : Cert.frame_KernelIdeal := fun m ρ _ =>
  Cert.KernelIdeal.Fr.frame_of m ρ (Cert.KernelIdeal.Fr.reg1 m ρ) (fun _ => .rfl) (fun _ => .rfl)

/-- The reference's frame is its run with the result dropped. -/
theorem frame_reference : Cert.frame_ReferenceIdeal := fun m ρ _ =>
  (θ_run Cert.ReferenceIdeal.defs _ _).mono (fun _ h c => (h c).2) (Cert.ReferenceIdeal.RefRun.run m ρ)

/-- The ideal pass rewrote no operation: nothing to preserve. -/
theorem preserves : Cert.preserves_Kernel_KernelIdeal := trivial

/-- Both idealized programs end at the common function of arguments that agree: the kernel at its form with the
    reciprocal square root, the reference at its form with the square root, equal where the inputs are finite. -/
theorem algebraic : Cert.algebraic_KernelIdeal_ReferenceIdeal :=
  Cert.Proof.Alg.algebraic_of fun m ρ =>
    Cert.KernelIdeal.Fr.value_of m ρ (Cert.KernelIdeal.Fr.reg1 m ρ) (fun _ => .rfl) (fun _ => .rfl)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
